-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3x64x64 : Shape := ⟨3, ![3, 64, 64]⟩
abbrev S1600000 : Shape := ⟨1, ![1600000]⟩
abbrev S4096 : Shape := ⟨1, ![4096]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  main_v18

def fn {F : FTy → Type} [FloatOps F] (main_arg0 : FVec F S100000x64 .f32) (main_arg1 : FVec F S3x64x64 .f32) (main_arg2 : FVec F S3x64x64 .f32) (main_arg3 : FVec F S1600000 .f32) (main_arg4 : IVec S1600000 32) (main_arg5 : IVec S1600000 32) (main_arg6 : IVec S4096 32) (main_arg7 : IVec S4096 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg1
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64x64 .f32 := Host.absf main_arg2
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S1600000 .f32 := Host.absf main_arg3
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_v13 main_v16
-- ==== Kernel.lean ====
abbrev S100000x64 : Shape := ⟨2, ![100000, 64]⟩
abbrev S3x64x64 : Shape := ⟨3, ![3, 64, 64]⟩
abbrev S1600000 : Shape := ⟨1, ![1600000]⟩
abbrev S4096 : Shape := ⟨1, ![4096]⟩
abbrev S1600000x1 : Shape := ⟨2, ![1600000, 1]⟩
abbrev S_ : Shape := ⟨0, ![]⟩
abbrev S1600000x64 : Shape := ⟨2, ![1600000, 64]⟩
abbrev S1x64x64 : Shape := ⟨3, ![1, 64, 64]⟩
abbrev S64x64 : Shape := ⟨2, ![64, 64]⟩
abbrev S5000x64 : Shape := ⟨2, ![5000, 64]⟩
abbrev S100000x256 : Shape := ⟨2, ![100000, 256]⟩
abbrev S60000x256 : Shape := ⟨2, ![60000, 256]⟩
abbrev S40000x256 : Shape := ⟨2, ![40000, 256]⟩
abbrev S4096x1 : Shape := ⟨2, ![4096, 1]⟩
abbrev S4096x256 : Shape := ⟨2, ![4096, 256]⟩

abbrev nBuf : Space → Nat
  | .hbm => 92
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S3x64x64, .f32⟩
  | .hbm, ⟨2, _⟩ => ⟨S3x64x64, .f32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S4096, .i32⟩
  | .hbm, ⟨7, _⟩ => ⟨S4096, .i32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S1x64x64, .f32⟩
  | .hbm, ⟨25, _⟩ => ⟨S64x64, .f32⟩
  | .hbm, ⟨26, _⟩ => ⟨S1x64x64, .f32⟩
  | .hbm, ⟨27, _⟩ => ⟨S64x64, .f32⟩
  | .hbm, ⟨28, _⟩ => ⟨S100000x64, .f32⟩
  | .hbm, ⟨29, _⟩ => ⟨S1600000x1, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S1600000x64, .f32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S1x64x64, .f32⟩
  | .hbm, ⟨46, _⟩ => ⟨S64x64, .f32⟩
  | .hbm, ⟨47, _⟩ => ⟨S1x64x64, .f32⟩
  | .hbm, ⟨48, _⟩ => ⟨S64x64, .f32⟩
  | .hbm, ⟨49, _⟩ => ⟨S100000x64, .f32⟩
  | .hbm, ⟨50, _⟩ => ⟨S1600000x1, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S1600000x64, .f32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S1x64x64, .f32⟩
  | .hbm, ⟨67, _⟩ => ⟨S64x64, .f32⟩
  | .hbm, ⟨68, _⟩ => ⟨S1x64x64, .f32⟩
  | .hbm, ⟨69, _⟩ => ⟨S64x64, .f32⟩
  | .hbm, ⟨70, _⟩ => ⟨S100000x64, .f32⟩
  | .hbm, ⟨71, _⟩ => ⟨S100000x256, .f32⟩
  | .hbm, ⟨72, _⟩ => ⟨S60000x256, .f32⟩
  | .hbm, ⟨73, _⟩ => ⟨S40000x256, .f32⟩
  | .hbm, ⟨74, _⟩ => ⟨S_, .i32⟩
  | .hbm, ⟨75, _⟩ => ⟨S4096, .i32⟩
  | .hbm, ⟨76, _⟩ => ⟨S4096, .i1⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S4096, .i32⟩
  | .hbm, ⟨81, _⟩ => ⟨S4096x1, .i32⟩
  | .hbm, ⟨82, _⟩ => ⟨S4096x256, .f32⟩
  | .hbm, ⟨83, _⟩ => ⟨S_, .i32⟩
  | .hbm, ⟨84, _⟩ => ⟨S4096, .i32⟩
  | .hbm, ⟨85, _⟩ => ⟨S4096, .i1⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S4096, .i32⟩
  | .hbm, ⟨90, _⟩ => ⟨S4096x1, .i32⟩
  | .hbm, ⟨91, _⟩ => ⟨S4096x256, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S64x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S64x64, .f32⟩
  | .local _ .vmem, ⟨22, _⟩ => ⟨S5000x64, .f32⟩
  | .local _ .vmem, ⟨23, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_4 : Ref sig .tc := ⟨.hbm, 51, rfl⟩
abbrev main_v37 : Ref sig .tc := ⟨.hbm, 52, rfl⟩
abbrev main_v38 : Ref sig .tc := ⟨.hbm, 53, rfl⟩
abbrev main_c_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_7 : Ref sig .tc := ⟨.hbm, 74, rfl⟩
abbrev main_v57 : Ref sig .tc := ⟨.hbm, 75, rfl⟩
abbrev main_v58 : Ref sig .tc := ⟨.hbm, 76, rfl⟩
abbrev main_c_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_9 : Ref sig .tc := ⟨.hbm, 83, rfl⟩
abbrev main_v64 : Ref sig .tc := ⟨.hbm, 84, rfl⟩
abbrev main_v65 : Ref sig .tc := ⟨.hbm, 85, rfl⟩
abbrev main_c_10 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  slices_S3x64x64_S1x64x64_1_0_0 : S3x64x64.Slices ![1, 0, 0] S1x64x64
  slices_S3x64x64_S1x64x64_2_0_0 : S3x64x64.Slices ![2, 0, 0] S1x64x64
  concatenates_S100000x64_S100000x64_S100000x64_S100000x64_S100000x256_d1 : Shape.Concatenates [S100000x64, S100000x64, S100000x64, S100000x64] S100000x256 1
  slices_S100000x256_S60000x256_0_0 : S100000x256.Slices ![0, 0] S60000x256
  slices_S100000x256_S40000x256_60000_0 : S100000x256.Slices ![60000, 0] S40000x256
  bcast_S_S4096 : S_.BroadcastsInDim S4096 (![] : Fin 0 → Fin S4096.rank)
  bcast_S4096_S4096x1_0 : S4096.BroadcastsInDim S4096x1 (![0] : Fin 1 → Fin S4096x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  gather_S60000x256_S4096x1_S4096x256_1_0_n_n_0_1_1256_wf : GatherDims.WF S60000x256 S4096x1 S4096x256 [1] [0] [] [0] [] 1 ![1, 256]
  gather_S40000x256_S4096x1_S4096x256_1_0_n_n_0_1_1256_wf : GatherDims.WF S40000x256 S4096x1 S4096x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S60000x256_S4096x1_S4096x256_1_0_n_n_0_1_1256 : GatherDims S60000x256 S4096x1 S4096x256 where
  offsetDims := [1]
  collapsedSliceDims := [0]
  operandBatchingDims := []
  startIndicesBatchingDims := []
  startIndexMap := [0]
  indexVectorDim := 1
  sliceSizes := ![1, 256]
  wf := gather_S60000x256_S4096x1_S4096x256_1_0_n_n_0_1_1256_wf
def gather_S40000x256_S4096x1_S4096x256_1_0_n_n_0_1_1256 : GatherDims S40000x256 S4096x1 S4096x256 where
  offsetDims := [1]
  collapsedSliceDims := [0]
  operandBatchingDims := []
  startIndicesBatchingDims := []
  startIndexMap := [0]
  indexVectorDim := 1
  sliceSizes := ![1, 256]
  wf := gather_S40000x256_S4096x1_S4096x256_1_0_n_n_0_1_1256_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v17) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v35) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S3x64x64 : Shape := ⟨3, ![3, 64, 64]⟩
abbrev S1600000 : Shape := ⟨1, ![1600000]⟩
abbrev S4096 : Shape := ⟨1, ![4096]⟩
abbrev S1600000x1 : Shape := ⟨2, ![1600000, 1]⟩
abbrev S_ : Shape := ⟨0, ![]⟩
abbrev S1600000x64 : Shape := ⟨2, ![1600000, 64]⟩
abbrev S1x64x64 : Shape := ⟨3, ![1, 64, 64]⟩
abbrev S64x64 : Shape := ⟨2, ![64, 64]⟩
abbrev S100000x256 : Shape := ⟨2, ![100000, 256]⟩
abbrev S60000x256 : Shape := ⟨2, ![60000, 256]⟩
abbrev S40000x256 : Shape := ⟨2, ![40000, 256]⟩
abbrev S4096x1 : Shape := ⟨2, ![4096, 1]⟩
abbrev S4096x256 : Shape := ⟨2, ![4096, 256]⟩

abbrev nBuf : Space → Nat
  | .hbm => 128
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S3x64x64, .f32⟩
  | .hbm, ⟨2, _⟩ => ⟨S3x64x64, .f32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S4096, .i32⟩
  | .hbm, ⟨7, _⟩ => ⟨S4096, .i32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S100000x64, .f32⟩
  | .hbm, ⟨25, _⟩ => ⟨S100000x64, .f32⟩
  | .hbm, ⟨26, _⟩ => ⟨S1x64x64, .f32⟩
  | .hbm, ⟨27, _⟩ => ⟨S64x64, .f32⟩
  | .hbm, ⟨28, _⟩ => ⟨S100000x64, .f32⟩
  | .hbm, ⟨29, _⟩ => ⟨S1x64x64, .f32⟩
  | .hbm, ⟨30, _⟩ => ⟨S64x64, .f32⟩
  | .hbm, ⟨31, _⟩ => ⟨S100000x64, .f32⟩
  | .hbm, ⟨32, _⟩ => ⟨S100000x64, .f32⟩
  | .hbm, ⟨33, _⟩ => ⟨S_, .f32⟩
  | .hbm, ⟨34, _⟩ => ⟨S_, .f32⟩
  | .hbm, ⟨35, _⟩ => ⟨S100000x64, .f32⟩
  | .hbm, ⟨36, _⟩ => ⟨S100000x64, .i1⟩
  | .hbm, ⟨37, _⟩ => ⟨S_, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S1600000x1, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S1600000x64, .f32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S1x64x64, .f32⟩
  | .hbm, ⟨60, _⟩ => ⟨S64x64, .f32⟩
  | .hbm, ⟨61, _⟩ => ⟨S100000x64, .f32⟩
  | .hbm, ⟨62, _⟩ => ⟨S1x64x64, .f32⟩
  | .hbm, ⟨63, _⟩ => ⟨S64x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S_, .f32⟩
  | .hbm, ⟨68, _⟩ => ⟨S100000x64, .f32⟩
  | .hbm, ⟨69, _⟩ => ⟨S100000x64, .i1⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1600000x1, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x64, .f32⟩
  | .hbm, ⟨84, _⟩ => ⟨S1600000x64, .f32⟩
  | .hbm, ⟨85, _⟩ => ⟨S1600000x64, .f32⟩
  | .hbm, ⟨86, _⟩ => ⟨S_, .f32⟩
  | .hbm, ⟨87, _⟩ => ⟨S100000x64, .f32⟩
  | .hbm, ⟨88, _⟩ => ⟨S1600000x1, .i32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S1x64x64, .f32⟩
  | .hbm, ⟨93, _⟩ => ⟨S64x64, .f32⟩
  | .hbm, ⟨94, _⟩ => ⟨S100000x64, .f32⟩
  | .hbm, ⟨95, _⟩ => ⟨S1x64x64, .f32⟩
  | .hbm, ⟨96, _⟩ => ⟨S64x64, .f32⟩
  | .hbm, ⟨97, _⟩ => ⟨S100000x64, .f32⟩
  | .hbm, ⟨98, _⟩ => ⟨S100000x64, .f32⟩
  | .hbm, ⟨99, _⟩ => ⟨S_, .f32⟩
  | .hbm, ⟨100, _⟩ => ⟨S_, .f32⟩
  | .hbm, ⟨101, _⟩ => ⟨S100000x64, .f32⟩
  | .hbm, ⟨102, _⟩ => ⟨S100000x64, .i1⟩
  | .hbm, ⟨103, _⟩ => ⟨S_, .f32⟩
  | .hbm, ⟨104, _⟩ => ⟨S100000x64, .f32⟩
  | .hbm, ⟨105, _⟩ => ⟨S100000x64, .f32⟩
  | .hbm, ⟨106, _⟩ => ⟨S100000x64, .f32⟩
  | .hbm, ⟨107, _⟩ => ⟨S100000x256, .f32⟩
  | .hbm, ⟨108, _⟩ => ⟨S60000x256, .f32⟩
  | .hbm, ⟨109, _⟩ => ⟨S40000x256, .f32⟩
  | .hbm, ⟨110, _⟩ => ⟨S_, .i32⟩
  | .hbm, ⟨111, _⟩ => ⟨S4096, .i32⟩
  | .hbm, ⟨112, _⟩ => ⟨S4096, .i1⟩
  | .hbm, ⟨113, _⟩ => ⟨S_, .i32⟩
  | .hbm, ⟨114, _⟩ => ⟨S4096, .i32⟩
  | .hbm, ⟨115, _⟩ => ⟨S4096, .i32⟩
  | .hbm, ⟨116, _⟩ => ⟨S4096, .i32⟩
  | .hbm, ⟨117, _⟩ => ⟨S4096x1, .i32⟩
  | .hbm, ⟨118, _⟩ => ⟨S4096x256, .f32⟩
  | .hbm, ⟨119, _⟩ => ⟨S_, .i32⟩
  | .hbm, ⟨120, _⟩ => ⟨S4096, .i32⟩
  | .hbm, ⟨121, _⟩ => ⟨S4096, .i1⟩
  | .hbm, ⟨122, _⟩ => ⟨S_, .i32⟩
  | .hbm, ⟨123, _⟩ => ⟨S4096, .i32⟩
  | .hbm, ⟨124, _⟩ => ⟨S4096, .i32⟩
  | .hbm, ⟨125, _⟩ => ⟨S4096, .i32⟩
  | .hbm, ⟨126, _⟩ => ⟨S4096x1, .i32⟩
  | .hbm, ⟨127, _⟩ => ⟨S4096x256, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v22 : Ref sig .tc := ⟨.hbm, 40, rfl⟩
abbrev main_v23 : Ref sig .tc := ⟨.hbm, 41, rfl⟩
abbrev main_c_2 : Ref sig .tc := ⟨.hbm, 42, rfl⟩
abbrev main_v24 : Ref sig .tc := ⟨.hbm, 43, rfl⟩
abbrev main_v25 : Ref sig .tc := ⟨.hbm, 44, rfl⟩
abbrev main_c_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v45 : Ref sig .tc := ⟨.hbm, 73, rfl⟩
abbrev main_v46 : Ref sig .tc := ⟨.hbm, 74, rfl⟩
abbrev main_c_6 : Ref sig .tc := ⟨.hbm, 75, rfl⟩
abbrev main_v47 : Ref sig .tc := ⟨.hbm, 76, rfl⟩
abbrev main_v48 : Ref sig .tc := ⟨.hbm, 77, rfl⟩
abbrev main_c_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_9 : Ref sig .tc := ⟨.hbm, 99, rfl⟩
abbrev main_call2_cst : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_10 : Ref sig .tc := ⟨.hbm, 110, rfl⟩
abbrev main_v72 : Ref sig .tc := ⟨.hbm, 111, rfl⟩
abbrev main_v73 : Ref sig .tc := ⟨.hbm, 112, rfl⟩
abbrev main_c_11 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_12 : Ref sig .tc := ⟨.hbm, 119, rfl⟩
abbrev main_v79 : Ref sig .tc := ⟨.hbm, 120, rfl⟩
abbrev main_v80 : Ref sig .tc := ⟨.hbm, 121, rfl⟩
abbrev main_c_13 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  concatenates_S100000x64_S100000x64_S100000x64_S100000x64_S100000x256_d1 : Shape.Concatenates [S100000x64, S100000x64, S100000x64, S100000x64] S100000x256 1
  slices_S100000x256_S60000x256_0_0 : S100000x256.Slices ![0, 0] S60000x256
  slices_S100000x256_S40000x256_60000_0 : S100000x256.Slices ![60000, 0] S40000x256
  bcast_S_S4096 : S_.BroadcastsInDim S4096 (![] : Fin 0 → Fin S4096.rank)
  bcast_S4096_S4096x1_0 : S4096.BroadcastsInDim S4096x1 (![0] : Fin 1 → Fin S4096x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  gather_S60000x256_S4096x1_S4096x256_1_0_n_n_0_1_1256_wf : GatherDims.WF S60000x256 S4096x1 S4096x256 [1] [0] [] [0] [] 1 ![1, 256]
  gather_S40000x256_S4096x1_S4096x256_1_0_n_n_0_1_1256_wf : GatherDims.WF S40000x256 S4096x1 S4096x256 [1] [0] [] [0] [] 1 ![1, 256]

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S60000x256_S4096x1_S4096x256_1_0_n_n_0_1_1256 : GatherDims S60000x256 S4096x1 S4096x256 where
  offsetDims := [1]
  collapsedSliceDims := [0]
  operandBatchingDims := []
  startIndicesBatchingDims := []
  startIndexMap := [0]
  indexVectorDim := 1
  sliceSizes := ![1, 256]
  wf := gather_S60000x256_S4096x1_S4096x256_1_0_n_n_0_1_1256_wf
def gather_S40000x256_S4096x1_S4096x256_1_0_n_n_0_1_1256 : GatherDims S40000x256 S4096x1 S4096x256 where
  offsetDims := [1]
  collapsedSliceDims := [0]
  operandBatchingDims := []
  startIndicesBatchingDims := []
  startIndexMap := [0]
  indexVectorDim := 1
  sliceSizes := ![1, 256]
  wf := gather_S40000x256_S4096x1_S4096x256_1_0_n_n_0_1_1256_wf

class Facts : Prop extends Facts₀ where

variable [Facts]
-- ==== Proof.KCall0.lean ====
/-
  Call 0 of the layer kernel, at the buffer contents `V` the call is entered from.

  The kernel body reads a 5000×64 tile of the previous embeddings, the matching tile of the neighbourhood sums and the
  two 64×64 weight matrices, and stores one 5000×64 tile of the next embeddings; nothing is kept between grid points.
  So at every grid point each input buffer holds the block of its array the index map names (the weights are fetched
  once and stay), and after the body the output buffer holds the body's one stored value, a function of those four
  blocks alone. This module states that function (`tile0`), runs the body once on arbitrary whole buffers, packages
  the result as the pipeline's proof data, and discharges the per-point obligation of the pipeline.
-/
import proofs.«133226_j223338299967_1_alg».proof.Proof.Gen.Kernel.Launch
import proofs.«133226_j223338299967_1_alg».proof.Proof.Gen.Kernel.Skeleton
import proofs.«133226_j223338299967_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Combine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` names, read off the array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every grid point, whether the pipeline fetched it there or
    the block index has not moved since the last fetch — for any proof data over `V`'s arrays whose body leaves
    the input buffers as it found them. One statement per input window. -/
theorem found0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem found0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem found0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- The whole 5000×64 tile and the whole 64×64 matrix, as the rectangles the body loads and stores through. -/
abbrev wholeTile0 : Rect S5000x64 := Rect.unit (s := S5000x64) ![0, 0] S5000x64.size inb_S5000x64_S5000x64_0_0
abbrev wholeMat0 : Rect S64x64 := Rect.unit (s := S64x64) ![0, 0] S64x64.size inb_S64x64_S64x64_0_0

/-- What the body leaves in the output buffer: its one store, of the layer's value on the four input blocks. -/
def tile0 (e s : Vec F S5000x64 .f32) (w1 w2 : Vec F S64x64 .f32) : Vec F S5000x64 .f32 :=
  View.canon [⟨wholeTile0, k0_pay1 (View.ld e wholeTile0) (View.ld s wholeTile0) (View.ld w1 wholeMat0) (View.ld w2 wholeMat0)⟩]

/-- The one store covers the whole buffer. -/
theorem tile0_cover (p0 : Vec F S5000x64 .f32) (y : S5000x64.Idx) :
    ∃ pc ∈ ([⟨wholeTile0, p0⟩] : List (View.Piece (Elt F) S5000x64 .f32)), y ∈ pc.1.set :=
  View.cover_of_tiled [⟨wholeTile0, p0⟩] S5000x64.size (by rfl) y

set_option maxHeartbeats 1000000 in
/-- The body on whole buffers: the four inputs at known contents, the output at anything. It terminates without a
    fault, leaves the inputs as they were and the output at `tile0` of the inputs. -/
theorem body0_runs (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S5000x64 .f32) (harg5 : arg5.IsWhole)
    (e s : Vec F S5000x64 .f32) (w1 w2 : Vec F S64x64 .f32) (K : PUnit → sProp 𝕄) :
    iprop(owns (c : Thread nD τ) arg1 fullShare e ∗ owns (c : Thread nD τ) arg2 fullShare s
        ∗ owns (c : Thread nD τ) arg3 fullShare w1 ∗ owns (c : Thread nD τ) arg4 fullShare w2
        ∗ (∃ d, owns (c : Thread nD τ) arg5 fullShare d)
        ∗ (iprop(owns (c : Thread nD τ) arg1 fullShare e ∗ owns (c : Thread nD τ) arg2 fullShare s
            ∗ owns (c : Thread nD τ) arg3 fullShare w1 ∗ owns (c : Thread nD τ) arg4 fullShare w2
            ∗ owns (c : Thread nD τ) arg5 fullShare (tile0 e s w1 w2)) -∗ K ⟨⟩))
      ⊢ wp frame (wpE (defs₀ (F := F)) Variants.none c none) E (cc0__combine_kernel i arg1 harg1 arg2 harg2 arg3 harg3 arg4 harg4 arg5 harg5) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile0_cover _)

/-- The pipeline's proof data for this call on core `c`: the arrays as the call finds them; after the body at point
    `t` each input buffer at its block and the output buffer at `tile0` of the four blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => tile0 (blk0 V c 0 t) (blk0 V c 1 t) (blk0 V c 2 t) (blk0 V c 3 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = blk0 V c 2 t := by dsimp only [dat0]
theorem dat0_after_3 (c : Dev nD) (t : Fin cfg0.N) : (dat0 V c).after 3 t = blk0 V c 3 t := by dsimp only [dat0]
theorem dat0_after_4 (c : Dev nD) (t : Fin cfg0.N) :
    (dat0 V c).after 4 t = tile0 (blk0 V c 0 t) (blk0 V c 1 t) (blk0 V c 2 t) (blk0 V c 3 t) := by dsimp only [dat0]

theorem found0_0 (c : Dev nD) (t : Fin cfg0.N) (d) : (dat0 V c).before 0 t d = blk0 V c 0 t :=
  found0_0_of V (dat0 V c) (dat0_A V c 0) (dat0_after_0 V c) t d
theorem found0_1 (c : Dev nD) (t : Fin cfg0.N) (d) : (dat0 V c).before 1 t d = blk0 V c 1 t :=
  found0_1_of V (dat0 V c) (dat0_A V c 1) (dat0_after_1 V c) t d
theorem found0_2 (c : Dev nD) (t : Fin cfg0.N) (d) : (dat0 V c).before 2 t d = blk0 V c 2 t :=
  found0_2_of V (dat0 V c) (dat0_A V c 2) (dat0_after_2 V c) t d
theorem found0_3 (c : Dev nD) (t : Fin cfg0.N) (d) : (dat0 V c).before 3 t d = blk0 V c 3 t :=
  found0_3_of V (dat0 V c) (dat0_A V c 3) (dat0_after_3 V c) t d

/-- What the pipeline hands the body at point `t`, window by window, -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it takes back. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any grid point: the input buffers hold their blocks, so the single run above applies; the invariant
    and what the core owes pass through untouched. -/
theorem body0_at (c : Dev nD) (t : Fin cfg0.N) :
    handed0 V c t ⊢ wp frame (wpE (defs₀ (F := F)) Variants.none c none) Set.univ (bodyAt0 t) (fun _ => returned0 V c t) := by
  unfold handed0 returned0 bodyAt0
  simp only [found0_0, found0_1, found0_2, found0_3]
  rw [show (dat0 V c).Φ t.succ = (dat0 V c).Φ t.castSucc from rfl,
    show (dat0 V c).owesAt () t.succ = (dat0 V c).owesAt () t.castSucc from rfl,
    dat0_after_0, dat0_after_1, dat0_after_2, dat0_after_3, dat0_after_4]
  iintro ⟨HΦ, Ho, ⟨%d0, H0⟩, ⟨%d1, H1⟩, ⟨%d2, H2⟩, ⟨%d3, H3⟩, ⟨%d4, H4⟩⟩
  iapply (body0_runs c Set.univ _ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's per-point obligation for this call. -/
theorem obligation0 (c : Dev nD) : BodyObligation (dat0 (F := F) V c) (defs₀ (F := F)) Variants.none () Set.univ := fun t => by
  rw [bigSep_W0, bigSep_W0]
  exact body0_at V c t

end Cert.Kernel.Combine

end
-- ==== Proof.KCall1.lean ====
/-
  Call 1 of the layer kernel, at the buffer contents `V` the call is entered from.

  The kernel body reads a 5000×64 tile of the previous embeddings, the matching tile of the neighbourhood sums and the
  two 64×64 weight matrices, and stores one 5000×64 tile of the next embeddings; nothing is kept between grid points.
  So at every grid point each input buffer holds the block of its array the index map names (the weights are fetched
  once and stay), and after the body the output buffer holds the body's one stored value, a function of those four
  blocks alone. This module states that function (`tile1`), runs the body once on arbitrary whole buffers, packages
  the result as the pipeline's proof data, and discharges the per-point obligation of the pipeline.
-/
import proofs.«133226_j223338299967_1_alg».proof.Proof.Gen.Kernel.Launch
import proofs.«133226_j223338299967_1_alg».proof.Proof.Gen.Kernel.Skeleton
import proofs.«133226_j223338299967_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Combine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` names, read off the array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every grid point, whether the pipeline fetched it there or
    the block index has not moved since the last fetch — for any proof data over `V`'s arrays whose body leaves
    the input buffers as it found them. One statement per input window. -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem found1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem found1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- The whole 5000×64 tile and the whole 64×64 matrix, as the rectangles the body loads and stores through. -/
abbrev wholeTile1 : Rect S5000x64 := Rect.unit (s := S5000x64) ![0, 0] S5000x64.size inb_S5000x64_S5000x64_0_0
abbrev wholeMat1 : Rect S64x64 := Rect.unit (s := S64x64) ![0, 0] S64x64.size inb_S64x64_S64x64_0_0

/-- What the body leaves in the output buffer: its one store, of the layer's value on the four input blocks. -/
def tile1 (e s : Vec F S5000x64 .f32) (w1 w2 : Vec F S64x64 .f32) : Vec F S5000x64 .f32 :=
  View.canon [⟨wholeTile1, k1_pay1 (View.ld e wholeTile1) (View.ld s wholeTile1) (View.ld w1 wholeMat1) (View.ld w2 wholeMat1)⟩]

/-- The one store covers the whole buffer. -/
theorem tile1_cover (p0 : Vec F S5000x64 .f32) (y : S5000x64.Idx) :
    ∃ pc ∈ ([⟨wholeTile1, p0⟩] : List (View.Piece (Elt F) S5000x64 .f32)), y ∈ pc.1.set :=
  View.cover_of_tiled [⟨wholeTile1, p0⟩] S5000x64.size (by rfl) y

set_option maxHeartbeats 1000000 in
/-- The body on whole buffers: the four inputs at known contents, the output at anything. It terminates without a
    fault, leaves the inputs as they were and the output at `tile1` of the inputs. -/
theorem body1_runs (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S5000x64 .f32) (harg5 : arg5.IsWhole)
    (e s : Vec F S5000x64 .f32) (w1 w2 : Vec F S64x64 .f32) (K : PUnit → sProp 𝕄) :
    iprop(owns (c : Thread nD τ) arg1 fullShare e ∗ owns (c : Thread nD τ) arg2 fullShare s
        ∗ owns (c : Thread nD τ) arg3 fullShare w1 ∗ owns (c : Thread nD τ) arg4 fullShare w2
        ∗ (∃ d, owns (c : Thread nD τ) arg5 fullShare d)
        ∗ (iprop(owns (c : Thread nD τ) arg1 fullShare e ∗ owns (c : Thread nD τ) arg2 fullShare s
            ∗ owns (c : Thread nD τ) arg3 fullShare w1 ∗ owns (c : Thread nD τ) arg4 fullShare w2
            ∗ owns (c : Thread nD τ) arg5 fullShare (tile1 e s w1 w2)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile1_cover _)

/-- The pipeline's proof data for this call on core `c`: the arrays as the call finds them; after the body at point
    `t` each input buffer at its block and the output buffer at `tile1` of the four blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => tile1 (blk1 V c 0 t) (blk1 V c 1 t) (blk1 V c 2 t) (blk1 V c 3 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) : (dat1 V c).after 3 t = blk1 V c 3 t := by dsimp only [dat1]
theorem dat1_after_4 (c : Dev nD) (t : Fin cfg1.N) :
    (dat1 V c).after 4 t = tile1 (blk1 V c 0 t) (blk1 V c 1 t) (blk1 V c 2 t) (blk1 V c 3 t) := by dsimp only [dat1]

theorem found1_0 (c : Dev nD) (t : Fin cfg1.N) (d) : (dat1 V c).before 0 t d = blk1 V c 0 t :=
  found1_0_of V (dat1 V c) (dat1_A V c 0) (dat1_after_0 V c) t d
theorem found1_1 (c : Dev nD) (t : Fin cfg1.N) (d) : (dat1 V c).before 1 t d = blk1 V c 1 t :=
  found1_1_of V (dat1 V c) (dat1_A V c 1) (dat1_after_1 V c) t d
theorem found1_2 (c : Dev nD) (t : Fin cfg1.N) (d) : (dat1 V c).before 2 t d = blk1 V c 2 t :=
  found1_2_of V (dat1 V c) (dat1_A V c 2) (dat1_after_2 V c) t d
theorem found1_3 (c : Dev nD) (t : Fin cfg1.N) (d) : (dat1 V c).before 3 t d = blk1 V c 3 t :=
  found1_3_of V (dat1 V c) (dat1_A V c 3) (dat1_after_3 V c) t d

/-- What the pipeline hands the body at point `t`, window by window, -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it takes back. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any grid point: the input buffers hold their blocks, so the single run above applies; the invariant
    and what the core owes pass through untouched. -/
theorem body1_at (c : Dev nD) (t : Fin cfg1.N) :
    handed1 V c t ⊢ wp frame (wpE (defs₀ (F := F)) Variants.none c none) Set.univ (bodyAt1 t) (fun _ => returned1 V c t) := by
  unfold handed1 returned1 bodyAt1
  simp only [found1_0, found1_1, found1_2, found1_3]
  rw [show (dat1 V c).Φ t.succ = (dat1 V c).Φ t.castSucc from rfl,
    show (dat1 V c).owesAt () t.succ = (dat1 V c).owesAt () t.castSucc from rfl,
    dat1_after_0, dat1_after_1, dat1_after_2, dat1_after_3, dat1_after_4]
  iintro ⟨HΦ, Ho, ⟨%d0, H0⟩, ⟨%d1, H1⟩, ⟨%d2, H2⟩, ⟨%d3, H3⟩, ⟨%d4, H4⟩⟩
  iapply (body1_runs c Set.univ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's per-point obligation for this call. -/
theorem obligation1 (c : Dev nD) : BodyObligation (dat1 (F := F) V c) (defs₀ (F := F)) Variants.none () Set.univ := fun t => by
  rw [bigSep_W1, bigSep_W1]
  exact body1_at V c t

end Cert.Kernel.Combine

end
-- ==== Proof.KCall2.lean ====
/-
  Call 2 of the layer kernel, at the buffer contents `V` the call is entered from.

  The kernel body reads a 5000×64 tile of the previous embeddings, the matching tile of the neighbourhood sums and the
  two 64×64 weight matrices, and stores one 5000×64 tile of the next embeddings; nothing is kept between grid points.
  So at every grid point each input buffer holds the block of its array the index map names (the weights are fetched
  once and stay), and after the body the output buffer holds the body's one stored value, a function of those four
  blocks alone. This module states that function (`tile2`), runs the body once on arbitrary whole buffers, packages
  the result as the pipeline's proof data, and discharges the per-point obligation of the pipeline.
-/
import proofs.«133226_j223338299967_1_alg».proof.Proof.Gen.Kernel.Launch
import proofs.«133226_j223338299967_1_alg».proof.Proof.Gen.Kernel.Skeleton
import proofs.«133226_j223338299967_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Combine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` names, read off the array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every grid point, whether the pipeline fetched it there or
    the block index has not moved since the last fetch — for any proof data over `V`'s arrays whose body leaves
    the input buffers as it found them. One statement per input window. -/
theorem found2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem found2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem found2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem found2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- The whole 5000×64 tile and the whole 64×64 matrix, as the rectangles the body loads and stores through. -/
abbrev wholeTile2 : Rect S5000x64 := Rect.unit (s := S5000x64) ![0, 0] S5000x64.size inb_S5000x64_S5000x64_0_0
abbrev wholeMat2 : Rect S64x64 := Rect.unit (s := S64x64) ![0, 0] S64x64.size inb_S64x64_S64x64_0_0

/-- What the body leaves in the output buffer: its one store, of the layer's value on the four input blocks. -/
def tile2 (e s : Vec F S5000x64 .f32) (w1 w2 : Vec F S64x64 .f32) : Vec F S5000x64 .f32 :=
  View.canon [⟨wholeTile2, k2_pay1 (View.ld e wholeTile2) (View.ld s wholeTile2) (View.ld w1 wholeMat2) (View.ld w2 wholeMat2)⟩]

/-- The one store covers the whole buffer. -/
theorem tile2_cover (p0 : Vec F S5000x64 .f32) (y : S5000x64.Idx) :
    ∃ pc ∈ ([⟨wholeTile2, p0⟩] : List (View.Piece (Elt F) S5000x64 .f32)), y ∈ pc.1.set :=
  View.cover_of_tiled [⟨wholeTile2, p0⟩] S5000x64.size (by rfl) y

set_option maxHeartbeats 1000000 in
/-- The body on whole buffers: the four inputs at known contents, the output at anything. It terminates without a
    fault, leaves the inputs as they were and the output at `tile2` of the inputs. -/
theorem body2_runs (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S5000x64 .f32) (harg5 : arg5.IsWhole)
    (e s : Vec F S5000x64 .f32) (w1 w2 : Vec F S64x64 .f32) (K : PUnit → sProp 𝕄) :
    iprop(owns (c : Thread nD τ) arg1 fullShare e ∗ owns (c : Thread nD τ) arg2 fullShare s
        ∗ owns (c : Thread nD τ) arg3 fullShare w1 ∗ owns (c : Thread nD τ) arg4 fullShare w2
        ∗ (∃ d, owns (c : Thread nD τ) arg5 fullShare d)
        ∗ (iprop(owns (c : Thread nD τ) arg1 fullShare e ∗ owns (c : Thread nD τ) arg2 fullShare s
            ∗ owns (c : Thread nD τ) arg3 fullShare w1 ∗ owns (c : Thread nD τ) arg4 fullShare w2
            ∗ owns (c : Thread nD τ) arg5 fullShare (tile2 e s w1 w2)) -∗ K ⟨⟩))
      ⊢ wp frame (wpE (defs₀ (F := F)) Variants.none c none) E (cc2__combine_kernel i arg1 harg1 arg2 harg2 arg3 harg3 arg4 harg4 arg5 harg5) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile2_cover _)

/-- The pipeline's proof data for this call on core `c`: the arrays as the call finds them; after the body at point
    `t` each input buffer at its block and the output buffer at `tile2` of the four blocks; the scoped rest and the
    generator register untouched; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => tile2 (blk2 V c 0 t) (blk2 V c 1 t) (blk2 V c 2 t) (blk2 V c 3 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after_0 (c : Dev nD) (t : Fin cfg2.N) : (dat2 V c).after 0 t = blk2 V c 0 t := by dsimp only [dat2]
theorem dat2_after_1 (c : Dev nD) (t : Fin cfg2.N) : (dat2 V c).after 1 t = blk2 V c 1 t := by dsimp only [dat2]
theorem dat2_after_2 (c : Dev nD) (t : Fin cfg2.N) : (dat2 V c).after 2 t = blk2 V c 2 t := by dsimp only [dat2]
theorem dat2_after_3 (c : Dev nD) (t : Fin cfg2.N) : (dat2 V c).after 3 t = blk2 V c 3 t := by dsimp only [dat2]
theorem dat2_after_4 (c : Dev nD) (t : Fin cfg2.N) :
    (dat2 V c).after 4 t = tile2 (blk2 V c 0 t) (blk2 V c 1 t) (blk2 V c 2 t) (blk2 V c 3 t) := by dsimp only [dat2]

theorem found2_0 (c : Dev nD) (t : Fin cfg2.N) (d) : (dat2 V c).before 0 t d = blk2 V c 0 t :=
  found2_0_of V (dat2 V c) (dat2_A V c 0) (dat2_after_0 V c) t d
theorem found2_1 (c : Dev nD) (t : Fin cfg2.N) (d) : (dat2 V c).before 1 t d = blk2 V c 1 t :=
  found2_1_of V (dat2 V c) (dat2_A V c 1) (dat2_after_1 V c) t d
theorem found2_2 (c : Dev nD) (t : Fin cfg2.N) (d) : (dat2 V c).before 2 t d = blk2 V c 2 t :=
  found2_2_of V (dat2 V c) (dat2_A V c 2) (dat2_after_2 V c) t d
theorem found2_3 (c : Dev nD) (t : Fin cfg2.N) (d) : (dat2 V c).before 3 t d = blk2 V c 3 t :=
  found2_3_of V (dat2 V c) (dat2_A V c 3) (dat2_after_3 V c) t d

/-- What the pipeline hands the body at point `t`, window by window, -/
def handed2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it takes back. -/
def returned2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any grid point: the input buffers hold their blocks, so the single run above applies; the invariant
    and what the core owes pass through untouched. -/
theorem body2_at (c : Dev nD) (t : Fin cfg2.N) :
    handed2 V c t ⊢ wp frame (wpE (defs₀ (F := F)) Variants.none c none) Set.univ (bodyAt2 t) (fun _ => returned2 V c t) := by
  unfold handed2 returned2 bodyAt2
  simp only [found2_0, found2_1, found2_2, found2_3]
  rw [show (dat2 V c).Φ t.succ = (dat2 V c).Φ t.castSucc from rfl,
    show (dat2 V c).owesAt () t.succ = (dat2 V c).owesAt () t.castSucc from rfl,
    dat2_after_0, dat2_after_1, dat2_after_2, dat2_after_3, dat2_after_4]
  iintro ⟨HΦ, Ho, ⟨%d0, H0⟩, ⟨%d1, H1⟩, ⟨%d2, H2⟩, ⟨%d3, H3⟩, ⟨%d4, H4⟩⟩
  iapply (body2_runs c Set.univ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's per-point obligation for this call. -/
theorem obligation2 (c : Dev nD) : BodyObligation (dat2 (F := F) V c) (defs₀ (F := F)) Variants.none () Set.univ := fun t => by
  rw [bigSep_W2, bigSep_W2]
  exact body2_at V c t

end Cert.Kernel.Combine

end
-- ==== Proof.KRun.lean ====
/-
  The whole program as a run: four stretches of host operations with the three layer calls between them.

  `at0 … at7` are the contents of the unscoped buffers at the eight boundaries: the launch memory, then alternately
  "after a host stretch" (the stretch's operations applied in order) and "after a call" (the call's arrays at what its
  pipeline leaves, everything else untouched). Each call is entered from the boundary before it with the proof data of
  its own module at that boundary's contents. The run theorem says every weakly fair execution terminates without a
  fault and ends with every unscoped buffer at `at7`; the frame follows because no stretch and no call writes an
  argument.
-/
import proofs.«133226_j223338299967_1_alg».proof.Proof.KCall0
import proofs.«133226_j223338299967_1_alg».proof.Proof.KCall1
import proofs.«133226_j223338299967_1_alg».proof.Proof.KCall2
import proofs.«133226_j223338299967_1_alg».proof.Proof.Gen.Kernel.Regions

set_option maxRecDepth 16384

noncomputable section

namespace Cert.Kernel.Combine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch. -/
abbrev at0 : Dev nD → Valuation τ sig (Elt F) := fun c b => (s₀ m ρ).mem ((c : Dev nD), b)
/-- After the first host stretch: call 0 is entered from here. -/
abbrev at1 : Dev nD → Valuation τ sig (Elt F) := fun c => StableHlo.after hostOps0 (at0 m ρ c)
abbrev in1 : (c : Dev nD) → (b : Ref sig .tc) → Buf (Elt F) ((c : Thread nD τ).loc b) := fun c b => at1 m ρ c b

/-- After call 0: its arrays at what the pipeline leaves in them (the inputs as entered, the output's blocks written
    back), every other buffer as entered. -/
def at2 (c : Dev nD) : Valuation τ sig (Elt F) :=
  Pipeline.withArrays spec0 c (at1 m ρ c) fun w => (dat0 (in1 m ρ) c).arrAt w cfg0.N
theorem at2_arr (c : Dev nD) (w : Fin cfg0.W) :
    at2 m ρ c (Proc.devRef .tc (Pipeline.arrRef spec0 w)) = (dat0 (in1 m ρ) c).arrAt w cfg0.N := by
  unfold at2; exact Pipeline.withArrays_arr spec0 launch0.win.arr_inj c _ _ w
theorem at2_of_ne (c : Dev nD) (b : Ref sig .tc) (hb : ∀ w, Pipeline.arrRef spec0 w ≠ b) :
    at2 m ρ c (Proc.devRef .tc b) = at1 m ρ c (Proc.devRef .tc b) := by
  unfold at2; exact Pipeline.withArrays_of_ne spec0 c _ _ b hb
abbrev in2 : (c : Dev nD) → (b : Ref sig .tc) → Buf (Elt F) ((c : Thread nD τ).loc b) := fun c b => at2 m ρ c b
theorem at2_left (c : Dev nD) (w : Fin cfg0.W) : (dat0 (in1 m ρ) c).arrAt w cfg0.N = in2 m ρ c (Pipeline.arrRef spec0 w) :=
  (at2_arr m ρ c w).symm
theorem at2_kept (c : Dev nD) : ∀ b, b ∉ Finset.univ.image (Pipeline.arrRef spec0) → in2 m ρ c b = in1 m ρ c b :=
  fun b hb => at2_of_ne m ρ c b fun w e => hb (Finset.mem_image.mpr ⟨w, Finset.mem_univ _, e⟩)

/-- Call 0 changes only its output array: an input array comes back as entered, and no other buffer is an array
    of the call. -/
theorem at2_same (c : Dev nD) (b : Ref sig .tc) (hb : b ≠ main_v17) :
    at2 m ρ c (Proc.devRef .tc b) = at1 m ρ c (Proc.devRef .tc b) := by
  by_cases h : ∀ w, Pipeline.arrRef spec0 w ≠ b
  · exact at2_of_ne m ρ c b h
  · obtain ⟨w, hw⟩ := not_forall.mp h
    obtain rfl := not_not.mp hw
    rw [at2_arr]
    fin_cases w
    · exact ((dat0 (in1 m ρ) c).arrAt_in 0 rfl _).trans (dat0_A (in1 m ρ) c 0)
    · exact ((dat0 (in1 m ρ) c).arrAt_in 1 rfl _).trans (dat0_A (in1 m ρ) c 1)
    · exact ((dat0 (in1 m ρ) c).arrAt_in 2 rfl _).trans (dat0_A (in1 m ρ) c 2)
    · exact ((dat0 (in1 m ρ) c).arrAt_in 3 rfl _).trans (dat0_A (in1 m ρ) c 3)
    · exact absurd rfl hb

/-- After the second host stretch: call 1 is entered from here. -/
abbrev at3 : Dev nD → Valuation τ sig (Elt F) := fun c => StableHlo.after hostOps1 (at2 m ρ c)
abbrev in3 : (c : Dev nD) → (b : Ref sig .tc) → Buf (Elt F) ((c : Thread nD τ).loc b) := fun c b => at3 m ρ c b

/-- After call 1: its arrays at what the pipeline leaves in them (the inputs as entered, the output's blocks written
    back), every other buffer as entered. -/
def at4 (c : Dev nD) : Valuation τ sig (Elt F) :=
  Pipeline.withArrays spec1 c (at3 m ρ c) fun w => (dat1 (in3 m ρ) c).arrAt w cfg1.N
theorem at4_arr (c : Dev nD) (w : Fin cfg1.W) :
    at4 m ρ c (Proc.devRef .tc (Pipeline.arrRef spec1 w)) = (dat1 (in3 m ρ) c).arrAt w cfg1.N := by
  unfold at4; exact Pipeline.withArrays_arr spec1 launch1.win.arr_inj c _ _ w
theorem at4_of_ne (c : Dev nD) (b : Ref sig .tc) (hb : ∀ w, Pipeline.arrRef spec1 w ≠ b) :
    at4 m ρ c (Proc.devRef .tc b) = at3 m ρ c (Proc.devRef .tc b) := by
  unfold at4; exact Pipeline.withArrays_of_ne spec1 c _ _ b hb
abbrev in4 : (c : Dev nD) → (b : Ref sig .tc) → Buf (Elt F) ((c : Thread nD τ).loc b) := fun c b => at4 m ρ c b
theorem at4_left (c : Dev nD) (w : Fin cfg1.W) : (dat1 (in3 m ρ) c).arrAt w cfg1.N = in4 m ρ c (Pipeline.arrRef spec1 w) :=
  (at4_arr m ρ c w).symm
theorem at4_kept (c : Dev nD) : ∀ b, b ∉ Finset.univ.image (Pipeline.arrRef spec1) → in4 m ρ c b = in3 m ρ c b :=
  fun b hb => at4_of_ne m ρ c b fun w e => hb (Finset.mem_image.mpr ⟨w, Finset.mem_univ _, e⟩)

/-- Call 1 changes only its output array: an input array comes back as entered, and no other buffer is an array
    of the call. -/
theorem at4_same (c : Dev nD) (b : Ref sig .tc) (hb : b ≠ main_v35) :
    at4 m ρ c (Proc.devRef .tc b) = at3 m ρ c (Proc.devRef .tc b) := by
  by_cases h : ∀ w, Pipeline.arrRef spec1 w ≠ b
  · exact at4_of_ne m ρ c b h
  · obtain ⟨w, hw⟩ := not_forall.mp h
    obtain rfl := not_not.mp hw
    rw [at4_arr]
    fin_cases w
    · exact ((dat1 (in3 m ρ) c).arrAt_in 0 rfl _).trans (dat1_A (in3 m ρ) c 0)
    · exact ((dat1 (in3 m ρ) c).arrAt_in 1 rfl _).trans (dat1_A (in3 m ρ) c 1)
    · exact ((dat1 (in3 m ρ) c).arrAt_in 2 rfl _).trans (dat1_A (in3 m ρ) c 2)
    · exact ((dat1 (in3 m ρ) c).arrAt_in 3 rfl _).trans (dat1_A (in3 m ρ) c 3)
    · exact absurd rfl hb

/-- After the third host stretch: call 2 is entered from here. -/
abbrev at5 : Dev nD → Valuation τ sig (Elt F) := fun c => StableHlo.after hostOps2 (at4 m ρ c)
abbrev in5 : (c : Dev nD) → (b : Ref sig .tc) → Buf (Elt F) ((c : Thread nD τ).loc b) := fun c b => at5 m ρ c b

/-- After call 2: its arrays at what the pipeline leaves in them (the inputs as entered, the output's blocks written
    back), every other buffer as entered. -/
def at6 (c : Dev nD) : Valuation τ sig (Elt F) :=
  Pipeline.withArrays spec2 c (at5 m ρ c) fun w => (dat2 (in5 m ρ) c).arrAt w cfg2.N
theorem at6_arr (c : Dev nD) (w : Fin cfg2.W) :
    at6 m ρ c (Proc.devRef .tc (Pipeline.arrRef spec2 w)) = (dat2 (in5 m ρ) c).arrAt w cfg2.N := by
  unfold at6; exact Pipeline.withArrays_arr spec2 launch2.win.arr_inj c _ _ w
theorem at6_of_ne (c : Dev nD) (b : Ref sig .tc) (hb : ∀ w, Pipeline.arrRef spec2 w ≠ b) :
    at6 m ρ c (Proc.devRef .tc b) = at5 m ρ c (Proc.devRef .tc b) := by
  unfold at6; exact Pipeline.withArrays_of_ne spec2 c _ _ b hb
abbrev in6 : (c : Dev nD) → (b : Ref sig .tc) → Buf (Elt F) ((c : Thread nD τ).loc b) := fun c b => at6 m ρ c b
theorem at6_left (c : Dev nD) (w : Fin cfg2.W) : (dat2 (in5 m ρ) c).arrAt w cfg2.N = in6 m ρ c (Pipeline.arrRef spec2 w) :=
  (at6_arr m ρ c w).symm
theorem at6_kept (c : Dev nD) : ∀ b, b ∉ Finset.univ.image (Pipeline.arrRef spec2) → in6 m ρ c b = in5 m ρ c b :=
  fun b hb => at6_of_ne m ρ c b fun w e => hb (Finset.mem_image.mpr ⟨w, Finset.mem_univ _, e⟩)

/-- Call 2 changes only its output array: an input array comes back as entered, and no other buffer is an array
    of the call. -/
theorem at6_same (c : Dev nD) (b : Ref sig .tc) (hb : b ≠ main_v53) :
    at6 m ρ c (Proc.devRef .tc b) = at5 m ρ c (Proc.devRef .tc b) := by
  by_cases h : ∀ w, Pipeline.arrRef spec2 w ≠ b
  · exact at6_of_ne m ρ c b h
  · obtain ⟨w, hw⟩ := not_forall.mp h
    obtain rfl := not_not.mp hw
    rw [at6_arr]
    fin_cases w
    · exact ((dat2 (in5 m ρ) c).arrAt_in 0 rfl _).trans (dat2_A (in5 m ρ) c 0)
    · exact ((dat2 (in5 m ρ) c).arrAt_in 1 rfl _).trans (dat2_A (in5 m ρ) c 1)
    · exact ((dat2 (in5 m ρ) c).arrAt_in 2 rfl _).trans (dat2_A (in5 m ρ) c 2)
    · exact ((dat2 (in5 m ρ) c).arrAt_in 3 rfl _).trans (dat2_A (in5 m ρ) c 3)
    · exact absurd rfl hb

/-- After the last host stretch: the return. -/
abbrev at7 : Dev nD → Valuation τ sig (Elt F) := fun c => StableHlo.after hostOps3 (at6 m ρ c)

/-- A buffer that no host stretch writes and that is no call's output array ends as launched. The four stretches'
    write lists are decided; a call changes only its output array. -/
theorem at7_untouched (c : Dev nD) (b : Ref sig .tc)
    (h0 : b ∉ hostOps0_W) (h1 : b ∉ hostOps1_W) (h2 : b ∉ hostOps2_W) (h3 : b ∉ hostOps3_W)
    (k0 : b ≠ main_v17) (k1 : b ≠ main_v35) (k2 : b ≠ main_v53) :
    at7 m ρ c (Proc.devRef .tc b) = m ((c : Thread nD τ).loc b) :=
  calc at7 m ρ c (Proc.devRef .tc b)
    _ = at6 m ρ c (Proc.devRef .tc b) := StableHlo.after_of_writes_sub hostOps3 _ hostOps3_writes h3
    _ = at5 m ρ c (Proc.devRef .tc b) := at6_same m ρ c b k2
    _ = at4 m ρ c (Proc.devRef .tc b) := StableHlo.after_of_writes_sub hostOps2 _ hostOps2_writes h2
    _ = at3 m ρ c (Proc.devRef .tc b) := at4_same m ρ c b k1
    _ = at2 m ρ c (Proc.devRef .tc b) := StableHlo.after_of_writes_sub hostOps1 _ hostOps1_writes h1
    _ = at1 m ρ c (Proc.devRef .tc b) := at2_same m ρ c b k0
    _ = at0 m ρ c (Proc.devRef .tc b) := StableHlo.after_of_writes_sub hostOps0 _ hostOps0_writes h0
    _ = m ((c : Thread nD τ).loc b) := rfl

/-! ## The proof data family and what rides beside the buffers -/

/-- Every call's proof data, each at the contents its call is entered from. -/
def pdats : (p : Fin 3) → (c : Dev nD) → Dat τ (Elt F) Unit ℕ (UR sig nD τ) ℕ (Pipeline.pin (pcfgs (F := F)) adm p) c
  | ⟨0, _⟩ => fun c => dat0 (in1 m ρ) c
  | ⟨1, _⟩ => fun c => dat1 (in3 m ρ) c
  | ⟨2, _⟩ => fun c => dat2 (in5 m ρ) c
abbrev 𝒱₀ : Variants := Variants.none
abbrev L : GSem nD τ sig → Finset Unit := fun _ => ∅
abbrev lv : GSem nD τ sig → Unit → ℕ := fun _ _ => 0
/-- Beside the buffers every segment carries the core's generator register, at some state, and the fact that the
    core owes nothing. -/
abbrev R (c : Dev nD) : sProp 𝕄 := iprop((∃ r, prngReg c r) ∗ ∃ W, owes (c : Thread nD τ) (0 : CellTallies nD τ sig Unit) W)
/-- A stretch of host operations as a segment, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what is owed: every unscoped buffer at `at7`, the generator register somewhere. -/
abbrev atEnd (c : Dev nD) : sProp 𝕄 := iprop(StableHlo.held (c : Thread nD τ) (Pipeline.ucRefs τ sig) (at7 m ρ c) ∗ ∃ r, prngReg c r)

/-! ## The calls as segments -/

set_option backward.isDefEq.respectTransparency.types false in
/-- Call 0 as a segment: entered with every unscoped buffer at `at1`, left with them at `at2`. Its five arrays are
    split out of the unscoped buffers at entry and put back at exit; the generator register goes into the pipeline's
    invariant and comes back; nothing is owed and the kernel has no semaphore of its own. -/
def call0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (in1 m ρ) c).loose
  hwaits := Pipeline.hwaits_of_owed_zero _ _ _ _ L lv 0 fun _ _ => rfl
  pre c := iprop(StableHlo.held (c : Thread nD τ) (Pipeline.ucRefs τ sig) (at1 m ρ c) ∗ R c)
  post c := iprop(StableHlo.held (c : Thread nD τ) (Pipeline.ucRefs τ sig) (at2 m ρ c) ∗ R c)
  X c := iprop(∃ r, prngReg c r)
  Y c := iprop(∃ r, prngReg c r)
  Z c := Pipeline.unscopedRest (Ix := Unit) (Name := ℕ) (U := UR sig nD τ) (Lvl := ℕ) spec0 c (in1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (in1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (in1 m ρ c) (in2 m ρ c) ((pdats m ρ 0 c).arrAt · cfg0.N) (at2_left m ρ c) (at2_kept m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `at3`, left with them at `at4`. Its five arrays are
    split out of the unscoped buffers at entry and put back at exit; the generator register goes into the pipeline's
    invariant and comes back; nothing is owed and the kernel has no semaphore of its own. -/
def call1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (in3 m ρ) c).loose
  hwaits := Pipeline.hwaits_of_owed_zero _ _ _ _ L lv 1 fun _ _ => rfl
  pre c := iprop(StableHlo.held (c : Thread nD τ) (Pipeline.ucRefs τ sig) (at3 m ρ c) ∗ R c)
  post c := iprop(StableHlo.held (c : Thread nD τ) (Pipeline.ucRefs τ sig) (at4 m ρ c) ∗ R c)
  X c := iprop(∃ r, prngReg c r)
  Y c := iprop(∃ r, prngReg c r)
  Z c := Pipeline.unscopedRest (Ix := Unit) (Name := ℕ) (U := UR sig nD τ) (Lvl := ℕ) spec1 c (in3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (in3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (in3 m ρ c) (in4 m ρ c) ((pdats m ρ 1 c).arrAt · cfg1.N) (at4_left m ρ c) (at4_kept m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at `at5`, left with them at `at6`. Its five arrays are
    split out of the unscoped buffers at entry and put back at exit; the generator register goes into the pipeline's
    invariant and comes back; nothing is owed and the kernel has no semaphore of its own. -/
def call2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (in5 m ρ) c).loose
  hwaits := Pipeline.hwaits_of_owed_zero _ _ _ _ L lv 2 fun _ _ => rfl
  pre c := iprop(StableHlo.held (c : Thread nD τ) (Pipeline.ucRefs τ sig) (at5 m ρ c) ∗ R c)
  post c := iprop(StableHlo.held (c : Thread nD τ) (Pipeline.ucRefs τ sig) (at6 m ρ c) ∗ R c)
  X c := iprop(∃ r, prngReg c r)
  Y c := iprop(∃ r, prngReg c r)
  Z c := Pipeline.unscopedRest (Ix := Unit) (Name := ℕ) (U := UR sig nD τ) (Lvl := ℕ) spec2 c (in5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (in5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (in5 m ρ c) (in6 m ρ c) ((pdats m ρ 2 c).arrAt · cfg2.N) (at6_left m ρ c) (at6_kept m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (stretch hostOps0 hostOps0_sub hostOps0_fresh (at0 m ρ)),
    .region (call0 m ρ),
    .host (stretch hostOps1 hostOps1_sub hostOps1_fresh (at2 m ρ)),
    .region (call1 m ρ),
    .host (stretch hostOps2 hostOps2_sub hostOps2_fresh (at4 m ρ)),
    .region (call2 m ρ),
    .host (stretch hostOps3 hostOps3_sub hostOps3_fresh (at6 m ρ)) ]

theorem main_is_segs (c : Dev nD) : main (F := F) c = Pipeline.Seg.run (segs m ρ) := (main_chain c).trans (by chain_rfl)

set_option backward.isDefEq.respectTransparency.types false in
/-- THE RUN. From any memory with zero counters every weakly fair execution of the program terminates, nothing
    faults, and the final memory holds every unscoped buffer at `at7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = at7 m ρ c b) :=
  Pipeline.θ_run_regions_kit (pcfgs (F := F)) adm (pdats m ρ) () cellOf_inj emb₁ defs₀ 𝒱₀ L lv m ρ main (segs m ρ)
    (fun c Q => by rw [main_is_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m ρ c) ∗ R c)) (Tₙ := atEnd m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (at7 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (at0 m ρ c)
        from Pipeline.unscopedBufs_held c (at0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at7 m ρ c b)
    (hfin := fun c s' => by
      iintro ⟨⟨Hh, -⟩, HSI⟩
      unfold StableHlo.held
      imodintro
      iapply (pointsTo_read_all (Pipeline.ucRefs τ sig) (fun b => (((c : Thread nD τ)).1, b)) (at7 m ρ c) s')
      isplitl [Hh] <;> iassumption)
    (hQ := fun s h => h)

/-- THE FRAME: the program terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
    (h c _ (mem_uc main_arg0 (by decide))).trans (at7_untouched m ρ c main_arg0 (by decide) (by decide) (by decide) (by decide) (by decide) (by decide) (by decide)),
    (h c _ (mem_uc main_arg1 (by decide))).trans (at7_untouched m ρ c main_arg1 (by decide) (by decide) (by decide) (by decide) (by decide) (by decide) (by decide)),
    (h c _ (mem_uc main_arg2 (by decide))).trans (at7_untouched m ρ c main_arg2 (by decide) (by decide) (by decide) (by decide) (by decide) (by decide) (by decide)),
    (h c _ (mem_uc main_arg3 (by decide))).trans (at7_untouched m ρ c main_arg3 (by decide) (by decide) (by decide) (by decide) (by decide) (by decide) (by decide)),
    (h c _ (mem_uc main_arg4 (by decide))).trans (at7_untouched m ρ c main_arg4 (by decide) (by decide) (by decide) (by decide) (by decide) (by decide) (by decide)),
    (h c _ (mem_uc main_arg5 (by decide))).trans (at7_untouched m ρ c main_arg5 (by decide) (by decide) (by decide) (by decide) (by decide) (by decide) (by decide)),
    (h c _ (mem_uc main_arg6 (by decide))).trans (at7_untouched m ρ c main_arg6 (by decide) (by decide) (by decide) (by decide) (by decide) (by decide) (by decide)),
    (h c _ (mem_uc main_arg7 (by decide))).trans (at7_untouched m ρ c main_arg7 (by decide) (by decide) (by decide) (by decide) (by decide) (by decide) (by decide))⟩)
    (run m ρ)

end Cert.Kernel.Combine

end
-- ==== Proof.KICall0.lean ====
/-
  Call 0 of the layer kernel, at the buffer contents `V` the call is entered from.

  The kernel body reads a 5000×64 tile of the previous embeddings, the matching tile of the neighbourhood sums and the
  two 64×64 weight matrices, and stores one 5000×64 tile of the next embeddings; nothing is kept between grid points.
  So at every grid point each input buffer holds the block of its array the index map names (the weights are fetched
  once and stay), and after the body the output buffer holds the body's one stored value, a function of those four
  blocks alone. This module states that function (`tile0`), runs the body once on arbitrary whole buffers, packages
  the result as the pipeline's proof data, and discharges the per-point obligation of the pipeline.
-/
import proofs.«133226_j223338299967_1_alg».proof.Proof.Gen.KernelIdeal.Launch
import proofs.«133226_j223338299967_1_alg».proof.Proof.Gen.KernelIdeal.Skeleton
import proofs.«133226_j223338299967_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` names, read off the array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every grid point, whether the pipeline fetched it there or
    the block index has not moved since the last fetch — for any proof data over `V`'s arrays whose body leaves
    the input buffers as it found them. One statement per input window. -/
theorem found0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem found0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem found0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- The whole 5000×64 tile and the whole 64×64 matrix, as the rectangles the body loads and stores through. -/
abbrev wholeTile0 : Rect S5000x64 := Rect.unit (s := S5000x64) ![0, 0] S5000x64.size inb_S5000x64_S5000x64_0_0
abbrev wholeMat0 : Rect S64x64 := Rect.unit (s := S64x64) ![0, 0] S64x64.size inb_S64x64_S64x64_0_0

/-- What the body leaves in the output buffer: its one store, of the layer's value on the four input blocks. -/
def tile0 (e s : Vec F S5000x64 .f32) (w1 w2 : Vec F S64x64 .f32) : Vec F S5000x64 .f32 :=
  View.canon [⟨wholeTile0, k0_pay1 (View.ld e wholeTile0) (View.ld s wholeTile0) (View.ld w1 wholeMat0) (View.ld w2 wholeMat0)⟩]

/-- The one store covers the whole buffer. -/
theorem tile0_cover (p0 : Vec F S5000x64 .f32) (y : S5000x64.Idx) :
    ∃ pc ∈ ([⟨wholeTile0, p0⟩] : List (View.Piece (Elt F) S5000x64 .f32)), y ∈ pc.1.set :=
  View.cover_of_tiled [⟨wholeTile0, p0⟩] S5000x64.size (by rfl) y

set_option maxHeartbeats 1000000 in
/-- The body on whole buffers: the four inputs at known contents, the output at anything. It terminates without a
    fault, leaves the inputs as they were and the output at `tile0` of the inputs. -/
theorem body0_runs (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S5000x64 .f32) (harg5 : arg5.IsWhole)
    (e s : Vec F S5000x64 .f32) (w1 w2 : Vec F S64x64 .f32) (K : PUnit → sProp 𝕄) :
    iprop(owns (c : Thread nD τ) arg1 fullShare e ∗ owns (c : Thread nD τ) arg2 fullShare s
        ∗ owns (c : Thread nD τ) arg3 fullShare w1 ∗ owns (c : Thread nD τ) arg4 fullShare w2
        ∗ (∃ d, owns (c : Thread nD τ) arg5 fullShare d)
        ∗ (iprop(owns (c : Thread nD τ) arg1 fullShare e ∗ owns (c : Thread nD τ) arg2 fullShare s
            ∗ owns (c : Thread nD τ) arg3 fullShare w1 ∗ owns (c : Thread nD τ) arg4 fullShare w2
            ∗ owns (c : Thread nD τ) arg5 fullShare (tile0 e s w1 w2)) -∗ K ⟨⟩))
      ⊢ wp frame (wpE (defs₀ (F := F)) Variants.none c none) E (cc0__combine_kernel i arg1 harg1 arg2 harg2 arg3 harg3 arg4 harg4 arg5 harg5) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile0_cover _)

/-- The pipeline's proof data for this call on core `c`: the arrays as the call finds them; after the body at point
    `t` each input buffer at its block and the output buffer at `tile0` of the four blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => tile0 (blk0 V c 0 t) (blk0 V c 1 t) (blk0 V c 2 t) (blk0 V c 3 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = blk0 V c 2 t := by dsimp only [dat0]
theorem dat0_after_3 (c : Dev nD) (t : Fin cfg0.N) : (dat0 V c).after 3 t = blk0 V c 3 t := by dsimp only [dat0]
theorem dat0_after_4 (c : Dev nD) (t : Fin cfg0.N) :
    (dat0 V c).after 4 t = tile0 (blk0 V c 0 t) (blk0 V c 1 t) (blk0 V c 2 t) (blk0 V c 3 t) := by dsimp only [dat0]

theorem found0_0 (c : Dev nD) (t : Fin cfg0.N) (d) : (dat0 V c).before 0 t d = blk0 V c 0 t :=
  found0_0_of V (dat0 V c) (dat0_A V c 0) (dat0_after_0 V c) t d
theorem found0_1 (c : Dev nD) (t : Fin cfg0.N) (d) : (dat0 V c).before 1 t d = blk0 V c 1 t :=
  found0_1_of V (dat0 V c) (dat0_A V c 1) (dat0_after_1 V c) t d
theorem found0_2 (c : Dev nD) (t : Fin cfg0.N) (d) : (dat0 V c).before 2 t d = blk0 V c 2 t :=
  found0_2_of V (dat0 V c) (dat0_A V c 2) (dat0_after_2 V c) t d
theorem found0_3 (c : Dev nD) (t : Fin cfg0.N) (d) : (dat0 V c).before 3 t d = blk0 V c 3 t :=
  found0_3_of V (dat0 V c) (dat0_A V c 3) (dat0_after_3 V c) t d

/-- What the pipeline hands the body at point `t`, window by window, -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it takes back. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any grid point: the input buffers hold their blocks, so the single run above applies; the invariant
    and what the core owes pass through untouched. -/
theorem body0_at (c : Dev nD) (t : Fin cfg0.N) :
    handed0 V c t ⊢ wp frame (wpE (defs₀ (F := F)) Variants.none c none) Set.univ (bodyAt0 t) (fun _ => returned0 V c t) := by
  unfold handed0 returned0 bodyAt0
  simp only [found0_0, found0_1, found0_2, found0_3]
  rw [show (dat0 V c).Φ t.succ = (dat0 V c).Φ t.castSucc from rfl,
    show (dat0 V c).owesAt () t.succ = (dat0 V c).owesAt () t.castSucc from rfl,
    dat0_after_0, dat0_after_1, dat0_after_2, dat0_after_3, dat0_after_4]
  iintro ⟨HΦ, Ho, ⟨%d0, H0⟩, ⟨%d1, H1⟩, ⟨%d2, H2⟩, ⟨%d3, H3⟩, ⟨%d4, H4⟩⟩
  iapply (body0_runs c Set.univ _ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's per-point obligation for this call. -/
theorem obligation0 (c : Dev nD) : BodyObligation (dat0 (F := F) V c) (defs₀ (F := F)) Variants.none () Set.univ := fun t => by
  rw [bigSep_W0, bigSep_W0]
  exact body0_at V c t

end Cert.KernelIdeal.Combine

end
-- ==== Proof.KICall1.lean ====
/-
  Call 1 of the layer kernel, at the buffer contents `V` the call is entered from.

  The kernel body reads a 5000×64 tile of the previous embeddings, the matching tile of the neighbourhood sums and the
  two 64×64 weight matrices, and stores one 5000×64 tile of the next embeddings; nothing is kept between grid points.
  So at every grid point each input buffer holds the block of its array the index map names (the weights are fetched
  once and stay), and after the body the output buffer holds the body's one stored value, a function of those four
  blocks alone. This module states that function (`tile1`), runs the body once on arbitrary whole buffers, packages
  the result as the pipeline's proof data, and discharges the per-point obligation of the pipeline.
-/
import proofs.«133226_j223338299967_1_alg».proof.Proof.Gen.KernelIdeal.Launch
import proofs.«133226_j223338299967_1_alg».proof.Proof.Gen.KernelIdeal.Skeleton
import proofs.«133226_j223338299967_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` names, read off the array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every grid point, whether the pipeline fetched it there or
    the block index has not moved since the last fetch — for any proof data over `V`'s arrays whose body leaves
    the input buffers as it found them. One statement per input window. -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem found1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem found1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- The whole 5000×64 tile and the whole 64×64 matrix, as the rectangles the body loads and stores through. -/
abbrev wholeTile1 : Rect S5000x64 := Rect.unit (s := S5000x64) ![0, 0] S5000x64.size inb_S5000x64_S5000x64_0_0
abbrev wholeMat1 : Rect S64x64 := Rect.unit (s := S64x64) ![0, 0] S64x64.size inb_S64x64_S64x64_0_0

/-- What the body leaves in the output buffer: its one store, of the layer's value on the four input blocks. -/
def tile1 (e s : Vec F S5000x64 .f32) (w1 w2 : Vec F S64x64 .f32) : Vec F S5000x64 .f32 :=
  View.canon [⟨wholeTile1, k1_pay1 (View.ld e wholeTile1) (View.ld s wholeTile1) (View.ld w1 wholeMat1) (View.ld w2 wholeMat1)⟩]

/-- The one store covers the whole buffer. -/
theorem tile1_cover (p0 : Vec F S5000x64 .f32) (y : S5000x64.Idx) :
    ∃ pc ∈ ([⟨wholeTile1, p0⟩] : List (View.Piece (Elt F) S5000x64 .f32)), y ∈ pc.1.set :=
  View.cover_of_tiled [⟨wholeTile1, p0⟩] S5000x64.size (by rfl) y

set_option maxHeartbeats 1000000 in
/-- The body on whole buffers: the four inputs at known contents, the output at anything. It terminates without a
    fault, leaves the inputs as they were and the output at `tile1` of the inputs. -/
theorem body1_runs (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S5000x64 .f32) (harg5 : arg5.IsWhole)
    (e s : Vec F S5000x64 .f32) (w1 w2 : Vec F S64x64 .f32) (K : PUnit → sProp 𝕄) :
    iprop(owns (c : Thread nD τ) arg1 fullShare e ∗ owns (c : Thread nD τ) arg2 fullShare s
        ∗ owns (c : Thread nD τ) arg3 fullShare w1 ∗ owns (c : Thread nD τ) arg4 fullShare w2
        ∗ (∃ d, owns (c : Thread nD τ) arg5 fullShare d)
        ∗ (iprop(owns (c : Thread nD τ) arg1 fullShare e ∗ owns (c : Thread nD τ) arg2 fullShare s
            ∗ owns (c : Thread nD τ) arg3 fullShare w1 ∗ owns (c : Thread nD τ) arg4 fullShare w2
            ∗ owns (c : Thread nD τ) arg5 fullShare (tile1 e s w1 w2)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile1_cover _)

/-- The pipeline's proof data for this call on core `c`: the arrays as the call finds them; after the body at point
    `t` each input buffer at its block and the output buffer at `tile1` of the four blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => tile1 (blk1 V c 0 t) (blk1 V c 1 t) (blk1 V c 2 t) (blk1 V c 3 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) : (dat1 V c).after 3 t = blk1 V c 3 t := by dsimp only [dat1]
theorem dat1_after_4 (c : Dev nD) (t : Fin cfg1.N) :
    (dat1 V c).after 4 t = tile1 (blk1 V c 0 t) (blk1 V c 1 t) (blk1 V c 2 t) (blk1 V c 3 t) := by dsimp only [dat1]

theorem found1_0 (c : Dev nD) (t : Fin cfg1.N) (d) : (dat1 V c).before 0 t d = blk1 V c 0 t :=
  found1_0_of V (dat1 V c) (dat1_A V c 0) (dat1_after_0 V c) t d
theorem found1_1 (c : Dev nD) (t : Fin cfg1.N) (d) : (dat1 V c).before 1 t d = blk1 V c 1 t :=
  found1_1_of V (dat1 V c) (dat1_A V c 1) (dat1_after_1 V c) t d
theorem found1_2 (c : Dev nD) (t : Fin cfg1.N) (d) : (dat1 V c).before 2 t d = blk1 V c 2 t :=
  found1_2_of V (dat1 V c) (dat1_A V c 2) (dat1_after_2 V c) t d
theorem found1_3 (c : Dev nD) (t : Fin cfg1.N) (d) : (dat1 V c).before 3 t d = blk1 V c 3 t :=
  found1_3_of V (dat1 V c) (dat1_A V c 3) (dat1_after_3 V c) t d

/-- What the pipeline hands the body at point `t`, window by window, -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it takes back. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any grid point: the input buffers hold their blocks, so the single run above applies; the invariant
    and what the core owes pass through untouched. -/
theorem body1_at (c : Dev nD) (t : Fin cfg1.N) :
    handed1 V c t ⊢ wp frame (wpE (defs₀ (F := F)) Variants.none c none) Set.univ (bodyAt1 t) (fun _ => returned1 V c t) := by
  unfold handed1 returned1 bodyAt1
  simp only [found1_0, found1_1, found1_2, found1_3]
  rw [show (dat1 V c).Φ t.succ = (dat1 V c).Φ t.castSucc from rfl,
    show (dat1 V c).owesAt () t.succ = (dat1 V c).owesAt () t.castSucc from rfl,
    dat1_after_0, dat1_after_1, dat1_after_2, dat1_after_3, dat1_after_4]
  iintro ⟨HΦ, Ho, ⟨%d0, H0⟩, ⟨%d1, H1⟩, ⟨%d2, H2⟩, ⟨%d3, H3⟩, ⟨%d4, H4⟩⟩
  iapply (body1_runs c Set.univ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's per-point obligation for this call. -/
theorem obligation1 (c : Dev nD) : BodyObligation (dat1 (F := F) V c) (defs₀ (F := F)) Variants.none () Set.univ := fun t => by
  rw [bigSep_W1, bigSep_W1]
  exact body1_at V c t

end Cert.KernelIdeal.Combine

end
-- ==== Proof.KICall2.lean ====
/-
  Call 2 of the layer kernel, at the buffer contents `V` the call is entered from.

  The kernel body reads a 5000×64 tile of the previous embeddings, the matching tile of the neighbourhood sums and the
  two 64×64 weight matrices, and stores one 5000×64 tile of the next embeddings; nothing is kept between grid points.
  So at every grid point each input buffer holds the block of its array the index map names (the weights are fetched
  once and stay), and after the body the output buffer holds the body's one stored value, a function of those four
  blocks alone. This module states that function (`tile2`), runs the body once on arbitrary whole buffers, packages
  the result as the pipeline's proof data, and discharges the per-point obligation of the pipeline.
-/
import proofs.«133226_j223338299967_1_alg».proof.Proof.Gen.KernelIdeal.Launch
import proofs.«133226_j223338299967_1_alg».proof.Proof.Gen.KernelIdeal.Skeleton
import proofs.«133226_j223338299967_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` names, read off the array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every grid point, whether the pipeline fetched it there or
    the block index has not moved since the last fetch — for any proof data over `V`'s arrays whose body leaves
    the input buffers as it found them. One statement per input window. -/
theorem found2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem found2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem found2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem found2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- The whole 5000×64 tile and the whole 64×64 matrix, as the rectangles the body loads and stores through. -/
abbrev wholeTile2 : Rect S5000x64 := Rect.unit (s := S5000x64) ![0, 0] S5000x64.size inb_S5000x64_S5000x64_0_0
abbrev wholeMat2 : Rect S64x64 := Rect.unit (s := S64x64) ![0, 0] S64x64.size inb_S64x64_S64x64_0_0

/-- What the body leaves in the output buffer: its one store, of the layer's value on the four input blocks. -/
def tile2 (e s : Vec F S5000x64 .f32) (w1 w2 : Vec F S64x64 .f32) : Vec F S5000x64 .f32 :=
  View.canon [⟨wholeTile2, k2_pay1 (View.ld e wholeTile2) (View.ld s wholeTile2) (View.ld w1 wholeMat2) (View.ld w2 wholeMat2)⟩]

/-- The one store covers the whole buffer. -/
theorem tile2_cover (p0 : Vec F S5000x64 .f32) (y : S5000x64.Idx) :
    ∃ pc ∈ ([⟨wholeTile2, p0⟩] : List (View.Piece (Elt F) S5000x64 .f32)), y ∈ pc.1.set :=
  View.cover_of_tiled [⟨wholeTile2, p0⟩] S5000x64.size (by rfl) y

set_option maxHeartbeats 1000000 in
/-- The body on whole buffers: the four inputs at known contents, the output at anything. It terminates without a
    fault, leaves the inputs as they were and the output at `tile2` of the inputs. -/
theorem body2_runs (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S5000x64 .f32) (harg5 : arg5.IsWhole)
    (e s : Vec F S5000x64 .f32) (w1 w2 : Vec F S64x64 .f32) (K : PUnit → sProp 𝕄) :
    iprop(owns (c : Thread nD τ) arg1 fullShare e ∗ owns (c : Thread nD τ) arg2 fullShare s
        ∗ owns (c : Thread nD τ) arg3 fullShare w1 ∗ owns (c : Thread nD τ) arg4 fullShare w2
        ∗ (∃ d, owns (c : Thread nD τ) arg5 fullShare d)
        ∗ (iprop(owns (c : Thread nD τ) arg1 fullShare e ∗ owns (c : Thread nD τ) arg2 fullShare s
            ∗ owns (c : Thread nD τ) arg3 fullShare w1 ∗ owns (c : Thread nD τ) arg4 fullShare w2
            ∗ owns (c : Thread nD τ) arg5 fullShare (tile2 e s w1 w2)) -∗ K ⟨⟩))
      ⊢ wp frame (wpE (defs₀ (F := F)) Variants.none c none) E (cc2__combine_kernel i arg1 harg1 arg2 harg2 arg3 harg3 arg4 harg4 arg5 harg5) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile2_cover _)

/-- The pipeline's proof data for this call on core `c`: the arrays as the call finds them; after the body at point
    `t` each input buffer at its block and the output buffer at `tile2` of the four blocks; the scoped rest and the
    generator register untouched; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => tile2 (blk2 V c 0 t) (blk2 V c 1 t) (blk2 V c 2 t) (blk2 V c 3 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after_0 (c : Dev nD) (t : Fin cfg2.N) : (dat2 V c).after 0 t = blk2 V c 0 t := by dsimp only [dat2]
theorem dat2_after_1 (c : Dev nD) (t : Fin cfg2.N) : (dat2 V c).after 1 t = blk2 V c 1 t := by dsimp only [dat2]
theorem dat2_after_2 (c : Dev nD) (t : Fin cfg2.N) : (dat2 V c).after 2 t = blk2 V c 2 t := by dsimp only [dat2]
theorem dat2_after_3 (c : Dev nD) (t : Fin cfg2.N) : (dat2 V c).after 3 t = blk2 V c 3 t := by dsimp only [dat2]
theorem dat2_after_4 (c : Dev nD) (t : Fin cfg2.N) :
    (dat2 V c).after 4 t = tile2 (blk2 V c 0 t) (blk2 V c 1 t) (blk2 V c 2 t) (blk2 V c 3 t) := by dsimp only [dat2]

theorem found2_0 (c : Dev nD) (t : Fin cfg2.N) (d) : (dat2 V c).before 0 t d = blk2 V c 0 t :=
  found2_0_of V (dat2 V c) (dat2_A V c 0) (dat2_after_0 V c) t d
theorem found2_1 (c : Dev nD) (t : Fin cfg2.N) (d) : (dat2 V c).before 1 t d = blk2 V c 1 t :=
  found2_1_of V (dat2 V c) (dat2_A V c 1) (dat2_after_1 V c) t d
theorem found2_2 (c : Dev nD) (t : Fin cfg2.N) (d) : (dat2 V c).before 2 t d = blk2 V c 2 t :=
  found2_2_of V (dat2 V c) (dat2_A V c 2) (dat2_after_2 V c) t d
theorem found2_3 (c : Dev nD) (t : Fin cfg2.N) (d) : (dat2 V c).before 3 t d = blk2 V c 3 t :=
  found2_3_of V (dat2 V c) (dat2_A V c 3) (dat2_after_3 V c) t d

/-- What the pipeline hands the body at point `t`, window by window, -/
def handed2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it takes back. -/
def returned2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any grid point: the input buffers hold their blocks, so the single run above applies; the invariant
    and what the core owes pass through untouched. -/
theorem body2_at (c : Dev nD) (t : Fin cfg2.N) :
    handed2 V c t ⊢ wp frame (wpE (defs₀ (F := F)) Variants.none c none) Set.univ (bodyAt2 t) (fun _ => returned2 V c t) := by
  unfold handed2 returned2 bodyAt2
  simp only [found2_0, found2_1, found2_2, found2_3]
  rw [show (dat2 V c).Φ t.succ = (dat2 V c).Φ t.castSucc from rfl,
    show (dat2 V c).owesAt () t.succ = (dat2 V c).owesAt () t.castSucc from rfl,
    dat2_after_0, dat2_after_1, dat2_after_2, dat2_after_3, dat2_after_4]
  iintro ⟨HΦ, Ho, ⟨%d0, H0⟩, ⟨%d1, H1⟩, ⟨%d2, H2⟩, ⟨%d3, H3⟩, ⟨%d4, H4⟩⟩
  iapply (body2_runs c Set.univ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's per-point obligation for this call. -/
theorem obligation2 (c : Dev nD) : BodyObligation (dat2 (F := F) V c) (defs₀ (F := F)) Variants.none () Set.univ := fun t => by
  rw [bigSep_W2, bigSep_W2]
  exact body2_at V c t

end Cert.KernelIdeal.Combine

end
-- ==== Proof.KIRun.lean ====
/-
  The whole program as a run: four stretches of host operations with the three layer calls between them.

  `at0 … at7` are the contents of the unscoped buffers at the eight boundaries: the launch memory, then alternately
  "after a host stretch" (the stretch's operations applied in order) and "after a call" (the call's arrays at what its
  pipeline leaves, everything else untouched). Each call is entered from the boundary before it with the proof data of
  its own module at that boundary's contents. The run theorem says every weakly fair execution terminates without a
  fault and ends with every unscoped buffer at `at7`; the frame follows because no stretch and no call writes an
  argument.
-/
import proofs.«133226_j223338299967_1_alg».proof.Proof.KICall0
import proofs.«133226_j223338299967_1_alg».proof.Proof.KICall1
import proofs.«133226_j223338299967_1_alg».proof.Proof.KICall2
import proofs.«133226_j223338299967_1_alg».proof.Proof.Gen.KernelIdeal.Regions

set_option maxRecDepth 16384

noncomputable section

namespace Cert.KernelIdeal.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch. -/
abbrev at0 : Dev nD → Valuation τ sig (Elt F) := fun c b => (s₀ m ρ).mem ((c : Dev nD), b)
/-- After the first host stretch: call 0 is entered from here. -/
abbrev at1 : Dev nD → Valuation τ sig (Elt F) := fun c => StableHlo.after hostOps0 (at0 m ρ c)
abbrev in1 : (c : Dev nD) → (b : Ref sig .tc) → Buf (Elt F) ((c : Thread nD τ).loc b) := fun c b => at1 m ρ c b

/-- After call 0: its arrays at what the pipeline leaves in them (the inputs as entered, the output's blocks written
    back), every other buffer as entered. -/
def at2 (c : Dev nD) : Valuation τ sig (Elt F) :=
  Pipeline.withArrays spec0 c (at1 m ρ c) fun w => (dat0 (in1 m ρ) c).arrAt w cfg0.N
theorem at2_arr (c : Dev nD) (w : Fin cfg0.W) :
    at2 m ρ c (Proc.devRef .tc (Pipeline.arrRef spec0 w)) = (dat0 (in1 m ρ) c).arrAt w cfg0.N := by
  unfold at2; exact Pipeline.withArrays_arr spec0 launch0.win.arr_inj c _ _ w
theorem at2_of_ne (c : Dev nD) (b : Ref sig .tc) (hb : ∀ w, Pipeline.arrRef spec0 w ≠ b) :
    at2 m ρ c (Proc.devRef .tc b) = at1 m ρ c (Proc.devRef .tc b) := by
  unfold at2; exact Pipeline.withArrays_of_ne spec0 c _ _ b hb
abbrev in2 : (c : Dev nD) → (b : Ref sig .tc) → Buf (Elt F) ((c : Thread nD τ).loc b) := fun c b => at2 m ρ c b
theorem at2_left (c : Dev nD) (w : Fin cfg0.W) : (dat0 (in1 m ρ) c).arrAt w cfg0.N = in2 m ρ c (Pipeline.arrRef spec0 w) :=
  (at2_arr m ρ c w).symm
theorem at2_kept (c : Dev nD) : ∀ b, b ∉ Finset.univ.image (Pipeline.arrRef spec0) → in2 m ρ c b = in1 m ρ c b :=
  fun b hb => at2_of_ne m ρ c b fun w e => hb (Finset.mem_image.mpr ⟨w, Finset.mem_univ _, e⟩)

/-- Call 0 changes only its output array: an input array comes back as entered, and no other buffer is an array
    of the call. -/
theorem at2_same (c : Dev nD) (b : Ref sig .tc) (hb : b ≠ main_v17) :
    at2 m ρ c (Proc.devRef .tc b) = at1 m ρ c (Proc.devRef .tc b) := by
  by_cases h : ∀ w, Pipeline.arrRef spec0 w ≠ b
  · exact at2_of_ne m ρ c b h
  · obtain ⟨w, hw⟩ := not_forall.mp h
    obtain rfl := not_not.mp hw
    rw [at2_arr]
    fin_cases w
    · exact ((dat0 (in1 m ρ) c).arrAt_in 0 rfl _).trans (dat0_A (in1 m ρ) c 0)
    · exact ((dat0 (in1 m ρ) c).arrAt_in 1 rfl _).trans (dat0_A (in1 m ρ) c 1)
    · exact ((dat0 (in1 m ρ) c).arrAt_in 2 rfl _).trans (dat0_A (in1 m ρ) c 2)
    · exact ((dat0 (in1 m ρ) c).arrAt_in 3 rfl _).trans (dat0_A (in1 m ρ) c 3)
    · exact absurd rfl hb

/-- After the second host stretch: call 1 is entered from here. -/
abbrev at3 : Dev nD → Valuation τ sig (Elt F) := fun c => StableHlo.after hostOps1 (at2 m ρ c)
abbrev in3 : (c : Dev nD) → (b : Ref sig .tc) → Buf (Elt F) ((c : Thread nD τ).loc b) := fun c b => at3 m ρ c b

/-- After call 1: its arrays at what the pipeline leaves in them (the inputs as entered, the output's blocks written
    back), every other buffer as entered. -/
def at4 (c : Dev nD) : Valuation τ sig (Elt F) :=
  Pipeline.withArrays spec1 c (at3 m ρ c) fun w => (dat1 (in3 m ρ) c).arrAt w cfg1.N
theorem at4_arr (c : Dev nD) (w : Fin cfg1.W) :
    at4 m ρ c (Proc.devRef .tc (Pipeline.arrRef spec1 w)) = (dat1 (in3 m ρ) c).arrAt w cfg1.N := by
  unfold at4; exact Pipeline.withArrays_arr spec1 launch1.win.arr_inj c _ _ w
theorem at4_of_ne (c : Dev nD) (b : Ref sig .tc) (hb : ∀ w, Pipeline.arrRef spec1 w ≠ b) :
    at4 m ρ c (Proc.devRef .tc b) = at3 m ρ c (Proc.devRef .tc b) := by
  unfold at4; exact Pipeline.withArrays_of_ne spec1 c _ _ b hb
abbrev in4 : (c : Dev nD) → (b : Ref sig .tc) → Buf (Elt F) ((c : Thread nD τ).loc b) := fun c b => at4 m ρ c b
theorem at4_left (c : Dev nD) (w : Fin cfg1.W) : (dat1 (in3 m ρ) c).arrAt w cfg1.N = in4 m ρ c (Pipeline.arrRef spec1 w) :=
  (at4_arr m ρ c w).symm
theorem at4_kept (c : Dev nD) : ∀ b, b ∉ Finset.univ.image (Pipeline.arrRef spec1) → in4 m ρ c b = in3 m ρ c b :=
  fun b hb => at4_of_ne m ρ c b fun w e => hb (Finset.mem_image.mpr ⟨w, Finset.mem_univ _, e⟩)

/-- Call 1 changes only its output array: an input array comes back as entered, and no other buffer is an array
    of the call. -/
theorem at4_same (c : Dev nD) (b : Ref sig .tc) (hb : b ≠ main_v35) :
    at4 m ρ c (Proc.devRef .tc b) = at3 m ρ c (Proc.devRef .tc b) := by
  by_cases h : ∀ w, Pipeline.arrRef spec1 w ≠ b
  · exact at4_of_ne m ρ c b h
  · obtain ⟨w, hw⟩ := not_forall.mp h
    obtain rfl := not_not.mp hw
    rw [at4_arr]
    fin_cases w
    · exact ((dat1 (in3 m ρ) c).arrAt_in 0 rfl _).trans (dat1_A (in3 m ρ) c 0)
    · exact ((dat1 (in3 m ρ) c).arrAt_in 1 rfl _).trans (dat1_A (in3 m ρ) c 1)
    · exact ((dat1 (in3 m ρ) c).arrAt_in 2 rfl _).trans (dat1_A (in3 m ρ) c 2)
    · exact ((dat1 (in3 m ρ) c).arrAt_in 3 rfl _).trans (dat1_A (in3 m ρ) c 3)
    · exact absurd rfl hb

/-- After the third host stretch: call 2 is entered from here. -/
abbrev at5 : Dev nD → Valuation τ sig (Elt F) := fun c => StableHlo.after hostOps2 (at4 m ρ c)
abbrev in5 : (c : Dev nD) → (b : Ref sig .tc) → Buf (Elt F) ((c : Thread nD τ).loc b) := fun c b => at5 m ρ c b

/-- After call 2: its arrays at what the pipeline leaves in them (the inputs as entered, the output's blocks written
    back), every other buffer as entered. -/
def at6 (c : Dev nD) : Valuation τ sig (Elt F) :=
  Pipeline.withArrays spec2 c (at5 m ρ c) fun w => (dat2 (in5 m ρ) c).arrAt w cfg2.N
theorem at6_arr (c : Dev nD) (w : Fin cfg2.W) :
    at6 m ρ c (Proc.devRef .tc (Pipeline.arrRef spec2 w)) = (dat2 (in5 m ρ) c).arrAt w cfg2.N := by
  unfold at6; exact Pipeline.withArrays_arr spec2 launch2.win.arr_inj c _ _ w
theorem at6_of_ne (c : Dev nD) (b : Ref sig .tc) (hb : ∀ w, Pipeline.arrRef spec2 w ≠ b) :
    at6 m ρ c (Proc.devRef .tc b) = at5 m ρ c (Proc.devRef .tc b) := by
  unfold at6; exact Pipeline.withArrays_of_ne spec2 c _ _ b hb
abbrev in6 : (c : Dev nD) → (b : Ref sig .tc) → Buf (Elt F) ((c : Thread nD τ).loc b) := fun c b => at6 m ρ c b
theorem at6_left (c : Dev nD) (w : Fin cfg2.W) : (dat2 (in5 m ρ) c).arrAt w cfg2.N = in6 m ρ c (Pipeline.arrRef spec2 w) :=
  (at6_arr m ρ c w).symm
theorem at6_kept (c : Dev nD) : ∀ b, b ∉ Finset.univ.image (Pipeline.arrRef spec2) → in6 m ρ c b = in5 m ρ c b :=
  fun b hb => at6_of_ne m ρ c b fun w e => hb (Finset.mem_image.mpr ⟨w, Finset.mem_univ _, e⟩)

/-- Call 2 changes only its output array: an input array comes back as entered, and no other buffer is an array
    of the call. -/
theorem at6_same (c : Dev nD) (b : Ref sig .tc) (hb : b ≠ main_v53) :
    at6 m ρ c (Proc.devRef .tc b) = at5 m ρ c (Proc.devRef .tc b) := by
  by_cases h : ∀ w, Pipeline.arrRef spec2 w ≠ b
  · exact at6_of_ne m ρ c b h
  · obtain ⟨w, hw⟩ := not_forall.mp h
    obtain rfl := not_not.mp hw
    rw [at6_arr]
    fin_cases w
    · exact ((dat2 (in5 m ρ) c).arrAt_in 0 rfl _).trans (dat2_A (in5 m ρ) c 0)
    · exact ((dat2 (in5 m ρ) c).arrAt_in 1 rfl _).trans (dat2_A (in5 m ρ) c 1)
    · exact ((dat2 (in5 m ρ) c).arrAt_in 2 rfl _).trans (dat2_A (in5 m ρ) c 2)
    · exact ((dat2 (in5 m ρ) c).arrAt_in 3 rfl _).trans (dat2_A (in5 m ρ) c 3)
    · exact absurd rfl hb

/-- After the last host stretch: the return. -/
abbrev at7 : Dev nD → Valuation τ sig (Elt F) := fun c => StableHlo.after hostOps3 (at6 m ρ c)

/-- A buffer that no host stretch writes and that is no call's output array ends as launched. The four stretches'
    write lists are decided; a call changes only its output array. -/
theorem at7_untouched (c : Dev nD) (b : Ref sig .tc)
    (h0 : b ∉ hostOps0_W) (h1 : b ∉ hostOps1_W) (h2 : b ∉ hostOps2_W) (h3 : b ∉ hostOps3_W)
    (k0 : b ≠ main_v17) (k1 : b ≠ main_v35) (k2 : b ≠ main_v53) :
    at7 m ρ c (Proc.devRef .tc b) = m ((c : Thread nD τ).loc b) :=
  calc at7 m ρ c (Proc.devRef .tc b)
    _ = at6 m ρ c (Proc.devRef .tc b) := StableHlo.after_of_writes_sub hostOps3 _ hostOps3_writes h3
    _ = at5 m ρ c (Proc.devRef .tc b) := at6_same m ρ c b k2
    _ = at4 m ρ c (Proc.devRef .tc b) := StableHlo.after_of_writes_sub hostOps2 _ hostOps2_writes h2
    _ = at3 m ρ c (Proc.devRef .tc b) := at4_same m ρ c b k1
    _ = at2 m ρ c (Proc.devRef .tc b) := StableHlo.after_of_writes_sub hostOps1 _ hostOps1_writes h1
    _ = at1 m ρ c (Proc.devRef .tc b) := at2_same m ρ c b k0
    _ = at0 m ρ c (Proc.devRef .tc b) := StableHlo.after_of_writes_sub hostOps0 _ hostOps0_writes h0
    _ = m ((c : Thread nD τ).loc b) := rfl

/-! ## The proof data family and what rides beside the buffers -/

/-- Every call's proof data, each at the contents its call is entered from. -/
def pdats : (p : Fin 3) → (c : Dev nD) → Dat τ (Elt F) Unit ℕ (UR sig nD τ) ℕ (Pipeline.pin (pcfgs (F := F)) adm p) c
  | ⟨0, _⟩ => fun c => dat0 (in1 m ρ) c
  | ⟨1, _⟩ => fun c => dat1 (in3 m ρ) c
  | ⟨2, _⟩ => fun c => dat2 (in5 m ρ) c
abbrev 𝒱₀ : Variants := Variants.none
abbrev L : GSem nD τ sig → Finset Unit := fun _ => ∅
abbrev lv : GSem nD τ sig → Unit → ℕ := fun _ _ => 0
/-- Beside the buffers every segment carries the core's generator register, at some state, and the fact that the
    core owes nothing. -/
abbrev R (c : Dev nD) : sProp 𝕄 := iprop((∃ r, prngReg c r) ∗ ∃ W, owes (c : Thread nD τ) (0 : CellTallies nD τ sig Unit) W)
/-- A stretch of host operations as a segment, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what is owed: every unscoped buffer at `at7`, the generator register somewhere. -/
abbrev atEnd (c : Dev nD) : sProp 𝕄 := iprop(StableHlo.held (c : Thread nD τ) (Pipeline.ucRefs τ sig) (at7 m ρ c) ∗ ∃ r, prngReg c r)

/-! ## The calls as segments -/

set_option backward.isDefEq.respectTransparency.types false in
/-- Call 0 as a segment: entered with every unscoped buffer at `at1`, left with them at `at2`. Its five arrays are
    split out of the unscoped buffers at entry and put back at exit; the generator register goes into the pipeline's
    invariant and comes back; nothing is owed and the kernel has no semaphore of its own. -/
def call0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (in1 m ρ) c).loose
  hwaits := Pipeline.hwaits_of_owed_zero _ _ _ _ L lv 0 fun _ _ => rfl
  pre c := iprop(StableHlo.held (c : Thread nD τ) (Pipeline.ucRefs τ sig) (at1 m ρ c) ∗ R c)
  post c := iprop(StableHlo.held (c : Thread nD τ) (Pipeline.ucRefs τ sig) (at2 m ρ c) ∗ R c)
  X c := iprop(∃ r, prngReg c r)
  Y c := iprop(∃ r, prngReg c r)
  Z c := Pipeline.unscopedRest (Ix := Unit) (Name := ℕ) (U := UR sig nD τ) (Lvl := ℕ) spec0 c (in1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (in1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (in1 m ρ c) (in2 m ρ c) ((pdats m ρ 0 c).arrAt · cfg0.N) (at2_left m ρ c) (at2_kept m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `at3`, left with them at `at4`. Its five arrays are
    split out of the unscoped buffers at entry and put back at exit; the generator register goes into the pipeline's
    invariant and comes back; nothing is owed and the kernel has no semaphore of its own. -/
def call1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (in3 m ρ) c).loose
  hwaits := Pipeline.hwaits_of_owed_zero _ _ _ _ L lv 1 fun _ _ => rfl
  pre c := iprop(StableHlo.held (c : Thread nD τ) (Pipeline.ucRefs τ sig) (at3 m ρ c) ∗ R c)
  post c := iprop(StableHlo.held (c : Thread nD τ) (Pipeline.ucRefs τ sig) (at4 m ρ c) ∗ R c)
  X c := iprop(∃ r, prngReg c r)
  Y c := iprop(∃ r, prngReg c r)
  Z c := Pipeline.unscopedRest (Ix := Unit) (Name := ℕ) (U := UR sig nD τ) (Lvl := ℕ) spec1 c (in3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (in3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (in3 m ρ c) (in4 m ρ c) ((pdats m ρ 1 c).arrAt · cfg1.N) (at4_left m ρ c) (at4_kept m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at `at5`, left with them at `at6`. Its five arrays are
    split out of the unscoped buffers at entry and put back at exit; the generator register goes into the pipeline's
    invariant and comes back; nothing is owed and the kernel has no semaphore of its own. -/
def call2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (in5 m ρ) c).loose
  hwaits := Pipeline.hwaits_of_owed_zero _ _ _ _ L lv 2 fun _ _ => rfl
  pre c := iprop(StableHlo.held (c : Thread nD τ) (Pipeline.ucRefs τ sig) (at5 m ρ c) ∗ R c)
  post c := iprop(StableHlo.held (c : Thread nD τ) (Pipeline.ucRefs τ sig) (at6 m ρ c) ∗ R c)
  X c := iprop(∃ r, prngReg c r)
  Y c := iprop(∃ r, prngReg c r)
  Z c := Pipeline.unscopedRest (Ix := Unit) (Name := ℕ) (U := UR sig nD τ) (Lvl := ℕ) spec2 c (in5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (in5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (in5 m ρ c) (in6 m ρ c) ((pdats m ρ 2 c).arrAt · cfg2.N) (at6_left m ρ c) (at6_kept m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (stretch hostOps0 hostOps0_sub hostOps0_fresh (at0 m ρ)),
    .region (call0 m ρ),
    .host (stretch hostOps1 hostOps1_sub hostOps1_fresh (at2 m ρ)),
    .region (call1 m ρ),
    .host (stretch hostOps2 hostOps2_sub hostOps2_fresh (at4 m ρ)),
    .region (call2 m ρ),
    .host (stretch hostOps3 hostOps3_sub hostOps3_fresh (at6 m ρ)) ]

theorem main_is_segs (c : Dev nD) : main (F := F) c = Pipeline.Seg.run (segs m ρ) := (main_chain c).trans (by chain_rfl)

set_option backward.isDefEq.respectTransparency.types false in
/-- THE RUN. From any memory with zero counters every weakly fair execution of the program terminates, nothing
    faults, and the final memory holds every unscoped buffer at `at7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = at7 m ρ c b) :=
  Pipeline.θ_run_regions_kit (pcfgs (F := F)) adm (pdats m ρ) () cellOf_inj emb₁ defs₀ 𝒱₀ L lv m ρ main (segs m ρ)
    (fun c Q => by rw [main_is_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m ρ c) ∗ R c)) (Tₙ := atEnd m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (at7 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (at0 m ρ c)
        from Pipeline.unscopedBufs_held c (at0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at7 m ρ c b)
    (hfin := fun c s' => by
      iintro ⟨⟨Hh, -⟩, HSI⟩
      unfold StableHlo.held
      imodintro
      iapply (pointsTo_read_all (Pipeline.ucRefs τ sig) (fun b => (((c : Thread nD τ)).1, b)) (at7 m ρ c) s')
      isplitl [Hh] <;> iassumption)
    (hQ := fun s h => h)

/-- THE FRAME: the program terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
    (h c _ (mem_uc main_arg0 (by decide))).trans (at7_untouched m ρ c main_arg0 (by decide) (by decide) (by decide) (by decide) (by decide) (by decide) (by decide)),
    (h c _ (mem_uc main_arg1 (by decide))).trans (at7_untouched m ρ c main_arg1 (by decide) (by decide) (by decide) (by decide) (by decide) (by decide) (by decide)),
    (h c _ (mem_uc main_arg2 (by decide))).trans (at7_untouched m ρ c main_arg2 (by decide) (by decide) (by decide) (by decide) (by decide) (by decide) (by decide)),
    (h c _ (mem_uc main_arg3 (by decide))).trans (at7_untouched m ρ c main_arg3 (by decide) (by decide) (by decide) (by decide) (by decide) (by decide) (by decide)),
    (h c _ (mem_uc main_arg4 (by decide))).trans (at7_untouched m ρ c main_arg4 (by decide) (by decide) (by decide) (by decide) (by decide) (by decide) (by decide)),
    (h c _ (mem_uc main_arg5 (by decide))).trans (at7_untouched m ρ c main_arg5 (by decide) (by decide) (by decide) (by decide) (by decide) (by decide) (by decide)),
    (h c _ (mem_uc main_arg6 (by decide))).trans (at7_untouched m ρ c main_arg6 (by decide) (by decide) (by decide) (by decide) (by decide) (by decide) (by decide)),
    (h c _ (mem_uc main_arg7 (by decide))).trans (at7_untouched m ρ c main_arg7 (by decide) (by decide) (by decide) (by decide) (by decide) (by decide) (by decide))⟩)
    (run m ρ)

end Cert.KernelIdeal.Combine

end
-- ==== Proof.RefLine.lean ====
/-
  The reference program as one straight line of host operations, and its run.

  The reference has no kernel: it is 120 host operations once the three calls of the leaky activation are written out
  at their call sites over the buffers each call names. A straight line of host operations always terminates without
  a fault, and ends with every buffer at the fold of the operations over the launch contents.
-/
import proofs.«133226_j223338299967_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The reference's operations, in order. -/
abbrev ops : List (HloOp τ sig (Elt F)) :=
  [ StableHlo.unary main_arg3 main_v0 (broadcastInDim S1600000x1 ![0] bcast_S1600000_S1600000x1_0 : (⟨S1600000, .f32⟩ : BufTy).Contents (Elt F) → (⟨S1600000x1, .f32⟩ : BufTy).Contents (Elt F)),
    StableHlo.nullary main_c (constantI S_ 32 0#32),
    StableHlo.unary main_c main_v1 (broadcastInDim S1600000 ![] bcast_S_S1600000 : (⟨S_, .i32⟩ : BufTy).Contents (Elt F) → (⟨S1600000, .i32⟩ : BufTy).Contents (Elt F)),
    StableHlo.binary main_arg5 main_v1 main_v2 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v3 (broadcastInDim S1600000 ![] bcast_S_S1600000 : (⟨S_, .i32⟩ : BufTy).Contents (Elt F) → (⟨S1600000, .i32⟩ : BufTy).Contents (Elt F)),
    StableHlo.binary main_arg5 main_v3 main_v4 (addi : (⟨S1600000, .i32⟩ : BufTy).Contents (Elt F) → (⟨S1600000, .i32⟩ : BufTy).Contents (Elt F) → (⟨S1600000, .i32⟩ : BufTy).Contents (Elt F)),
    StableHlo.ternary main_v2 main_v4 main_arg5 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v5 main_v6 (broadcastInDim S1600000x1 ![0] bcast_S1600000_S1600000x1_0 : (⟨S1600000, .i32⟩ : BufTy).Contents (Elt F) → (⟨S1600000x1, .i32⟩ : BufTy).Contents (Elt F)),
    StableHlo.binary main_arg0 main_v6 main_v7 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v0 main_v8 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v8 main_v7 main_v9 (mulf : (⟨S1600000x64, .f32⟩ : BufTy).Contents (Elt F) → (⟨S1600000x64, .f32⟩ : BufTy).Contents (Elt F) → (⟨S1600000x64, .f32⟩ : BufTy).Contents (Elt F)),
    StableHlo.nullary main_cst (constant S_ .f32 0x00000000#32),
    StableHlo.unary main_cst main_v10 (broadcastInDim S100000x64 ![] bcast_S_S100000x64 : (⟨S_, .f32⟩ : BufTy).Contents (Elt F) → (⟨S100000x64, .f32⟩ : BufTy).Contents (Elt F)),
    StableHlo.unary main_arg4 main_v11 (broadcastInDim S1600000x1 ![0] bcast_S1600000_S1600000x1_0 : (⟨S1600000, .i32⟩ : BufTy).Contents (Elt F) → (⟨S1600000x1, .i32⟩ : BufTy).Contents (Elt F)),
    StableHlo.ternary main_v10 main_v11 main_v9 main_v12 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v12 main_arg0 main_v13 (addf : (⟨S100000x64, .f32⟩ : BufTy).Contents (Elt F) → (⟨S100000x64, .f32⟩ : BufTy).Contents (Elt F) → (⟨S100000x64, .f32⟩ : BufTy).Contents (Elt F)),
    StableHlo.binary main_arg0 main_v12 main_v14 (mulf : (⟨S100000x64, .f32⟩ : BufTy).Contents (Elt F) → (⟨S100000x64, .f32⟩ : BufTy).Contents (Elt F) → (⟨S100000x64, .f32⟩ : BufTy).Contents (Elt F)),
    StableHlo.unary main_arg1 main_v15 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v15 main_v16 rfl shapeCasts_S1x64x64_S64x64,
    StableHlo.binary main_v13 main_v16 main_v17 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg2 main_v18 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v18 main_v19 rfl shapeCasts_S1x64x64_S64x64,
    StableHlo.binary main_v14 main_v19 main_v20 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v17 main_v20 main_v21 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x3E4CCCCD#32),
    StableHlo.TRef.nullary main_call0.cst (constant S_ .f32 0x00000000#32),
    StableHlo.TRef.unary main_call0.cst main_call0.v0 (broadcastInDim S100000x64 ![] bcast_S_S100000x64),
    StableHlo.TRef.binary (.of main_v21) main_call0.v0 main_call0.v1 (cmpf .oge),
    StableHlo.TRef.unary (.of main_cst_1) main_call0.v2 id,
    StableHlo.TRef.unary main_call0.v2 main_call0.v3 (broadcastInDim S100000x64 ![] bcast_S_S100000x64),
    StableHlo.TRef.binary main_call0.v3 (.of main_v21) main_call0.v4 mulf,
    StableHlo.TRef.ternary main_call0.v1 (.of main_v21) main_call0.v4 main_call0.call0.v0 select,
    StableHlo.unary main_arg3 main_v23 (broadcastInDim S1600000x1 ![0] bcast_S1600000_S1600000x1_0 : (⟨S1600000, .f32⟩ : BufTy).Contents (Elt F) → (⟨S1600000x1, .f32⟩ : BufTy).Contents (Elt F)),
    StableHlo.nullary main_c_2 (constantI S_ 32 0#32),
    StableHlo.unary main_c_2 main_v24 (broadcastInDim S1600000 ![] bcast_S_S1600000 : (⟨S_, .i32⟩ : BufTy).Contents (Elt F) → (⟨S1600000, .i32⟩ : BufTy).Contents (Elt F)),
    StableHlo.binary main_arg5 main_v24 main_v25 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v26 (broadcastInDim S1600000 ![] bcast_S_S1600000 : (⟨S_, .i32⟩ : BufTy).Contents (Elt F) → (⟨S1600000, .i32⟩ : BufTy).Contents (Elt F)),
    StableHlo.binary main_arg5 main_v26 main_v27 (addi : (⟨S1600000, .i32⟩ : BufTy).Contents (Elt F) → (⟨S1600000, .i32⟩ : BufTy).Contents (Elt F) → (⟨S1600000, .i32⟩ : BufTy).Contents (Elt F)),
    StableHlo.ternary main_v25 main_v27 main_arg5 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v28 main_v29 (broadcastInDim S1600000x1 ![0] bcast_S1600000_S1600000x1_0 : (⟨S1600000, .i32⟩ : BufTy).Contents (Elt F) → (⟨S1600000x1, .i32⟩ : BufTy).Contents (Elt F)),
    StableHlo.binary main_v22 main_v29 main_v30 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v23 main_v31 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v31 main_v30 main_v32 (mulf : (⟨S1600000x64, .f32⟩ : BufTy).Contents (Elt F) → (⟨S1600000x64, .f32⟩ : BufTy).Contents (Elt F) → (⟨S1600000x64, .f32⟩ : BufTy).Contents (Elt F)),
    StableHlo.nullary main_cst_4 (constant S_ .f32 0x00000000#32),
    StableHlo.unary main_cst_4 main_v33 (broadcastInDim S100000x64 ![] bcast_S_S100000x64 : (⟨S_, .f32⟩ : BufTy).Contents (Elt F) → (⟨S100000x64, .f32⟩ : BufTy).Contents (Elt F)),
    StableHlo.unary main_arg4 main_v34 (broadcastInDim S1600000x1 ![0] bcast_S1600000_S1600000x1_0 : (⟨S1600000, .i32⟩ : BufTy).Contents (Elt F) → (⟨S1600000x1, .i32⟩ : BufTy).Contents (Elt F)),
    StableHlo.ternary main_v33 main_v34 main_v32 main_v35 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v35 main_v22 main_v36 (addf : (⟨S100000x64, .f32⟩ : BufTy).Contents (Elt F) → (⟨S100000x64, .f32⟩ : BufTy).Contents (Elt F) → (⟨S100000x64, .f32⟩ : BufTy).Contents (Elt F)),
    StableHlo.binary main_v22 main_v35 main_v37 (mulf : (⟨S100000x64, .f32⟩ : BufTy).Contents (Elt F) → (⟨S100000x64, .f32⟩ : BufTy).Contents (Elt F) → (⟨S100000x64, .f32⟩ : BufTy).Contents (Elt F)),
    StableHlo.unary main_arg1 main_v38 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v38 main_v39 rfl shapeCasts_S1x64x64_S64x64,
    StableHlo.binary main_v36 main_v39 main_v40 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg2 main_v41 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v41 main_v42 rfl shapeCasts_S1x64x64_S64x64,
    StableHlo.binary main_v37 main_v42 main_v43 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v40 main_v43 main_v44 (addf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x3E4CCCCD#32),
    StableHlo.TRef.nullary main_call1.cst (constant S_ .f32 0x00000000#32),
    StableHlo.TRef.unary main_call1.cst main_call1.v0 (broadcastInDim S100000x64 ![] bcast_S_S100000x64),
    StableHlo.TRef.binary (.of main_v44) main_call1.v0 main_call1.v1 (cmpf .oge),
    StableHlo.TRef.unary (.of main_cst_5) main_call1.v2 id,
    StableHlo.TRef.unary main_call1.v2 main_call1.v3 (broadcastInDim S100000x64 ![] bcast_S_S100000x64),
    StableHlo.TRef.binary main_call1.v3 (.of main_v44) main_call1.v4 mulf,
    StableHlo.TRef.ternary main_call1.v1 (.of main_v44) main_call1.v4 main_call1.call0.v0 select,
    StableHlo.unary main_arg3 main_v46 (broadcastInDim S1600000x1 ![0] bcast_S1600000_S1600000x1_0 : (⟨S1600000, .f32⟩ : BufTy).Contents (Elt F) → (⟨S1600000x1, .f32⟩ : BufTy).Contents (Elt F)),
    StableHlo.nullary main_c_6 (constantI S_ 32 0#32),
    StableHlo.unary main_c_6 main_v47 (broadcastInDim S1600000 ![] bcast_S_S1600000 : (⟨S_, .i32⟩ : BufTy).Contents (Elt F) → (⟨S1600000, .i32⟩ : BufTy).Contents (Elt F)),
    StableHlo.binary main_arg5 main_v47 main_v48 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v49 (broadcastInDim S1600000 ![] bcast_S_S1600000 : (⟨S_, .i32⟩ : BufTy).Contents (Elt F) → (⟨S1600000, .i32⟩ : BufTy).Contents (Elt F)),
    StableHlo.binary main_arg5 main_v49 main_v50 (addi : (⟨S1600000, .i32⟩ : BufTy).Contents (Elt F) → (⟨S1600000, .i32⟩ : BufTy).Contents (Elt F) → (⟨S1600000, .i32⟩ : BufTy).Contents (Elt F)),
    StableHlo.ternary main_v48 main_v50 main_arg5 main_v51 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v51 main_v52 (broadcastInDim S1600000x1 ![0] bcast_S1600000_S1600000x1_0 : (⟨S1600000, .i32⟩ : BufTy).Contents (Elt F) → (⟨S1600000x1, .i32⟩ : BufTy).Contents (Elt F)),
    StableHlo.binary main_v45 main_v52 main_v53 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v46 main_v54 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v54 main_v53 main_v55 (mulf : (⟨S1600000x64, .f32⟩ : BufTy).Contents (Elt F) → (⟨S1600000x64, .f32⟩ : BufTy).Contents (Elt F) → (⟨S1600000x64, .f32⟩ : BufTy).Contents (Elt F)),
    StableHlo.nullary main_cst_8 (constant S_ .f32 0x00000000#32),
    StableHlo.unary main_cst_8 main_v56 (broadcastInDim S100000x64 ![] bcast_S_S100000x64 : (⟨S_, .f32⟩ : BufTy).Contents (Elt F) → (⟨S100000x64, .f32⟩ : BufTy).Contents (Elt F)),
    StableHlo.unary main_arg4 main_v57 (broadcastInDim S1600000x1 ![0] bcast_S1600000_S1600000x1_0 : (⟨S1600000, .i32⟩ : BufTy).Contents (Elt F) → (⟨S1600000x1, .i32⟩ : BufTy).Contents (Elt F)),
    StableHlo.ternary main_v56 main_v57 main_v55 main_v58 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v58 main_v45 main_v59 (addf : (⟨S100000x64, .f32⟩ : BufTy).Contents (Elt F) → (⟨S100000x64, .f32⟩ : BufTy).Contents (Elt F) → (⟨S100000x64, .f32⟩ : BufTy).Contents (Elt F)),
    StableHlo.binary main_v45 main_v58 main_v60 (mulf : (⟨S100000x64, .f32⟩ : BufTy).Contents (Elt F) → (⟨S100000x64, .f32⟩ : BufTy).Contents (Elt F) → (⟨S100000x64, .f32⟩ : BufTy).Contents (Elt F)),
    StableHlo.unary main_arg1 main_v61 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v61 main_v62 rfl shapeCasts_S1x64x64_S64x64,
    StableHlo.binary main_v59 main_v62 main_v63 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg2 main_v64 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v64 main_v65 rfl shapeCasts_S1x64x64_S64x64,
    StableHlo.binary main_v60 main_v65 main_v66 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v63 main_v66 main_v67 (addf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3E4CCCCD#32),
    StableHlo.TRef.nullary main_call2.cst (constant S_ .f32 0x00000000#32),
    StableHlo.TRef.unary main_call2.cst main_call2.v0 (broadcastInDim S100000x64 ![] bcast_S_S100000x64),
    StableHlo.TRef.binary (.of main_v67) main_call2.v0 main_call2.v1 (cmpf .oge),
    StableHlo.TRef.unary (.of main_cst_9) main_call2.v2 id,
    StableHlo.TRef.unary main_call2.v2 main_call2.v3 (broadcastInDim S100000x64 ![] bcast_S_S100000x64),
    StableHlo.TRef.binary main_call2.v3 (.of main_v67) main_call2.v4 mulf,
    StableHlo.TRef.ternary main_call2.v1 (.of main_v67) main_call2.v4 main_call2.call0.v0 select,
    StableHlo.nary ![main_arg0, main_v22, main_v45, main_v68] main_v69 (fun u => concatenate S100000x256 1 [⟨S100000x64, u 0⟩, ⟨S100000x64, u 1⟩, ⟨S100000x64, u 2⟩, ⟨S100000x64, u 3⟩] concatenates_S100000x64_S100000x64_S100000x64_S100000x64_S100000x256_d1),
    StableHlo.unary main_v69 main_v70 ((extractStridedSlice S60000x256 ![0, 0] · slices_S100000x256_S60000x256_0_0) : (⟨S100000x256, .f32⟩ : BufTy).Contents (Elt F) → (⟨S60000x256, .f32⟩ : BufTy).Contents (Elt F)),
    StableHlo.unary main_v69 main_v71 ((extractStridedSlice S40000x256 ![60000, 0] · slices_S100000x256_S40000x256_60000_0) : (⟨S100000x256, .f32⟩ : BufTy).Contents (Elt F) → (⟨S40000x256, .f32⟩ : BufTy).Contents (Elt F)),
    StableHlo.nullary main_c_10 (constantI S_ 32 0#32),
    StableHlo.unary main_c_10 main_v72 (broadcastInDim S4096 ![] bcast_S_S4096 : (⟨S_, .i32⟩ : BufTy).Contents (Elt F) → (⟨S4096, .i32⟩ : BufTy).Contents (Elt F)),
    StableHlo.binary main_arg6 main_v72 main_v73 (cmpi .slt : (⟨S4096, .i32⟩ : BufTy).Contents (Elt F) → (⟨S4096, .i32⟩ : BufTy).Contents (Elt F) → (⟨S4096, .i1⟩ : BufTy).Contents (Elt F)),
    StableHlo.nullary main_c_11 (constantI S_ 32 60000#32),
    StableHlo.unary main_c_11 main_v74 (broadcastInDim S4096 ![] bcast_S_S4096 : (⟨S_, .i32⟩ : BufTy).Contents (Elt F) → (⟨S4096, .i32⟩ : BufTy).Contents (Elt F)),
    StableHlo.binary main_arg6 main_v74 main_v75 (addi : (⟨S4096, .i32⟩ : BufTy).Contents (Elt F) → (⟨S4096, .i32⟩ : BufTy).Contents (Elt F) → (⟨S4096, .i32⟩ : BufTy).Contents (Elt F)),
    StableHlo.ternary main_v73 main_v75 main_arg6 main_v76 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v76 main_v77 (broadcastInDim S4096x1 ![0] bcast_S4096_S4096x1_0 : (⟨S4096, .i32⟩ : BufTy).Contents (Elt F) → (⟨S4096x1, .i32⟩ : BufTy).Contents (Elt F)),
    StableHlo.binary main_v70 main_v77 main_v78 ((fun x i => Host.gather gather_S60000x256_S4096x1_S4096x256_1_0_n_n_0_1_1256 x i) : (⟨S60000x256, .f32⟩ : BufTy).Contents (Elt F) → (⟨S4096x1, .i32⟩ : BufTy).Contents (Elt F) → (⟨S4096x256, .f32⟩ : BufTy).Contents (Elt F)),
    StableHlo.nullary main_c_12 (constantI S_ 32 0#32),
    StableHlo.unary main_c_12 main_v79 (broadcastInDim S4096 ![] bcast_S_S4096 : (⟨S_, .i32⟩ : BufTy).Contents (Elt F) → (⟨S4096, .i32⟩ : BufTy).Contents (Elt F)),
    StableHlo.binary main_arg7 main_v79 main_v80 (cmpi .slt : (⟨S4096, .i32⟩ : BufTy).Contents (Elt F) → (⟨S4096, .i32⟩ : BufTy).Contents (Elt F) → (⟨S4096, .i1⟩ : BufTy).Contents (Elt F)),
    StableHlo.nullary main_c_13 (constantI S_ 32 40000#32),
    StableHlo.unary main_c_13 main_v81 (broadcastInDim S4096 ![] bcast_S_S4096 : (⟨S_, .i32⟩ : BufTy).Contents (Elt F) → (⟨S4096, .i32⟩ : BufTy).Contents (Elt F)),
    StableHlo.binary main_arg7 main_v81 main_v82 (addi : (⟨S4096, .i32⟩ : BufTy).Contents (Elt F) → (⟨S4096, .i32⟩ : BufTy).Contents (Elt F) → (⟨S4096, .i32⟩ : BufTy).Contents (Elt F)),
    StableHlo.ternary main_v80 main_v82 main_arg7 main_v83 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v83 main_v84 (broadcastInDim S4096x1 ![0] bcast_S4096_S4096x1_0 : (⟨S4096, .i32⟩ : BufTy).Contents (Elt F) → (⟨S4096x1, .i32⟩ : BufTy).Contents (Elt F)),
    StableHlo.binary main_v71 main_v84 main_v85 ((fun x i => Host.gather gather_S40000x256_S4096x1_S4096x256_1_0_n_n_0_1_1256 x i) : (⟨S40000x256, .f32⟩ : BufTy).Contents (Elt F) → (⟨S4096x1, .i32⟩ : BufTy).Contents (Elt F) → (⟨S4096x256, .f32⟩ : BufTy).Contents (Elt F)) ]

set_option maxRecDepth 4096 in
set_option maxHeartbeats 4000000 in
/-- The printed program is that line: the activation's definition unfolded at its three calls and the sequencing
    reassociated. -/
theorem main_eq (c : Dev nD) : main (F := F) c = seq ops := by
  show (main_part0 (F := F) c >>= fun _ => main_part1 (F := F) c) = _
  simp only [main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., binary_bufs_sub .., binary_bufs_sub ..,
    unary_bufs_sub .., reshape_bufs_sub .., binary_bufs_sub .., unary_bufs_sub .., reshape_bufs_sub .., binary_bufs_sub ..,
    binary_bufs_sub .., nullary_bufs_sub .., nullary_bufs_sub .., unary_bufs_sub .., binary_bufs_sub .., unary_bufs_sub ..,
    unary_bufs_sub .., binary_bufs_sub .., ternary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., nullary_bufs_sub .., unary_bufs_sub .., unary_bufs_sub ..,
    ternary_bufs_sub .., binary_bufs_sub .., binary_bufs_sub .., unary_bufs_sub .., reshape_bufs_sub .., binary_bufs_sub ..,
    unary_bufs_sub .., reshape_bufs_sub .., binary_bufs_sub .., binary_bufs_sub .., nullary_bufs_sub .., nullary_bufs_sub ..,
    unary_bufs_sub .., binary_bufs_sub .., unary_bufs_sub .., unary_bufs_sub .., binary_bufs_sub .., ternary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., binary_bufs_sub .., binary_bufs_sub ..,
    unary_bufs_sub .., reshape_bufs_sub .., binary_bufs_sub .., unary_bufs_sub .., reshape_bufs_sub .., binary_bufs_sub ..,
    binary_bufs_sub .., nullary_bufs_sub .., nullary_bufs_sub .., unary_bufs_sub .., binary_bufs_sub .., unary_bufs_sub ..,
    unary_bufs_sub .., binary_bufs_sub .., ternary_bufs_sub .., nary_bufs_sub .., unary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩

/-- Every weakly fair execution of the reference terminates without a fault, and every final state has each buffer at
    the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.LayerSpec.lean ====
/-
  One entry of the layer, as arithmetic on the extended reals.

  Entry (r, j) of the next embeddings depends on row r of the previous embeddings `e`, row r of the neighbourhood sums
  `s`, and column j of the two weight matrices:
      z = Σ_k (s_k + e_k) · W1[k, j]  +  Σ_k (e_k · s_k) · W2[k, j],      entry = z if z ≥ 0, else slope · z,
  with the slope the float 0.2 at its exact binary value. Both programs compute exactly this at every entry: the kernel
  tile by tile, the reference on the whole array.
-/
import Idealize.ShloMosaic.Lib.ValueIdx
import Idealize.ShloMosaic.PureOps.Ideal.Laws

noncomputable section

namespace Cert.LayerSpec

open Idealize.ShloMosaic Idealize.ShloMosaic.ValueIdx

/-- The pre-activation `z` of one entry, from a row of `e`, a row of `s` and the two weight matrices. -/
def pre (e s : Fin 64 → EReal) (w1 w2 : (⟨2, ![64, 64]⟩ : Shape).Idx → EReal) (j : Fin 64) : EReal :=
  (∑ k : Fin 64, (s k + e k) * w1 (ix2 k j)) + ∑ k : Fin 64, (e k * s k) * w2 (ix2 k j)

/-- The leaky activation: `z` where `z ≥ 0`, the slope times `z` elsewhere. -/
def leaky (z : EReal) : EReal :=
  Scalar.select (Ideal.cmp .oge z (Ideal.ofBits .f32 0x00000000#32)) z (Ideal.ofBits .f32 0x3E4CCCCD#32 * z)

/-- One entry of the layer. -/
def cell (e s : Fin 64 → EReal) (w1 w2 : (⟨2, ![64, 64]⟩ : Shape).Idx → EReal) (j : Fin 64) : EReal :=
  leaky (pre e s w1 w2 j)

end Cert.LayerSpec

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.RefRead.lean ====
/-
  The reference, read back.

  Its 120 operations fall into four stages: three times "neighbourhood sums, then the dense layer with its leaky
  activation", then "concatenate the four embeddings, split users from items, look the batch up". Each stage is one pure
  function of the buffers it reads: `spmm` (gather the source rows, scale each by its edge weight, add them up per
  destination row), `weight k` (matrix k of a stack of three), `layer`, and the two look-ups `users` / `items`.
  Read at an index, `layer` is `LayerSpec.cell` of the rows and columns involved.
-/
import proofs.«133226_j223338299967_1_alg».proof.Proof.RefLine
import proofs.«133226_j223338299967_1_alg».proof.Proof.LayerSpec
import proofs.«133226_j223338299967_1_alg».proof.Proof.LibHostRead
import Idealize.ShloMosaic.Lib.ValueIdx
import Idealize.ShloMosaic.Lib.Pipeline.Value

noncomputable section

namespace Cert.ReferenceIdeal.Line

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-! ## The stages' pure functions -/

/-- The neighbourhood sums: row `rows[n]` of the result collects `vals[n]` times row `cols[n]` of `e` (a negative column
    index counted from the end, as the program's index normalisation does). -/
def spmm (e : (⟨S100000x64, .f32⟩ : BufTy).Contents (Elt F)) (vals : (⟨S1600000, .f32⟩ : BufTy).Contents (Elt F))
    (rows cols : (⟨S1600000, .i32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 rows)
    (mulf (broadcastInDim S1600000x64 ![0, 1] bcast_S1600000x1_S1600000x64_0_1 (broadcastInDim S1600000x1 ![0] bcast_S1600000_S1600000x1_0 vals))
      (Host.gather gather_S100000x64_S1600000x1_S1600000x64_1_0_n_n_0_1_164 e
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

/-- Matrix 0, 1, 2 of a stack of three 64×64 matrices. -/
def weight0 (w : (⟨S3x64x64, .f32⟩ : BufTy).Contents (Elt F)) : (⟨S64x64, .f32⟩ : BufTy).Contents (Elt F) :=
  shapeCast S64x64 (extractStridedSlice S1x64x64 ![0, 0, 0] w slices_S3x64x64_S1x64x64_0_0_0) shapeCasts_S1x64x64_S64x64
def weight1 (w : (⟨S3x64x64, .f32⟩ : BufTy).Contents (Elt F)) : (⟨S64x64, .f32⟩ : BufTy).Contents (Elt F) :=
  shapeCast S64x64 (extractStridedSlice S1x64x64 ![1, 0, 0] w slices_S3x64x64_S1x64x64_1_0_0) shapeCasts_S1x64x64_S64x64
def weight2 (w : (⟨S3x64x64, .f32⟩ : BufTy).Contents (Elt F)) : (⟨S64x64, .f32⟩ : BufTy).Contents (Elt F) :=
  shapeCast S64x64 (extractStridedSlice S1x64x64 ![2, 0, 0] w slices_S3x64x64_S1x64x64_2_0_0) shapeCasts_S1x64x64_S64x64

/-- The dense part before the activation: `(s + e)·W1 + (e ∘ s)·W2`. -/
def dense (e s : (⟨S100000x64, .f32⟩ : BufTy).Contents (Elt F)) (w1 w2 : (⟨S64x64, .f32⟩ : BufTy).Contents (Elt F)) :
    (⟨S100000x64, .f32⟩ : BufTy).Contents (Elt F) :=
  addf (Host.dotGeneral dot_S100000x64_S64x64_S100000x64_1_0_0_1_n_n none (addf s e) w1)
    (Host.dotGeneral dot_S100000x64_S64x64_S100000x64_1_0_0_1_n_n none (mulf e s) w2)

/-- One layer: the dense part under the leaky activation. -/
def layer (e s : (⟨S100000x64, .f32⟩ : BufTy).Contents (Elt F)) (w1 w2 : (⟨S64x64, .f32⟩ : BufTy).Contents (Elt F)) :
    (⟨S100000x64, .f32⟩ : BufTy).Contents (Elt F) :=
  select (cmpf .oge (dense e s w1 w2) (broadcastInDim S100000x64 ![] bcast_S_S100000x64 (constant S_ .f32 0x00000000#32)))
    (dense e s w1 w2)
    (mulf (broadcastInDim S100000x64 ![] bcast_S_S100000x64 (id (constant S_ .f32 0x3E4CCCCD#32))) (dense e s w1 w2))

/-- The four embeddings side by side, as one 100000×256 array. -/
def allLayers (e0 e1 e2 e3 : (⟨S100000x64, .f32⟩ : BufTy).Contents (Elt F)) : (⟨S100000x256, .f32⟩ : BufTy).Contents (Elt F) :=
  concatenate S100000x256 1 [⟨S100000x64, e0⟩, ⟨S100000x64, e1⟩, ⟨S100000x64, e2⟩, ⟨S100000x64, e3⟩] concatenates_S100000x64_S100000x64_S100000x64_S100000x64_S100000x256_d1

/-- The batch's user rows: rows of the first 60000, looked up by index (a negative index counted from the end). -/
def users (e0 e1 e2 e3 : (⟨S100000x64, .f32⟩ : BufTy).Contents (Elt F)) (u : (⟨S4096, .i32⟩ : BufTy).Contents (Elt F)) :
    (⟨S4096x256, .f32⟩ : BufTy).Contents (Elt F) :=
  Host.gather gather_S60000x256_S4096x1_S4096x256_1_0_n_n_0_1_1256
    (extractStridedSlice S60000x256 ![0, 0] (allLayers e0 e1 e2 e3) slices_S100000x256_S60000x256_0_0)
    (broadcastInDim S4096x1 ![0] bcast_S4096_S4096x1_0
      (select (cmpi .slt u (broadcastInDim S4096 ![] bcast_S_S4096 (constantI S_ 32 0#32)))
        (addi u (broadcastInDim S4096 ![] bcast_S_S4096 (constantI S_ 32 60000#32))) u))

/-- The batch's item rows: rows of the last 40000, looked up by index. -/
def items (e0 e1 e2 e3 : (⟨S100000x64, .f32⟩ : BufTy).Contents (Elt F)) (u : (⟨S4096, .i32⟩ : BufTy).Contents (Elt F)) :
    (⟨S4096x256, .f32⟩ : BufTy).Contents (Elt F) :=
  Host.gather gather_S40000x256_S4096x1_S4096x256_1_0_n_n_0_1_1256
    (extractStridedSlice S40000x256 ![60000, 0] (allLayers e0 e1 e2 e3) slices_S100000x256_S40000x256_60000_0)
    (broadcastInDim S4096x1 ![0] bcast_S4096_S4096x1_0
      (select (cmpi .slt u (broadcastInDim S4096 ![] bcast_S_S4096 (constantI S_ 32 0#32)))
        (addi u (broadcastInDim S4096 ![] bcast_S_S4096 (constantI S_ 32 40000#32))) u))

/-! ## The layer at an index -/

/-- The reference's dot is a plain 100000×64 by 64×64 product. -/
theorem plainDot : Cert.LibHostRead.PlainDot dot_S100000x64_S64x64_S100000x64_1_0_0_1_n_n where
  hr := rfl
  hs := rfl
  hl0 := fun i q => rfl
  hl1 := fun i q => DotDims.lhsIdx_val_of_single _ rfl i q
  hr0 := fun i q => DotDims.rhsIdx_val_of_single _ rfl i q
  hr1 := fun i q => rfl

/-- Entry (r, j) of a layer is the spec's entry of row r of `e`, row r of `s` and column j of the weights. -/
theorem layer_apply (e s : (⟨S100000x64, .f32⟩ : BufTy).Contents (Elt Ideal)) (w1 w2 : (⟨S64x64, .f32⟩ : BufTy).Contents (Elt Ideal))
    (r : Fin 100000) (j : Fin 64) :
    layer e s w1 w2 (ix2 r j) = Cert.LayerSpec.cell (fun k => e (ix2 r k)) (fun k => s (ix2 r k)) w1 w2 j := by
  have hd : dense e s w1 w2 (ix2 r j) = Cert.LayerSpec.pre (fun k => e (ix2 r k)) (fun k => s (ix2 r k)) w1 w2 j := by
    unfold dense Cert.LayerSpec.pre Host.dotGeneral
    rw [addf_apply, Cert.LibHostRead.dotGeneral_plain_apply _ plainDot, Cert.LibHostRead.dotGeneral_plain_apply _ plainDot]
    rfl
  unfold layer Cert.LayerSpec.cell Cert.LayerSpec.leaky
  rw [select_apply, cmpf_apply, mulf_apply, Cert.LibHostRead.bid_scalar_apply, Cert.LibHostRead.bid_scalar_apply, hd]
  rfl

/-! ## The four stages -/

abbrev stage1 : List (HloOp τ sig (Elt F)) :=
  [ StableHlo.unary main_arg3 main_v0 (broadcastInDim S1600000x1 ![0] bcast_S1600000_S1600000x1_0 : (⟨S1600000, .f32⟩ : BufTy).Contents (Elt F) → (⟨S1600000x1, .f32⟩ : BufTy).Contents (Elt F)),
    StableHlo.nullary main_c (constantI S_ 32 0#32),
    StableHlo.unary main_c main_v1 (broadcastInDim S1600000 ![] bcast_S_S1600000 : (⟨S_, .i32⟩ : BufTy).Contents (Elt F) → (⟨S1600000, .i32⟩ : BufTy).Contents (Elt F)),
    StableHlo.binary main_arg5 main_v1 main_v2 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v3 (broadcastInDim S1600000 ![] bcast_S_S1600000 : (⟨S_, .i32⟩ : BufTy).Contents (Elt F) → (⟨S1600000, .i32⟩ : BufTy).Contents (Elt F)),
    StableHlo.binary main_arg5 main_v3 main_v4 (addi : (⟨S1600000, .i32⟩ : BufTy).Contents (Elt F) → (⟨S1600000, .i32⟩ : BufTy).Contents (Elt F) → (⟨S1600000, .i32⟩ : BufTy).Contents (Elt F)),
    StableHlo.ternary main_v2 main_v4 main_arg5 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v5 main_v6 (broadcastInDim S1600000x1 ![0] bcast_S1600000_S1600000x1_0 : (⟨S1600000, .i32⟩ : BufTy).Contents (Elt F) → (⟨S1600000x1, .i32⟩ : BufTy).Contents (Elt F)),
    StableHlo.binary main_arg0 main_v6 main_v7 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v0 main_v8 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v8 main_v7 main_v9 (mulf : (⟨S1600000x64, .f32⟩ : BufTy).Contents (Elt F) → (⟨S1600000x64, .f32⟩ : BufTy).Contents (Elt F) → (⟨S1600000x64, .f32⟩ : BufTy).Contents (Elt F)),
    StableHlo.nullary main_cst (constant S_ .f32 0x00000000#32),
    StableHlo.unary main_cst main_v10 (broadcastInDim S100000x64 ![] bcast_S_S100000x64 : (⟨S_, .f32⟩ : BufTy).Contents (Elt F) → (⟨S100000x64, .f32⟩ : BufTy).Contents (Elt F)),
    StableHlo.unary main_arg4 main_v11 (broadcastInDim S1600000x1 ![0] bcast_S1600000_S1600000x1_0 : (⟨S1600000, .i32⟩ : BufTy).Contents (Elt F) → (⟨S1600000x1, .i32⟩ : BufTy).Contents (Elt F)),
    StableHlo.ternary main_v10 main_v11 main_v9 main_v12 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v12 main_arg0 main_v13 (addf : (⟨S100000x64, .f32⟩ : BufTy).Contents (Elt F) → (⟨S100000x64, .f32⟩ : BufTy).Contents (Elt F) → (⟨S100000x64, .f32⟩ : BufTy).Contents (Elt F)),
    StableHlo.binary main_arg0 main_v12 main_v14 (mulf : (⟨S100000x64, .f32⟩ : BufTy).Contents (Elt F) → (⟨S100000x64, .f32⟩ : BufTy).Contents (Elt F) → (⟨S100000x64, .f32⟩ : BufTy).Contents (Elt F)),
    StableHlo.unary main_arg1 main_v15 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v15 main_v16 rfl shapeCasts_S1x64x64_S64x64,
    StableHlo.binary main_v13 main_v16 main_v17 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg2 main_v18 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v18 main_v19 rfl shapeCasts_S1x64x64_S64x64,
    StableHlo.binary main_v14 main_v19 main_v20 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v17 main_v20 main_v21 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x3E4CCCCD#32),
    StableHlo.TRef.nullary main_call0.cst (constant S_ .f32 0x00000000#32),
    StableHlo.TRef.unary main_call0.cst main_call0.v0 (broadcastInDim S100000x64 ![] bcast_S_S100000x64),
    StableHlo.TRef.binary (.of main_v21) main_call0.v0 main_call0.v1 (cmpf .oge),
    StableHlo.TRef.unary (.of main_cst_1) main_call0.v2 id,
    StableHlo.TRef.unary main_call0.v2 main_call0.v3 (broadcastInDim S100000x64 ![] bcast_S_S100000x64),
    StableHlo.TRef.binary main_call0.v3 (.of main_v21) main_call0.v4 mulf,
    StableHlo.TRef.ternary main_call0.v1 (.of main_v21) main_call0.v4 main_call0.call0.v0 select ]
abbrev stage2 : List (HloOp τ sig (Elt F)) :=
  [ StableHlo.unary main_arg3 main_v23 (broadcastInDim S1600000x1 ![0] bcast_S1600000_S1600000x1_0 : (⟨S1600000, .f32⟩ : BufTy).Contents (Elt F) → (⟨S1600000x1, .f32⟩ : BufTy).Contents (Elt F)),
    StableHlo.nullary main_c_2 (constantI S_ 32 0#32),
    StableHlo.unary main_c_2 main_v24 (broadcastInDim S1600000 ![] bcast_S_S1600000 : (⟨S_, .i32⟩ : BufTy).Contents (Elt F) → (⟨S1600000, .i32⟩ : BufTy).Contents (Elt F)),
    StableHlo.binary main_arg5 main_v24 main_v25 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v26 (broadcastInDim S1600000 ![] bcast_S_S1600000 : (⟨S_, .i32⟩ : BufTy).Contents (Elt F) → (⟨S1600000, .i32⟩ : BufTy).Contents (Elt F)),
    StableHlo.binary main_arg5 main_v26 main_v27 (addi : (⟨S1600000, .i32⟩ : BufTy).Contents (Elt F) → (⟨S1600000, .i32⟩ : BufTy).Contents (Elt F) → (⟨S1600000, .i32⟩ : BufTy).Contents (Elt F)),
    StableHlo.ternary main_v25 main_v27 main_arg5 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v28 main_v29 (broadcastInDim S1600000x1 ![0] bcast_S1600000_S1600000x1_0 : (⟨S1600000, .i32⟩ : BufTy).Contents (Elt F) → (⟨S1600000x1, .i32⟩ : BufTy).Contents (Elt F)),
    StableHlo.binary main_v22 main_v29 main_v30 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v23 main_v31 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v31 main_v30 main_v32 (mulf : (⟨S1600000x64, .f32⟩ : BufTy).Contents (Elt F) → (⟨S1600000x64, .f32⟩ : BufTy).Contents (Elt F) → (⟨S1600000x64, .f32⟩ : BufTy).Contents (Elt F)),
    StableHlo.nullary main_cst_4 (constant S_ .f32 0x00000000#32),
    StableHlo.unary main_cst_4 main_v33 (broadcastInDim S100000x64 ![] bcast_S_S100000x64 : (⟨S_, .f32⟩ : BufTy).Contents (Elt F) → (⟨S100000x64, .f32⟩ : BufTy).Contents (Elt F)),
    StableHlo.unary main_arg4 main_v34 (broadcastInDim S1600000x1 ![0] bcast_S1600000_S1600000x1_0 : (⟨S1600000, .i32⟩ : BufTy).Contents (Elt F) → (⟨S1600000x1, .i32⟩ : BufTy).Contents (Elt F)),
    StableHlo.ternary main_v33 main_v34 main_v32 main_v35 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v35 main_v22 main_v36 (addf : (⟨S100000x64, .f32⟩ : BufTy).Contents (Elt F) → (⟨S100000x64, .f32⟩ : BufTy).Contents (Elt F) → (⟨S100000x64, .f32⟩ : BufTy).Contents (Elt F)),
    StableHlo.binary main_v22 main_v35 main_v37 (mulf : (⟨S100000x64, .f32⟩ : BufTy).Contents (Elt F) → (⟨S100000x64, .f32⟩ : BufTy).Contents (Elt F) → (⟨S100000x64, .f32⟩ : BufTy).Contents (Elt F)),
    StableHlo.unary main_arg1 main_v38 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v38 main_v39 rfl shapeCasts_S1x64x64_S64x64,
    StableHlo.binary main_v36 main_v39 main_v40 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg2 main_v41 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v41 main_v42 rfl shapeCasts_S1x64x64_S64x64,
    StableHlo.binary main_v37 main_v42 main_v43 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v40 main_v43 main_v44 (addf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x3E4CCCCD#32),
    StableHlo.TRef.nullary main_call1.cst (constant S_ .f32 0x00000000#32),
    StableHlo.TRef.unary main_call1.cst main_call1.v0 (broadcastInDim S100000x64 ![] bcast_S_S100000x64),
    StableHlo.TRef.binary (.of main_v44) main_call1.v0 main_call1.v1 (cmpf .oge),
    StableHlo.TRef.unary (.of main_cst_5) main_call1.v2 id,
    StableHlo.TRef.unary main_call1.v2 main_call1.v3 (broadcastInDim S100000x64 ![] bcast_S_S100000x64),
    StableHlo.TRef.binary main_call1.v3 (.of main_v44) main_call1.v4 mulf,
    StableHlo.TRef.ternary main_call1.v1 (.of main_v44) main_call1.v4 main_call1.call0.v0 select ]
abbrev stage3 : List (HloOp τ sig (Elt F)) :=
  [ StableHlo.unary main_arg3 main_v46 (broadcastInDim S1600000x1 ![0] bcast_S1600000_S1600000x1_0 : (⟨S1600000, .f32⟩ : BufTy).Contents (Elt F) → (⟨S1600000x1, .f32⟩ : BufTy).Contents (Elt F)),
    StableHlo.nullary main_c_6 (constantI S_ 32 0#32),
    StableHlo.unary main_c_6 main_v47 (broadcastInDim S1600000 ![] bcast_S_S1600000 : (⟨S_, .i32⟩ : BufTy).Contents (Elt F) → (⟨S1600000, .i32⟩ : BufTy).Contents (Elt F)),
    StableHlo.binary main_arg5 main_v47 main_v48 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v49 (broadcastInDim S1600000 ![] bcast_S_S1600000 : (⟨S_, .i32⟩ : BufTy).Contents (Elt F) → (⟨S1600000, .i32⟩ : BufTy).Contents (Elt F)),
    StableHlo.binary main_arg5 main_v49 main_v50 (addi : (⟨S1600000, .i32⟩ : BufTy).Contents (Elt F) → (⟨S1600000, .i32⟩ : BufTy).Contents (Elt F) → (⟨S1600000, .i32⟩ : BufTy).Contents (Elt F)),
    StableHlo.ternary main_v48 main_v50 main_arg5 main_v51 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v51 main_v52 (broadcastInDim S1600000x1 ![0] bcast_S1600000_S1600000x1_0 : (⟨S1600000, .i32⟩ : BufTy).Contents (Elt F) → (⟨S1600000x1, .i32⟩ : BufTy).Contents (Elt F)),
    StableHlo.binary main_v45 main_v52 main_v53 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v46 main_v54 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v54 main_v53 main_v55 (mulf : (⟨S1600000x64, .f32⟩ : BufTy).Contents (Elt F) → (⟨S1600000x64, .f32⟩ : BufTy).Contents (Elt F) → (⟨S1600000x64, .f32⟩ : BufTy).Contents (Elt F)),
    StableHlo.nullary main_cst_8 (constant S_ .f32 0x00000000#32),
    StableHlo.unary main_cst_8 main_v56 (broadcastInDim S100000x64 ![] bcast_S_S100000x64 : (⟨S_, .f32⟩ : BufTy).Contents (Elt F) → (⟨S100000x64, .f32⟩ : BufTy).Contents (Elt F)),
    StableHlo.unary main_arg4 main_v57 (broadcastInDim S1600000x1 ![0] bcast_S1600000_S1600000x1_0 : (⟨S1600000, .i32⟩ : BufTy).Contents (Elt F) → (⟨S1600000x1, .i32⟩ : BufTy).Contents (Elt F)),
    StableHlo.ternary main_v56 main_v57 main_v55 main_v58 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v58 main_v45 main_v59 (addf : (⟨S100000x64, .f32⟩ : BufTy).Contents (Elt F) → (⟨S100000x64, .f32⟩ : BufTy).Contents (Elt F) → (⟨S100000x64, .f32⟩ : BufTy).Contents (Elt F)),
    StableHlo.binary main_v45 main_v58 main_v60 (mulf : (⟨S100000x64, .f32⟩ : BufTy).Contents (Elt F) → (⟨S100000x64, .f32⟩ : BufTy).Contents (Elt F) → (⟨S100000x64, .f32⟩ : BufTy).Contents (Elt F)),
    StableHlo.unary main_arg1 main_v61 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v61 main_v62 rfl shapeCasts_S1x64x64_S64x64,
    StableHlo.binary main_v59 main_v62 main_v63 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg2 main_v64 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v64 main_v65 rfl shapeCasts_S1x64x64_S64x64,
    StableHlo.binary main_v60 main_v65 main_v66 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v63 main_v66 main_v67 (addf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3E4CCCCD#32),
    StableHlo.TRef.nullary main_call2.cst (constant S_ .f32 0x00000000#32),
    StableHlo.TRef.unary main_call2.cst main_call2.v0 (broadcastInDim S100000x64 ![] bcast_S_S100000x64),
    StableHlo.TRef.binary (.of main_v67) main_call2.v0 main_call2.v1 (cmpf .oge),
    StableHlo.TRef.unary (.of main_cst_9) main_call2.v2 id,
    StableHlo.TRef.unary main_call2.v2 main_call2.v3 (broadcastInDim S100000x64 ![] bcast_S_S100000x64),
    StableHlo.TRef.binary main_call2.v3 (.of main_v67) main_call2.v4 mulf,
    StableHlo.TRef.ternary main_call2.v1 (.of main_v67) main_call2.v4 main_call2.call0.v0 select ]
abbrev stage4 : List (HloOp τ sig (Elt F)) :=
  [ StableHlo.nary ![main_arg0, main_v22, main_v45, main_v68] main_v69 (fun u => concatenate S100000x256 1 [⟨S100000x64, u 0⟩, ⟨S100000x64, u 1⟩, ⟨S100000x64, u 2⟩, ⟨S100000x64, u 3⟩] concatenates_S100000x64_S100000x64_S100000x64_S100000x64_S100000x256_d1),
    StableHlo.unary main_v69 main_v70 ((extractStridedSlice S60000x256 ![0, 0] · slices_S100000x256_S60000x256_0_0) : (⟨S100000x256, .f32⟩ : BufTy).Contents (Elt F) → (⟨S60000x256, .f32⟩ : BufTy).Contents (Elt F)),
    StableHlo.unary main_v69 main_v71 ((extractStridedSlice S40000x256 ![60000, 0] · slices_S100000x256_S40000x256_60000_0) : (⟨S100000x256, .f32⟩ : BufTy).Contents (Elt F) → (⟨S40000x256, .f32⟩ : BufTy).Contents (Elt F)),
    StableHlo.nullary main_c_10 (constantI S_ 32 0#32),
    StableHlo.unary main_c_10 main_v72 (broadcastInDim S4096 ![] bcast_S_S4096 : (⟨S_, .i32⟩ : BufTy).Contents (Elt F) → (⟨S4096, .i32⟩ : BufTy).Contents (Elt F)),
    StableHlo.binary main_arg6 main_v72 main_v73 (cmpi .slt : (⟨S4096, .i32⟩ : BufTy).Contents (Elt F) → (⟨S4096, .i32⟩ : BufTy).Contents (Elt F) → (⟨S4096, .i1⟩ : BufTy).Contents (Elt F)),
    StableHlo.nullary main_c_11 (constantI S_ 32 60000#32),
    StableHlo.unary main_c_11 main_v74 (broadcastInDim S4096 ![] bcast_S_S4096 : (⟨S_, .i32⟩ : BufTy).Contents (Elt F) → (⟨S4096, .i32⟩ : BufTy).Contents (Elt F)),
    StableHlo.binary main_arg6 main_v74 main_v75 (addi : (⟨S4096, .i32⟩ : BufTy).Contents (Elt F) → (⟨S4096, .i32⟩ : BufTy).Contents (Elt F) → (⟨S4096, .i32⟩ : BufTy).Contents (Elt F)),
    StableHlo.ternary main_v73 main_v75 main_arg6 main_v76 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v76 main_v77 (broadcastInDim S4096x1 ![0] bcast_S4096_S4096x1_0 : (⟨S4096, .i32⟩ : BufTy).Contents (Elt F) → (⟨S4096x1, .i32⟩ : BufTy).Contents (Elt F)),
    StableHlo.binary main_v70 main_v77 main_v78 ((fun x i => Host.gather gather_S60000x256_S4096x1_S4096x256_1_0_n_n_0_1_1256 x i) : (⟨S60000x256, .f32⟩ : BufTy).Contents (Elt F) → (⟨S4096x1, .i32⟩ : BufTy).Contents (Elt F) → (⟨S4096x256, .f32⟩ : BufTy).Contents (Elt F)),
    StableHlo.nullary main_c_12 (constantI S_ 32 0#32),
    StableHlo.unary main_c_12 main_v79 (broadcastInDim S4096 ![] bcast_S_S4096 : (⟨S_, .i32⟩ : BufTy).Contents (Elt F) → (⟨S4096, .i32⟩ : BufTy).Contents (Elt F)),
    StableHlo.binary main_arg7 main_v79 main_v80 (cmpi .slt : (⟨S4096, .i32⟩ : BufTy).Contents (Elt F) → (⟨S4096, .i32⟩ : BufTy).Contents (Elt F) → (⟨S4096, .i1⟩ : BufTy).Contents (Elt F)),
    StableHlo.nullary main_c_13 (constantI S_ 32 40000#32),
    StableHlo.unary main_c_13 main_v81 (broadcastInDim S4096 ![] bcast_S_S4096 : (⟨S_, .i32⟩ : BufTy).Contents (Elt F) → (⟨S4096, .i32⟩ : BufTy).Contents (Elt F)),
    StableHlo.binary main_arg7 main_v81 main_v82 (addi : (⟨S4096, .i32⟩ : BufTy).Contents (Elt F) → (⟨S4096, .i32⟩ : BufTy).Contents (Elt F) → (⟨S4096, .i32⟩ : BufTy).Contents (Elt F)),
    StableHlo.ternary main_v80 main_v82 main_arg7 main_v83 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v83 main_v84 (broadcastInDim S4096x1 ![0] bcast_S4096_S4096x1_0 : (⟨S4096, .i32⟩ : BufTy).Contents (Elt F) → (⟨S4096x1, .i32⟩ : BufTy).Contents (Elt F)),
    StableHlo.binary main_v71 main_v84 main_v85 ((fun x i => Host.gather gather_S40000x256_S4096x1_S4096x256_1_0_n_n_0_1_1256 x i) : (⟨S40000x256, .f32⟩ : BufTy).Contents (Elt F) → (⟨S4096x1, .i32⟩ : BufTy).Contents (Elt F) → (⟨S4096x256, .f32⟩ : BufTy).Contents (Elt F)) ]

theorem ops_stages : (ops : List (HloOp τ sig (Elt F))) = stage1 ++ (stage2 ++ (stage3 ++ stage4)) := rfl

theorem after_append (l₁ l₂ : List (HloOp τ sig (Elt F))) (V : Valuation τ sig (Elt F)) :
    after (l₁ ++ l₂) V = after l₂ (after l₁ V) := by
  induction l₁ generalizing V with
  | nil => rfl
  | cons op l ih => exact ih _

set_option maxHeartbeats 2000000 in
theorem stage1_layer (V : Valuation τ sig (Elt F)) :
    after stage1 V (main_v22 : DevRef τ sig) = layer (V (main_arg0 : DevRef τ sig))
      (spmm (V (main_arg0 : DevRef τ sig)) (V (main_arg3 : DevRef τ sig)) (V (main_arg4 : DevRef τ sig)) (V (main_arg5 : DevRef τ sig)))
      (weight0 (V (main_arg1 : DevRef τ sig))) (weight0 (V (main_arg2 : DevRef τ sig))) := by
  after_results_simp
  rfl

end Cert.ReferenceIdeal.Line

end
-- ==== Proof.KIClosed0.lean ====
/-
  What call 0 leaves in its output array, as one function of its four input arrays.

  Grid point `t` handles rows 5000·t … 5000·t + 4999: its two row windows are at block `t`, its two weight windows at
  block 0 (the whole matrix), and it writes back block `t` of the output. Entry (y, j) of what it writes is the spec's
  entry of rows y of the two row tiles and column j of the weights — the kernel's two matrix products into a zero
  accumulator are plain sums over the 64 contracted coordinates, and a change of float format is the identity on the
  extended reals. Row y of tile `t` is row 5000·t + y of the array, so block `t` of the output is block `t` of the
  reference's `layer` of the whole arrays; the 20 tiles cover all 100000 rows, so the output array IS that `layer`.
-/
import proofs.«133226_j223338299967_1_alg».proof.Proof.KICall0
import proofs.«133226_j223338299967_1_alg».proof.Proof.RefRead

set_option maxRecDepth 16384

noncomputable section

namespace Cert.KernelIdeal.Combine

open Cert.KernelIdeal Cert.KernelIdeal.Gen
open Idealize.ShloMosaic Idealize.ShloMosaic.TcCoe Idealize.ShloMosaic.ValueIdx
open Idealize.SL.Sem
open Idealize.ShloMosaic.Pipeline (Dat)

/-- The kernel's dot is a plain 5000×64 by 64×64 product. -/
theorem plainDot0 : Cert.LibHostRead.PlainDot dot_S5000x64_S64x64_S5000x64_1_0_0_1_n_n where
  hr := rfl
  hs := rfl
  hl0 := fun i q => rfl
  hl1 := fun i q => DotDims.lhsIdx_val_of_single _ rfl i q
  hr0 := fun i q => DotDims.rhsIdx_val_of_single _ rfl i q
  hr1 := fun i q => rfl

/-- Entry (y, j) of the value the body stores: the spec's entry of rows y of the two row tiles. -/
theorem stored0_apply (eb sb : Vec Ideal S5000x64 .f32) (w1 w2 : Vec Ideal S64x64 .f32) (y : Fin 5000) (j : Fin 64) :
    k0_pay1 eb sb w1 w2 (ix2 y j) = Cert.LayerSpec.cell (fun k => eb (ix2 y k)) (fun k => sb (ix2 y k)) w1 w2 j := by
  unfold k0_pay1
  rw [select_apply, cmpf_apply, mulf_apply, broadcast_apply, broadcast_apply, addf_apply]
  unfold Idealize.ShloMosaic.matmul
  rw [Cert.LibHostRead.matmul_plain_zero_apply _ plainDot0, Cert.LibHostRead.matmul_plain_zero_apply _ plainDot0]
  simp only [shapeCast_self]
  unfold Cert.LayerSpec.cell Cert.LayerSpec.leaky Cert.LayerSpec.pre
  rw [mul_comm (Ideal.ofBits .f32 0x3E4CCCCD#32)]
  rfl

variable (V : (c : Dev nD) → (b : Ref sig .tc) → Buf (Elt Ideal) ((c : Thread nD τ).loc b))

theorem zeroOffsets0 : (![0, 0] : Fin 2 → Nat) = fun _ => 0 := funext fun a => by fin_cases a <;> rfl

/-- The printed index maps over the grid: the row windows and the output are at block `t`, the weights at block 0. -/
theorem blocks0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row y, column k of a row window's block `t` is row 5000·t + y, column k of its array. -/
theorem rowOf0 (t : Fin cfg0.N) (y : Fin 5000) : t.val * 5000 + y.val < 100000 := by
  have ht : t.val < 20 := lt_of_lt_of_eq t.isLt N_0
  have hy := y.isLt
  omega

theorem emb0_0 (t : Fin cfg0.N) (y : Fin 5000) (k : Fin 64) :
    (((cfg0.win 0).blk t).view.emb (ix2 y k) : S100000x64.Idx) = ix2 ⟨t.val * 5000 + y.val, rowOf0 t y⟩ k := by
  obtain ⟨e0, e1, -⟩ := blocks0 t
  funext a; apply Fin.ext
  match a with
  | ⟨0, _⟩ => show win0_0.index t (0 : Fin 2) * 5000 + 1 * y.val = t.val * 5000 + y.val; omega
  | ⟨1, _⟩ => show win0_0.index t (1 : Fin 2) * 64 + 1 * k.val = k.val; omega
theorem emb0_1 (t : Fin cfg0.N) (y : Fin 5000) (k : Fin 64) :
    (((cfg0.win 1).blk t).view.emb (ix2 y k) : S100000x64.Idx) = ix2 ⟨t.val * 5000 + y.val, rowOf0 t y⟩ k := by
  obtain ⟨-, -, e0, e1, -⟩ := blocks0 t
  funext a; apply Fin.ext
  match a with
  | ⟨0, _⟩ => show win0_1.index t (0 : Fin 2) * 5000 + 1 * y.val = t.val * 5000 + y.val; omega
  | ⟨1, _⟩ => show win0_1.index t (1 : Fin 2) * 64 + 1 * k.val = k.val; omega
theorem emb0_4 (t : Fin cfg0.N) (y : Fin 5000) (k : Fin 64) :
    (((cfg0.win 4).blk t).view.emb (ix2 y k) : S100000x64.Idx) = ix2 ⟨t.val * 5000 + y.val, rowOf0 t y⟩ k := by
  obtain ⟨-, -, -, -, -, -, -, -, e0, e1⟩ := blocks0 t
  funext a; apply Fin.ext
  match a with
  | ⟨0, _⟩ => show win0_4.index t (0 : Fin 2) * 5000 + 1 * y.val = t.val * 5000 + y.val; omega
  | ⟨1, _⟩ => show win0_4.index t (1 : Fin 2) * 64 + 1 * k.val = k.val; omega
theorem emb0_2 (t : Fin cfg0.N) (y : S64x64.Idx) : (((cfg0.win 2).blk t).view.emb y : S64x64.Idx) = y := by
  obtain ⟨-, -, -, -, e0, e1, -⟩ := blocks0 t
  funext a; apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega
theorem emb0_3 (t : Fin cfg0.N) (y : S64x64.Idx) : (((cfg0.win 3).blk t).view.emb y : S64x64.Idx) = y := by
  obtain ⟨-, -, -, -, -, -, e0, e1, -⟩ := blocks0 t
  funext a; apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- The layer of the call's four input arrays, as the call finds them. -/
abbrev whole0 (c : Dev nD) : S100000x64.Idx → EReal :=
  Cert.ReferenceIdeal.Line.layer (F := Ideal) (V c main_arg0) (V c main_v12) (V c main_v14) (V c main_v16)

/-- What grid point `t` writes back is block `t` of that layer. -/
theorem writtenBack0 (c : Dev nD) (t : Fin cfg0.N) :
    (dat0 V c).flushed 4 t = ((cfg0.win 4).blk t).view.read (Elt Ideal) (whole0 V c) := by
  show (cfg0.win 4).cut (grid0.coords t) ((dat0 V c).after 4 t) = _
  rw [dat0_after_4]
  unfold tile0
  rw [View.canon_unit_zero zeroOffsets0]
  simp only [View.ld_unit_zero (S := S5000x64) zeroOffsets0, View.ld_unit_zero (S := S64x64) zeroOffsets0]
  funext y
  obtain ⟨p, q, rfl⟩ : ∃ (p : Fin 5000) (q : Fin 64), y = ix2 p q := ⟨y 0, y 1, eq_ix2 y⟩
  show k0_pay1 (blk0 V c 0 t) (blk0 V c 1 t) (blk0 V c 2 t) (blk0 V c 3 t) (ix2 p q)
    = whole0 V c (((cfg0.win 4).blk t).view.emb (ix2 p q))
  rw [stored0_apply, emb0_4]
  unfold whole0
  rw [Cert.ReferenceIdeal.Line.layer_apply]
  have h0 : (fun k : Fin 64 => blk0 V c 0 t (ix2 p k)) = fun k => V c main_arg0 (ix2 ⟨t.val * 5000 + p.val, rowOf0 t p⟩ k) :=
    funext fun k => by
      show V c main_arg0 (((cfg0.win 0).blk t).view.emb (ix2 p k)) = _
      rw [emb0_0]
  have h1 : (fun k : Fin 64 => blk0 V c 1 t (ix2 p k)) = fun k => V c main_v12 (ix2 ⟨t.val * 5000 + p.val, rowOf0 t p⟩ k) :=
    funext fun k => by
      show V c main_v12 (((cfg0.win 1).blk t).view.emb (ix2 p k)) = _
      rw [emb0_1]
  have h2 : (blk0 V c 2 t : S64x64.Idx → EReal) = V c main_v14 :=
    funext fun y => by
      show V c main_v14 (((cfg0.win 2).blk t).view.emb y) = _
      rw [emb0_2]
  have h3 : (blk0 V c 3 t : S64x64.Idx → EReal) = V c main_v16 :=
    funext fun y => by
      show V c main_v16 (((cfg0.win 3).blk t).view.emb y) = _
      rw [emb0_3]
  rw [h0, h1, h2, h3]

/-- An index of the output array lies in point `t`'s block iff its row is one of the 5000 rows from 5000·t on. -/
theorem inBlock0 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v17).slice (win0_4.rect t)).set ↔ _
  rw [View.set_slice_whole, Rect.mem_set_unit]
  exact Iff.rfl

/-- THE OUTPUT ARRAY after the call: the layer of the four input arrays. -/
theorem output0 (c : Dev nD) : (dat0 V c).arrAt 4 cfg0.N = whole0 V c :=
  (dat0 V c).arrAt_eq_of_cover 4 (whole0 V c) (fun t _ => writtenBack0 V c t) fun i => by
    have hi0 : (i 0).val < 100000 := (i 0).isLt
    have hi1 : (i 1).val < 64 := (i 1).isLt
    have hN : (i 0).val / 5000 < cfg0.N := by
      have h20 : cfg0.N = 20 := N_0
      rw [h20]; omega
    refine ⟨⟨(i 0).val / 5000, hN⟩, flush0_4 _, ?_⟩
    rw [inBlock0]
    obtain ⟨-, -, -, -, -, -, -, -, e0, e1⟩ := blocks0 ⟨(i 0).val / 5000, hN⟩
    intro a
    match a with
    | ⟨0, _⟩ =>
      show win0_4.index _ (0 : Fin 2) * 5000 ≤ (i 0).val ∧ (i 0).val < win0_4.index _ (0 : Fin 2) * 5000 + 5000
      rw [e0]; show (i 0).val / 5000 * 5000 ≤ (i 0).val ∧ (i 0).val < (i 0).val / 5000 * 5000 + 5000; omega
    | ⟨1, _⟩ =>
      show win0_4.index _ (1 : Fin 2) * 64 ≤ (i 1).val ∧ (i 1).val < win0_4.index _ (1 : Fin 2) * 64 + 64
      rw [e1]; omega

end Cert.KernelIdeal.Combine

end
-- ==== Proof.KIClosed1.lean ====
/-
  What call 1 leaves in its output array, as one function of its four input arrays.

  Grid point `t` handles rows 5000·t … 5000·t + 4999: its two row windows are at block `t`, its two weight windows at
  block 0 (the whole matrix), and it writes back block `t` of the output. Entry (y, j) of what it writes is the spec's
  entry of rows y of the two row tiles and column j of the weights — the kernel's two matrix products into a zero
  accumulator are plain sums over the 64 contracted coordinates, and a change of float format is the identity on the
  extended reals. Row y of tile `t` is row 5000·t + y of the array, so block `t` of the output is block `t` of the
  reference's `layer` of the whole arrays; the 20 tiles cover all 100000 rows, so the output array IS that `layer`.
-/
import proofs.«133226_j223338299967_1_alg».proof.Proof.KICall1
import proofs.«133226_j223338299967_1_alg».proof.Proof.RefRead

set_option maxRecDepth 16384

noncomputable section

namespace Cert.KernelIdeal.Combine

open Cert.KernelIdeal Cert.KernelIdeal.Gen
open Idealize.ShloMosaic Idealize.ShloMosaic.TcCoe Idealize.ShloMosaic.ValueIdx
open Idealize.SL.Sem
open Idealize.ShloMosaic.Pipeline (Dat)

/-- The kernel's dot is a plain 5000×64 by 64×64 product. -/
theorem plainDot1 : Cert.LibHostRead.PlainDot dot_S5000x64_S64x64_S5000x64_1_0_0_1_n_n where
  hr := rfl
  hs := rfl
  hl0 := fun i q => rfl
  hl1 := fun i q => DotDims.lhsIdx_val_of_single _ rfl i q
  hr0 := fun i q => DotDims.rhsIdx_val_of_single _ rfl i q
  hr1 := fun i q => rfl

/-- Entry (y, j) of the value the body stores: the spec's entry of rows y of the two row tiles. -/
theorem stored1_apply (eb sb : Vec Ideal S5000x64 .f32) (w1 w2 : Vec Ideal S64x64 .f32) (y : Fin 5000) (j : Fin 64) :
    k1_pay1 eb sb w1 w2 (ix2 y j) = Cert.LayerSpec.cell (fun k => eb (ix2 y k)) (fun k => sb (ix2 y k)) w1 w2 j := by
  unfold k1_pay1
  rw [select_apply, cmpf_apply, mulf_apply, broadcast_apply, broadcast_apply, addf_apply]
  unfold Idealize.ShloMosaic.matmul
  rw [Cert.LibHostRead.matmul_plain_zero_apply _ plainDot1, Cert.LibHostRead.matmul_plain_zero_apply _ plainDot1]
  simp only [shapeCast_self]
  unfold Cert.LayerSpec.cell Cert.LayerSpec.leaky Cert.LayerSpec.pre
  rw [mul_comm (Ideal.ofBits .f32 0x3E4CCCCD#32)]
  rfl

variable (V : (c : Dev nD) → (b : Ref sig .tc) → Buf (Elt Ideal) ((c : Thread nD τ).loc b))

theorem zeroOffsets1 : (![0, 0] : Fin 2 → Nat) = fun _ => 0 := funext fun a => by fin_cases a <;> rfl

/-- The printed index maps over the grid: the row windows and the output are at block `t`, the weights at block 0. -/
theorem blocks1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row y, column k of a row window's block `t` is row 5000·t + y, column k of its array. -/
theorem rowOf1 (t : Fin cfg1.N) (y : Fin 5000) : t.val * 5000 + y.val < 100000 := by
  have ht : t.val < 20 := lt_of_lt_of_eq t.isLt N_1
  have hy := y.isLt
  omega

theorem emb1_0 (t : Fin cfg1.N) (y : Fin 5000) (k : Fin 64) :
    (((cfg1.win 0).blk t).view.emb (ix2 y k) : S100000x64.Idx) = ix2 ⟨t.val * 5000 + y.val, rowOf1 t y⟩ k := by
  obtain ⟨e0, e1, -⟩ := blocks1 t
  funext a; apply Fin.ext
  match a with
  | ⟨0, _⟩ => show win1_0.index t (0 : Fin 2) * 5000 + 1 * y.val = t.val * 5000 + y.val; omega
  | ⟨1, _⟩ => show win1_0.index t (1 : Fin 2) * 64 + 1 * k.val = k.val; omega
theorem emb1_1 (t : Fin cfg1.N) (y : Fin 5000) (k : Fin 64) :
    (((cfg1.win 1).blk t).view.emb (ix2 y k) : S100000x64.Idx) = ix2 ⟨t.val * 5000 + y.val, rowOf1 t y⟩ k := by
  obtain ⟨-, -, e0, e1, -⟩ := blocks1 t
  funext a; apply Fin.ext
  match a with
  | ⟨0, _⟩ => show win1_1.index t (0 : Fin 2) * 5000 + 1 * y.val = t.val * 5000 + y.val; omega
  | ⟨1, _⟩ => show win1_1.index t (1 : Fin 2) * 64 + 1 * k.val = k.val; omega
theorem emb1_4 (t : Fin cfg1.N) (y : Fin 5000) (k : Fin 64) :
    (((cfg1.win 4).blk t).view.emb (ix2 y k) : S100000x64.Idx) = ix2 ⟨t.val * 5000 + y.val, rowOf1 t y⟩ k := by
  obtain ⟨-, -, -, -, -, -, -, -, e0, e1⟩ := blocks1 t
  funext a; apply Fin.ext
  match a with
  | ⟨0, _⟩ => show win1_4.index t (0 : Fin 2) * 5000 + 1 * y.val = t.val * 5000 + y.val; omega
  | ⟨1, _⟩ => show win1_4.index t (1 : Fin 2) * 64 + 1 * k.val = k.val; omega
theorem emb1_2 (t : Fin cfg1.N) (y : S64x64.Idx) : (((cfg1.win 2).blk t).view.emb y : S64x64.Idx) = y := by
  obtain ⟨-, -, -, -, e0, e1, -⟩ := blocks1 t
  funext a; apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega
theorem emb1_3 (t : Fin cfg1.N) (y : S64x64.Idx) : (((cfg1.win 3).blk t).view.emb y : S64x64.Idx) = y := by
  obtain ⟨-, -, -, -, -, -, e0, e1, -⟩ := blocks1 t
  funext a; apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- The layer of the call's four input arrays, as the call finds them. -/
abbrev whole1 (c : Dev nD) : S100000x64.Idx → EReal :=
  Cert.ReferenceIdeal.Line.layer (F := Ideal) (V c main_v17) (V c main_v30) (V c main_v32) (V c main_v34)

/-- What grid point `t` writes back is block `t` of that layer. -/
theorem writtenBack1 (c : Dev nD) (t : Fin cfg1.N) :
    (dat1 V c).flushed 4 t = ((cfg1.win 4).blk t).view.read (Elt Ideal) (whole1 V c) := by
  show (cfg1.win 4).cut (grid1.coords t) ((dat1 V c).after 4 t) = _
  rw [dat1_after_4]
  unfold tile1
  rw [View.canon_unit_zero zeroOffsets1]
  simp only [View.ld_unit_zero (S := S5000x64) zeroOffsets1, View.ld_unit_zero (S := S64x64) zeroOffsets1]
  funext y
  obtain ⟨p, q, rfl⟩ : ∃ (p : Fin 5000) (q : Fin 64), y = ix2 p q := ⟨y 0, y 1, eq_ix2 y⟩
  show k1_pay1 (blk1 V c 0 t) (blk1 V c 1 t) (blk1 V c 2 t) (blk1 V c 3 t) (ix2 p q)
    = whole1 V c (((cfg1.win 4).blk t).view.emb (ix2 p q))
  rw [stored1_apply, emb1_4]
  unfold whole1
  rw [Cert.ReferenceIdeal.Line.layer_apply]
  have h0 : (fun k : Fin 64 => blk1 V c 0 t (ix2 p k)) = fun k => V c main_v17 (ix2 ⟨t.val * 5000 + p.val, rowOf1 t p⟩ k) :=
    funext fun k => by
      show V c main_v17 (((cfg1.win 0).blk t).view.emb (ix2 p k)) = _
      rw [emb1_0]
  have h1 : (fun k : Fin 64 => blk1 V c 1 t (ix2 p k)) = fun k => V c main_v30 (ix2 ⟨t.val * 5000 + p.val, rowOf1 t p⟩ k) :=
    funext fun k => by
      show V c main_v30 (((cfg1.win 1).blk t).view.emb (ix2 p k)) = _
      rw [emb1_1]
  have h2 : (blk1 V c 2 t : S64x64.Idx → EReal) = V c main_v32 :=
    funext fun y => by
      show V c main_v32 (((cfg1.win 2).blk t).view.emb y) = _
      rw [emb1_2]
  have h3 : (blk1 V c 3 t : S64x64.Idx → EReal) = V c main_v34 :=
    funext fun y => by
      show V c main_v34 (((cfg1.win 3).blk t).view.emb y) = _
      rw [emb1_3]
  rw [h0, h1, h2, h3]

/-- An index of the output array lies in point `t`'s block iff its row is one of the 5000 rows from 5000·t on. -/
theorem inBlock1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v35).slice (win1_4.rect t)).set ↔ _
  rw [View.set_slice_whole, Rect.mem_set_unit]
  exact Iff.rfl

/-- THE OUTPUT ARRAY after the call: the layer of the four input arrays. -/
theorem output1 (c : Dev nD) : (dat1 V c).arrAt 4 cfg1.N = whole1 V c :=
  (dat1 V c).arrAt_eq_of_cover 4 (whole1 V c) (fun t _ => writtenBack1 V c t) fun i => by
    have hi0 : (i 0).val < 100000 := (i 0).isLt
    have hi1 : (i 1).val < 64 := (i 1).isLt
    have hN : (i 0).val / 5000 < cfg1.N := by
      have h20 : cfg1.N = 20 := N_1
      rw [h20]; omega
    refine ⟨⟨(i 0).val / 5000, hN⟩, flush1_4 _, ?_⟩
    rw [inBlock1]
    obtain ⟨-, -, -, -, -, -, -, -, e0, e1⟩ := blocks1 ⟨(i 0).val / 5000, hN⟩
    intro a
    match a with
    | ⟨0, _⟩ =>
      show win1_4.index _ (0 : Fin 2) * 5000 ≤ (i 0).val ∧ (i 0).val < win1_4.index _ (0 : Fin 2) * 5000 + 5000
      rw [e0]; show (i 0).val / 5000 * 5000 ≤ (i 0).val ∧ (i 0).val < (i 0).val / 5000 * 5000 + 5000; omega
    | ⟨1, _⟩ =>
      show win1_4.index _ (1 : Fin 2) * 64 ≤ (i 1).val ∧ (i 1).val < win1_4.index _ (1 : Fin 2) * 64 + 64
      rw [e1]; omega

end Cert.KernelIdeal.Combine

end
-- ==== Proof.KIClosed2.lean ====
/-
  What call 2 leaves in its output array, as one function of its four input arrays.

  Grid point `t` handles rows 5000·t … 5000·t + 4999: its two row windows are at block `t`, its two weight windows at
  block 0 (the whole matrix), and it writes back block `t` of the output. Entry (y, j) of what it writes is the spec's
  entry of rows y of the two row tiles and column j of the weights — the kernel's two matrix products into a zero
  accumulator are plain sums over the 64 contracted coordinates, and a change of float format is the identity on the
  extended reals. Row y of tile `t` is row 5000·t + y of the array, so block `t` of the output is block `t` of the
  reference's `layer` of the whole arrays; the 20 tiles cover all 100000 rows, so the output array IS that `layer`.
-/
import proofs.«133226_j223338299967_1_alg».proof.Proof.KICall2
import proofs.«133226_j223338299967_1_alg».proof.Proof.RefRead

set_option maxRecDepth 16384

noncomputable section

namespace Cert.KernelIdeal.Combine

open Cert.KernelIdeal Cert.KernelIdeal.Gen
open Idealize.ShloMosaic Idealize.ShloMosaic.TcCoe Idealize.ShloMosaic.ValueIdx
open Idealize.SL.Sem
open Idealize.ShloMosaic.Pipeline (Dat)

/-- The kernel's dot is a plain 5000×64 by 64×64 product. -/
theorem plainDot2 : Cert.LibHostRead.PlainDot dot_S5000x64_S64x64_S5000x64_1_0_0_1_n_n where
  hr := rfl
  hs := rfl
  hl0 := fun i q => rfl
  hl1 := fun i q => DotDims.lhsIdx_val_of_single _ rfl i q
  hr0 := fun i q => DotDims.rhsIdx_val_of_single _ rfl i q
  hr1 := fun i q => rfl

/-- Entry (y, j) of the value the body stores: the spec's entry of rows y of the two row tiles. -/
theorem stored2_apply (eb sb : Vec Ideal S5000x64 .f32) (w1 w2 : Vec Ideal S64x64 .f32) (y : Fin 5000) (j : Fin 64) :
    k2_pay1 eb sb w1 w2 (ix2 y j) = Cert.LayerSpec.cell (fun k => eb (ix2 y k)) (fun k => sb (ix2 y k)) w1 w2 j := by
  unfold k2_pay1
  rw [select_apply, cmpf_apply, mulf_apply, broadcast_apply, broadcast_apply, addf_apply]
  unfold Idealize.ShloMosaic.matmul
  rw [Cert.LibHostRead.matmul_plain_zero_apply _ plainDot2, Cert.LibHostRead.matmul_plain_zero_apply _ plainDot2]
  simp only [shapeCast_self]
  unfold Cert.LayerSpec.cell Cert.LayerSpec.leaky Cert.LayerSpec.pre
  rw [mul_comm (Ideal.ofBits .f32 0x3E4CCCCD#32)]
  rfl

variable (V : (c : Dev nD) → (b : Ref sig .tc) → Buf (Elt Ideal) ((c : Thread nD τ).loc b))

theorem zeroOffsets2 : (![0, 0] : Fin 2 → Nat) = fun _ => 0 := funext fun a => by fin_cases a <;> rfl

/-- The printed index maps over the grid: the row windows and the output are at block `t`, the weights at block 0. -/
theorem blocks2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row y, column k of a row window's block `t` is row 5000·t + y, column k of its array. -/
theorem rowOf2 (t : Fin cfg2.N) (y : Fin 5000) : t.val * 5000 + y.val < 100000 := by
  have ht : t.val < 20 := lt_of_lt_of_eq t.isLt N_2
  have hy := y.isLt
  omega

theorem emb2_0 (t : Fin cfg2.N) (y : Fin 5000) (k : Fin 64) :
    (((cfg2.win 0).blk t).view.emb (ix2 y k) : S100000x64.Idx) = ix2 ⟨t.val * 5000 + y.val, rowOf2 t y⟩ k := by
  obtain ⟨e0, e1, -⟩ := blocks2 t
  funext a; apply Fin.ext
  match a with
  | ⟨0, _⟩ => show win2_0.index t (0 : Fin 2) * 5000 + 1 * y.val = t.val * 5000 + y.val; omega
  | ⟨1, _⟩ => show win2_0.index t (1 : Fin 2) * 64 + 1 * k.val = k.val; omega
theorem emb2_1 (t : Fin cfg2.N) (y : Fin 5000) (k : Fin 64) :
    (((cfg2.win 1).blk t).view.emb (ix2 y k) : S100000x64.Idx) = ix2 ⟨t.val * 5000 + y.val, rowOf2 t y⟩ k := by
  obtain ⟨-, -, e0, e1, -⟩ := blocks2 t
  funext a; apply Fin.ext
  match a with
  | ⟨0, _⟩ => show win2_1.index t (0 : Fin 2) * 5000 + 1 * y.val = t.val * 5000 + y.val; omega
  | ⟨1, _⟩ => show win2_1.index t (1 : Fin 2) * 64 + 1 * k.val = k.val; omega
theorem emb2_4 (t : Fin cfg2.N) (y : Fin 5000) (k : Fin 64) :
    (((cfg2.win 4).blk t).view.emb (ix2 y k) : S100000x64.Idx) = ix2 ⟨t.val * 5000 + y.val, rowOf2 t y⟩ k := by
  obtain ⟨-, -, -, -, -, -, -, -, e0, e1⟩ := blocks2 t
  funext a; apply Fin.ext
  match a with
  | ⟨0, _⟩ => show win2_4.index t (0 : Fin 2) * 5000 + 1 * y.val = t.val * 5000 + y.val; omega
  | ⟨1, _⟩ => show win2_4.index t (1 : Fin 2) * 64 + 1 * k.val = k.val; omega
theorem emb2_2 (t : Fin cfg2.N) (y : S64x64.Idx) : (((cfg2.win 2).blk t).view.emb y : S64x64.Idx) = y := by
  obtain ⟨-, -, -, -, e0, e1, -⟩ := blocks2 t
  funext a; apply Fin.ext
  match a with
  | ⟨0, _⟩ => show win2_2.index t (0 : Fin 2) * 64 + 1 * (y 0).val = (y 0).val; omega
  | ⟨1, _⟩ => show win2_2.index t (1 : Fin 2) * 64 + 1 * (y 1).val = (y 1).val; omega
theorem emb2_3 (t : Fin cfg2.N) (y : S64x64.Idx) : (((cfg2.win 3).blk t).view.emb y : S64x64.Idx) = y := by
  obtain ⟨-, -, -, -, -, -, e0, e1, -⟩ := blocks2 t
  funext a; apply Fin.ext
  match a with
  | ⟨0, _⟩ => show win2_3.index t (0 : Fin 2) * 64 + 1 * (y 0).val = (y 0).val; omega
  | ⟨1, _⟩ => show win2_3.index t (1 : Fin 2) * 64 + 1 * (y 1).val = (y 1).val; omega

/-- The layer of the call's four input arrays, as the call finds them. -/
abbrev whole2 (c : Dev nD) : S100000x64.Idx → EReal :=
  Cert.ReferenceIdeal.Line.layer (F := Ideal) (V c main_v35) (V c main_v48) (V c main_v50) (V c main_v52)

/-- What grid point `t` writes back is block `t` of that layer. -/
theorem writtenBack2 (c : Dev nD) (t : Fin cfg2.N) :
    (dat2 V c).flushed 4 t = ((cfg2.win 4).blk t).view.read (Elt Ideal) (whole2 V c) := by
  show (cfg2.win 4).cut (grid2.coords t) ((dat2 V c).after 4 t) = _
  rw [dat2_after_4]
  unfold tile2
  rw [View.canon_unit_zero zeroOffsets2]
  simp only [View.ld_unit_zero (S := S5000x64) zeroOffsets2, View.ld_unit_zero (S := S64x64) zeroOffsets2]
  funext y
  obtain ⟨p, q, rfl⟩ : ∃ (p : Fin 5000) (q : Fin 64), y = ix2 p q := ⟨y 0, y 1, eq_ix2 y⟩
  show k2_pay1 (blk2 V c 0 t) (blk2 V c 1 t) (blk2 V c 2 t) (blk2 V c 3 t) (ix2 p q)
    = whole2 V c (((cfg2.win 4).blk t).view.emb (ix2 p q))
  rw [stored2_apply, emb2_4]
  unfold whole2
  rw [Cert.ReferenceIdeal.Line.layer_apply]
  have h0 : (fun k : Fin 64 => blk2 V c 0 t (ix2 p k)) = fun k => V c main_v35 (ix2 ⟨t.val * 5000 + p.val, rowOf2 t p⟩ k) :=
    funext fun k => by
      show V c main_v35 (((cfg2.win 0).blk t).view.emb (ix2 p k)) = _
      rw [emb2_0]
  have h1 : (fun k : Fin 64 => blk2 V c 1 t (ix2 p k)) = fun k => V c main_v48 (ix2 ⟨t.val * 5000 + p.val, rowOf2 t p⟩ k) :=
    funext fun k => by
      show V c main_v48 (((cfg2.win 1).blk t).view.emb (ix2 p k)) = _
      rw [emb2_1]
  have h2 : (blk2 V c 2 t : S64x64.Idx → EReal) = V c main_v50 :=
    funext fun y => by
      show V c main_v50 (((cfg2.win 2).blk t).view.emb y) = _
      rw [emb2_2]
  have h3 : (blk2 V c 3 t : S64x64.Idx → EReal) = V c main_v52 :=
    funext fun y => by
      show V c main_v52 (((cfg2.win 3).blk t).view.emb y) = _
      rw [emb2_3]
  rw [h0, h1, h2, h3]

/-- An index of the output array lies in point `t`'s block iff its row is one of the 5000 rows from 5000·t on. -/
theorem inBlock2 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v53).slice (win2_4.rect t)).set ↔ _
  rw [View.set_slice_whole, Rect.mem_set_unit]
  exact Iff.rfl

/-- THE OUTPUT ARRAY after the call: the layer of the four input arrays. -/
theorem output2 (c : Dev nD) : (dat2 V c).arrAt 4 cfg2.N = whole2 V c :=
  (dat2 V c).arrAt_eq_of_cover 4 (whole2 V c) (fun t _ => writtenBack2 V c t) fun i => by
    have hi0 : (i 0).val < 100000 := (i 0).isLt
    have hi1 : (i 1).val < 64 := (i 1).isLt
    have hN : (i 0).val / 5000 < cfg2.N := by
      have h20 : cfg2.N = 20 := N_2
      rw [h20]; omega
    refine ⟨⟨(i 0).val / 5000, hN⟩, flush2_4 _, ?_⟩
    rw [inBlock2]
    obtain ⟨-, -, -, -, -, -, -, -, e0, e1⟩ := blocks2 ⟨(i 0).val / 5000, hN⟩
    intro a
    match a with
    | ⟨0, _⟩ =>
      show win2_4.index _ (0 : Fin 2) * 5000 ≤ (i 0).val ∧ (i 0).val < win2_4.index _ (0 : Fin 2) * 5000 + 5000
      rw [e0]; show (i 0).val / 5000 * 5000 ≤ (i 0).val ∧ (i 0).val < (i 0).val / 5000 * 5000 + 5000; omega
    | ⟨1, _⟩ =>
      show win2_4.index _ (1 : Fin 2) * 64 ≤ (i 1).val ∧ (i 1).val < win2_4.index _ (1 : Fin 2) * 64 + 64
      rw [e1]; omega

end Cert.KernelIdeal.Combine

end
-- ==== Proof.RefValue.lean ====
/-
  The reference's results as functions of its eight arguments.

  Reading the four stages back in order gives the three embeddings `emb1`, `emb2`, `emb3` (each the layer of the one
  before, of its neighbourhood sums and of that layer's two weight matrices) and the two results: the user rows and the
  item rows of the four embeddings side by side. No stage writes an argument.
-/
import proofs.«133226_j223338299967_1_alg».proof.Proof.RefRead

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-! ## The model -/

def emb1 (a0 : (⟨S100000x64, .f32⟩ : BufTy).Contents (Elt F)) (a1 a2 : (⟨S3x64x64, .f32⟩ : BufTy).Contents (Elt F)) (a3 : (⟨S1600000, .f32⟩ : BufTy).Contents (Elt F)) (a4 a5 : (⟨S1600000, .i32⟩ : BufTy).Contents (Elt F)) : (⟨S100000x64, .f32⟩ : BufTy).Contents (Elt F) :=
  layer a0 (spmm a0 a3 a4 a5) (weight0 a1) (weight0 a2)
def emb2 (a0 : (⟨S100000x64, .f32⟩ : BufTy).Contents (Elt F)) (a1 a2 : (⟨S3x64x64, .f32⟩ : BufTy).Contents (Elt F)) (a3 : (⟨S1600000, .f32⟩ : BufTy).Contents (Elt F)) (a4 a5 : (⟨S1600000, .i32⟩ : BufTy).Contents (Elt F)) : (⟨S100000x64, .f32⟩ : BufTy).Contents (Elt F) :=
  layer (emb1 a0 a1 a2 a3 a4 a5) (spmm (emb1 a0 a1 a2 a3 a4 a5) a3 a4 a5) (weight1 a1) (weight1 a2)
def emb3 (a0 : (⟨S100000x64, .f32⟩ : BufTy).Contents (Elt F)) (a1 a2 : (⟨S3x64x64, .f32⟩ : BufTy).Contents (Elt F)) (a3 : (⟨S1600000, .f32⟩ : BufTy).Contents (Elt F)) (a4 a5 : (⟨S1600000, .i32⟩ : BufTy).Contents (Elt F)) : (⟨S100000x64, .f32⟩ : BufTy).Contents (Elt F) :=
  layer (emb2 a0 a1 a2 a3 a4 a5) (spmm (emb2 a0 a1 a2 a3 a4 a5) a3 a4 a5) (weight2 a1) (weight2 a2)
def outUsers (a0 : (⟨S100000x64, .f32⟩ : BufTy).Contents (Elt F)) (a1 a2 : (⟨S3x64x64, .f32⟩ : BufTy).Contents (Elt F)) (a3 : (⟨S1600000, .f32⟩ : BufTy).Contents (Elt F)) (a4 a5 : (⟨S1600000, .i32⟩ : BufTy).Contents (Elt F)) (a6 : (⟨S4096, .i32⟩ : BufTy).Contents (Elt F)) : (⟨S4096x256, .f32⟩ : BufTy).Contents (Elt F) :=
  users a0 (emb1 a0 a1 a2 a3 a4 a5) (emb2 a0 a1 a2 a3 a4 a5) (emb3 a0 a1 a2 a3 a4 a5) a6
def outItems (a0 : (⟨S100000x64, .f32⟩ : BufTy).Contents (Elt F)) (a1 a2 : (⟨S3x64x64, .f32⟩ : BufTy).Contents (Elt F)) (a3 : (⟨S1600000, .f32⟩ : BufTy).Contents (Elt F)) (a4 a5 : (⟨S1600000, .i32⟩ : BufTy).Contents (Elt F)) (a7 : (⟨S4096, .i32⟩ : BufTy).Contents (Elt F)) : (⟨S4096x256, .f32⟩ : BufTy).Contents (Elt F) :=
  items a0 (emb1 a0 a1 a2 a3 a4 a5) (emb2 a0 a1 a2 a3 a4 a5) (emb3 a0 a1 a2 a3 a4 a5) a7

/-! ## The stages read back -/

set_option maxHeartbeats 2000000 in
theorem stage2_layer (V : Valuation τ sig (Elt F)) :
    after stage2 V (main_v45 : DevRef τ sig) = layer (V (main_v22 : DevRef τ sig))
      (spmm (V (main_v22 : DevRef τ sig)) (V (main_arg3 : DevRef τ sig)) (V (main_arg4 : DevRef τ sig)) (V (main_arg5 : DevRef τ sig))) (weight1 (V (main_arg1 : DevRef τ sig))) (weight1 (V (main_arg2 : DevRef τ sig))) := by
  after_results_simp
  rfl
set_option maxHeartbeats 2000000 in
theorem stage3_layer (V : Valuation τ sig (Elt F)) :
    after stage3 V (main_v68 : DevRef τ sig) = layer (V (main_v45 : DevRef τ sig))
      (spmm (V (main_v45 : DevRef τ sig)) (V (main_arg3 : DevRef τ sig)) (V (main_arg4 : DevRef τ sig)) (V (main_arg5 : DevRef τ sig))) (weight2 (V (main_arg1 : DevRef τ sig))) (weight2 (V (main_arg2 : DevRef τ sig))) := by
  after_results_simp
  rfl
set_option maxHeartbeats 2000000 in
theorem stage4_users (V : Valuation τ sig (Elt F)) :
    after stage4 V (main_v78 : DevRef τ sig) = users (V (main_arg0 : DevRef τ sig)) (V (main_v22 : DevRef τ sig)) (V (main_v45 : DevRef τ sig)) (V (main_v68 : DevRef τ sig)) (V (main_arg6 : DevRef τ sig)) := by
  after_results_simp
  rfl
set_option maxHeartbeats 2000000 in
theorem stage4_items (V : Valuation τ sig (Elt F)) :
    after stage4 V (main_v85 : DevRef τ sig) = items (V (main_arg0 : DevRef τ sig)) (V (main_v22 : DevRef τ sig)) (V (main_v45 : DevRef τ sig)) (V (main_v68 : DevRef τ sig)) (V (main_arg7 : DevRef τ sig)) := by
  after_results_simp
  rfl

/-! ## What each stage leaves alone -/

theorem keep1_arg0 (V : Valuation τ sig (Elt F)) : after stage1 V (main_arg0 : DevRef τ sig) = V (main_arg0 : DevRef τ sig) := by after_results_simp
theorem keep1_arg1 (V : Valuation τ sig (Elt F)) : after stage1 V (main_arg1 : DevRef τ sig) = V (main_arg1 : DevRef τ sig) := by after_results_simp
theorem keep1_arg2 (V : Valuation τ sig (Elt F)) : after stage1 V (main_arg2 : DevRef τ sig) = V (main_arg2 : DevRef τ sig) := by after_results_simp
theorem keep1_arg3 (V : Valuation τ sig (Elt F)) : after stage1 V (main_arg3 : DevRef τ sig) = V (main_arg3 : DevRef τ sig) := by after_results_simp
theorem keep1_arg4 (V : Valuation τ sig (Elt F)) : after stage1 V (main_arg4 : DevRef τ sig) = V (main_arg4 : DevRef τ sig) := by after_results_simp
theorem keep1_arg5 (V : Valuation τ sig (Elt F)) : after stage1 V (main_arg5 : DevRef τ sig) = V (main_arg5 : DevRef τ sig) := by after_results_simp
theorem keep1_arg6 (V : Valuation τ sig (Elt F)) : after stage1 V (main_arg6 : DevRef τ sig) = V (main_arg6 : DevRef τ sig) := by after_results_simp
theorem keep1_arg7 (V : Valuation τ sig (Elt F)) : after stage1 V (main_arg7 : DevRef τ sig) = V (main_arg7 : DevRef τ sig) := by after_results_simp
theorem keep2_arg0 (V : Valuation τ sig (Elt F)) : after stage2 V (main_arg0 : DevRef τ sig) = V (main_arg0 : DevRef τ sig) := by after_results_simp
theorem keep2_arg1 (V : Valuation τ sig (Elt F)) : after stage2 V (main_arg1 : DevRef τ sig) = V (main_arg1 : DevRef τ sig) := by after_results_simp
theorem keep2_arg2 (V : Valuation τ sig (Elt F)) : after stage2 V (main_arg2 : DevRef τ sig) = V (main_arg2 : DevRef τ sig) := by after_results_simp
theorem keep2_arg3 (V : Valuation τ sig (Elt F)) : after stage2 V (main_arg3 : DevRef τ sig) = V (main_arg3 : DevRef τ sig) := by after_results_simp
theorem keep2_arg4 (V : Valuation τ sig (Elt F)) : after stage2 V (main_arg4 : DevRef τ sig) = V (main_arg4 : DevRef τ sig) := by after_results_simp
theorem keep2_arg5 (V : Valuation τ sig (Elt F)) : after stage2 V (main_arg5 : DevRef τ sig) = V (main_arg5 : DevRef τ sig) := by after_results_simp
theorem keep2_arg6 (V : Valuation τ sig (Elt F)) : after stage2 V (main_arg6 : DevRef τ sig) = V (main_arg6 : DevRef τ sig) := by after_results_simp
theorem keep2_arg7 (V : Valuation τ sig (Elt F)) : after stage2 V (main_arg7 : DevRef τ sig) = V (main_arg7 : DevRef τ sig) := by after_results_simp
theorem keep2_v22 (V : Valuation τ sig (Elt F)) : after stage2 V (main_v22 : DevRef τ sig) = V (main_v22 : DevRef τ sig) := by after_results_simp
theorem keep3_arg0 (V : Valuation τ sig (Elt F)) : after stage3 V (main_arg0 : DevRef τ sig) = V (main_arg0 : DevRef τ sig) := by after_results_simp
theorem keep3_arg1 (V : Valuation τ sig (Elt F)) : after stage3 V (main_arg1 : DevRef τ sig) = V (main_arg1 : DevRef τ sig) := by after_results_simp
theorem keep3_arg2 (V : Valuation τ sig (Elt F)) : after stage3 V (main_arg2 : DevRef τ sig) = V (main_arg2 : DevRef τ sig) := by after_results_simp
theorem keep3_arg3 (V : Valuation τ sig (Elt F)) : after stage3 V (main_arg3 : DevRef τ sig) = V (main_arg3 : DevRef τ sig) := by after_results_simp
theorem keep3_arg4 (V : Valuation τ sig (Elt F)) : after stage3 V (main_arg4 : DevRef τ sig) = V (main_arg4 : DevRef τ sig) := by after_results_simp
theorem keep3_arg5 (V : Valuation τ sig (Elt F)) : after stage3 V (main_arg5 : DevRef τ sig) = V (main_arg5 : DevRef τ sig) := by after_results_simp
theorem keep3_arg6 (V : Valuation τ sig (Elt F)) : after stage3 V (main_arg6 : DevRef τ sig) = V (main_arg6 : DevRef τ sig) := by after_results_simp
theorem keep3_arg7 (V : Valuation τ sig (Elt F)) : after stage3 V (main_arg7 : DevRef τ sig) = V (main_arg7 : DevRef τ sig) := by after_results_simp
theorem keep3_v22 (V : Valuation τ sig (Elt F)) : after stage3 V (main_v22 : DevRef τ sig) = V (main_v22 : DevRef τ sig) := by after_results_simp
theorem keep3_v45 (V : Valuation τ sig (Elt F)) : after stage3 V (main_v45 : DevRef τ sig) = V (main_v45 : DevRef τ sig) := by after_results_simp
theorem keep4_arg0 (V : Valuation τ sig (Elt F)) : after stage4 V (main_arg0 : DevRef τ sig) = V (main_arg0 : DevRef τ sig) := by after_results_simp
theorem keep4_arg1 (V : Valuation τ sig (Elt F)) : after stage4 V (main_arg1 : DevRef τ sig) = V (main_arg1 : DevRef τ sig) := by after_results_simp
theorem keep4_arg2 (V : Valuation τ sig (Elt F)) : after stage4 V (main_arg2 : DevRef τ sig) = V (main_arg2 : DevRef τ sig) := by after_results_simp
theorem keep4_arg3 (V : Valuation τ sig (Elt F)) : after stage4 V (main_arg3 : DevRef τ sig) = V (main_arg3 : DevRef τ sig) := by after_results_simp
theorem keep4_arg4 (V : Valuation τ sig (Elt F)) : after stage4 V (main_arg4 : DevRef τ sig) = V (main_arg4 : DevRef τ sig) := by after_results_simp
theorem keep4_arg5 (V : Valuation τ sig (Elt F)) : after stage4 V (main_arg5 : DevRef τ sig) = V (main_arg5 : DevRef τ sig) := by after_results_simp
theorem keep4_arg6 (V : Valuation τ sig (Elt F)) : after stage4 V (main_arg6 : DevRef τ sig) = V (main_arg6 : DevRef τ sig) := by after_results_simp
theorem keep4_arg7 (V : Valuation τ sig (Elt F)) : after stage4 V (main_arg7 : DevRef τ sig) = V (main_arg7 : DevRef τ sig) := by after_results_simp

/-! ## The whole line -/

theorem line_users (V : Valuation τ sig (Elt F)) :
    after ops V (main_v78 : DevRef τ sig) = outUsers (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  rw [ops_stages, after_append, after_append, after_append]
  rw [stage4_users, stage3_layer, keep3_arg0, keep3_v22, keep3_v45, keep3_arg6]
  rw [stage2_layer, keep2_arg0, keep2_v22, keep2_arg6, keep2_arg1, keep2_arg2, keep2_arg3, keep2_arg4, keep2_arg5]
  rw [stage1_layer, keep1_arg0, keep1_arg6, keep1_arg1, keep1_arg2, keep1_arg3, keep1_arg4, keep1_arg5]
  rfl

theorem line_items (V : Valuation τ sig (Elt F)) :
    after ops V (main_v85 : DevRef τ sig) = outItems (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg7 : DevRef τ sig)) := by
  rw [ops_stages, after_append, after_append, after_append]
  rw [stage4_items, stage3_layer, keep3_arg0, keep3_v22, keep3_v45, keep3_arg7]
  rw [stage2_layer, keep2_arg0, keep2_v22, keep2_arg7, keep2_arg1, keep2_arg2, keep2_arg3, keep2_arg4, keep2_arg5]
  rw [stage1_layer, keep1_arg0, keep1_arg7, keep1_arg1, keep1_arg2, keep1_arg3, keep1_arg4, keep1_arg5]
  rfl

theorem line_keeps_arg0 (V : Valuation τ sig (Elt F)) : after ops V (main_arg0 : DevRef τ sig) = V (main_arg0 : DevRef τ sig) := by
  rw [ops_stages, after_append, after_append, after_append, keep4_arg0, keep3_arg0, keep2_arg0, keep1_arg0]
theorem line_keeps_arg1 (V : Valuation τ sig (Elt F)) : after ops V (main_arg1 : DevRef τ sig) = V (main_arg1 : DevRef τ sig) := by
  rw [ops_stages, after_append, after_append, after_append, keep4_arg1, keep3_arg1, keep2_arg1, keep1_arg1]
theorem line_keeps_arg2 (V : Valuation τ sig (Elt F)) : after ops V (main_arg2 : DevRef τ sig) = V (main_arg2 : DevRef τ sig) := by
  rw [ops_stages, after_append, after_append, after_append, keep4_arg2, keep3_arg2, keep2_arg2, keep1_arg2]
theorem line_keeps_arg3 (V : Valuation τ sig (Elt F)) : after ops V (main_arg3 : DevRef τ sig) = V (main_arg3 : DevRef τ sig) := by
  rw [ops_stages, after_append, after_append, after_append, keep4_arg3, keep3_arg3, keep2_arg3, keep1_arg3]
theorem line_keeps_arg4 (V : Valuation τ sig (Elt F)) : after ops V (main_arg4 : DevRef τ sig) = V (main_arg4 : DevRef τ sig) := by
  rw [ops_stages, after_append, after_append, after_append, keep4_arg4, keep3_arg4, keep2_arg4, keep1_arg4]
theorem line_keeps_arg5 (V : Valuation τ sig (Elt F)) : after ops V (main_arg5 : DevRef τ sig) = V (main_arg5 : DevRef τ sig) := by
  rw [ops_stages, after_append, after_append, after_append, keep4_arg5, keep3_arg5, keep2_arg5, keep1_arg5]
theorem line_keeps_arg6 (V : Valuation τ sig (Elt F)) : after ops V (main_arg6 : DevRef τ sig) = V (main_arg6 : DevRef τ sig) := by
  rw [ops_stages, after_append, after_append, after_append, keep4_arg6, keep3_arg6, keep2_arg6, keep1_arg6]
theorem line_keeps_arg7 (V : Valuation τ sig (Elt F)) : after ops V (main_arg7 : DevRef τ sig) = V (main_arg7 : DevRef τ sig) := by
  rw [ops_stages, after_append, after_append, after_append, keep4_arg7, keep3_arg7, keep2_arg7, keep1_arg7]

/-! ## The run, with the results named -/

theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78) = outUsers (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v85) = outItems (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v78).trans (line_users _), (h c main_v85).trans (line_items _),
      (h c main_arg0).trans (line_keeps_arg0 _),
      (h c main_arg1).trans (line_keeps_arg1 _),
      (h c main_arg2).trans (line_keeps_arg2 _),
      (h c main_arg3).trans (line_keeps_arg3 _),
      (h c main_arg4).trans (line_keeps_arg4 _),
      (h c main_arg5).trans (line_keeps_arg5 _),
      (h c main_arg6).trans (line_keeps_arg6 _),
      (h c main_arg7).trans (line_keeps_arg7 _)⟩)
    (run m ρ)

end Cert.ReferenceIdeal.Line

end
-- ==== Proof.KIValue.lean ====
/-
  The kernel's results as the same functions of its eight arguments.

  Each stretch of host operations computes the neighbourhood sums of the current embeddings and picks the layer's two
  weight matrices — the same host operations as the reference's, so the same pure functions —, and the call that
  follows leaves the layer of those four arrays in its output. Following the buffers from boundary to boundary gives the
  three embeddings and, after the last stretch, the user rows and item rows of the four embeddings side by side.
-/
import proofs.«133226_j223338299967_1_alg».proof.Proof.KIRun
import proofs.«133226_j223338299967_1_alg».proof.Proof.KIClosed0
import proofs.«133226_j223338299967_1_alg».proof.Proof.KIClosed1
import proofs.«133226_j223338299967_1_alg».proof.Proof.KIClosed2
import proofs.«133226_j223338299967_1_alg».proof.Proof.RefValue

set_option maxRecDepth 16384

noncomputable section

namespace Cert.KernelIdeal.Combine

open Cert.KernelIdeal Cert.KernelIdeal.Gen
open Idealize.ShloMosaic Idealize.ShloMosaic.TcCoe Idealize.ShloMosaic.StableHlo
open Idealize.SL.Sem
open Cert.ReferenceIdeal.Line (spmm weight0 weight1 weight2 layer users items emb1 emb2 emb3 outUsers outItems)

/-! ## The host stretches, read back (at any contents `V`) -/

section Stretches
variable (V : Valuation τ sig (Elt Ideal))

set_option maxHeartbeats 2000000 in
theorem sums0 : after hostOps0 V (main_v12 : DevRef τ sig) = spmm (F := Ideal) (V (main_arg0 : DevRef τ sig)) (V (main_arg3 : DevRef τ sig)) (V (main_arg4 : DevRef τ sig)) (V (main_arg5 : DevRef τ sig)) := by
  after_results_simp
  rfl
set_option maxHeartbeats 2000000 in
theorem left0 : after hostOps0 V (main_v14 : DevRef τ sig) = weight0 (F := Ideal) (V (main_arg1 : DevRef τ sig)) := by
  after_results_simp
  rfl
set_option maxHeartbeats 2000000 in
theorem right0 : after hostOps0 V (main_v16 : DevRef τ sig) = weight0 (F := Ideal) (V (main_arg2 : DevRef τ sig)) := by
  after_results_simp
  rfl
set_option maxHeartbeats 2000000 in
theorem sums1 : after hostOps1 V (main_v30 : DevRef τ sig) = spmm (F := Ideal) (V (main_v17 : DevRef τ sig)) (V (main_arg3 : DevRef τ sig)) (V (main_arg4 : DevRef τ sig)) (V (main_arg5 : DevRef τ sig)) := by
  after_results_simp
  rfl
set_option maxHeartbeats 2000000 in
theorem left1 : after hostOps1 V (main_v32 : DevRef τ sig) = weight1 (F := Ideal) (V (main_arg1 : DevRef τ sig)) := by
  after_results_simp
  rfl
set_option maxHeartbeats 2000000 in
theorem right1 : after hostOps1 V (main_v34 : DevRef τ sig) = weight1 (F := Ideal) (V (main_arg2 : DevRef τ sig)) := by
  after_results_simp
  rfl
set_option maxHeartbeats 2000000 in
theorem sums2 : after hostOps2 V (main_v48 : DevRef τ sig) = spmm (F := Ideal) (V (main_v35 : DevRef τ sig)) (V (main_arg3 : DevRef τ sig)) (V (main_arg4 : DevRef τ sig)) (V (main_arg5 : DevRef τ sig)) := by
  after_results_simp
  rfl
set_option maxHeartbeats 2000000 in
theorem left2 : after hostOps2 V (main_v50 : DevRef τ sig) = weight2 (F := Ideal) (V (main_arg1 : DevRef τ sig)) := by
  after_results_simp
  rfl
set_option maxHeartbeats 2000000 in
theorem right2 : after hostOps2 V (main_v52 : DevRef τ sig) = weight2 (F := Ideal) (V (main_arg2 : DevRef τ sig)) := by
  after_results_simp
  rfl
set_option maxHeartbeats 2000000 in
theorem lookupUsers : after hostOps3 V (main_v63 : DevRef τ sig) = users (F := Ideal) (V (main_arg0 : DevRef τ sig)) (V (main_v17 : DevRef τ sig)) (V (main_v35 : DevRef τ sig)) (V (main_v53 : DevRef τ sig)) (V (main_arg6 : DevRef τ sig)) := by
  after_results_simp
  rfl
set_option maxHeartbeats 2000000 in
theorem lookupItems : after hostOps3 V (main_v70 : DevRef τ sig) = items (F := Ideal) (V (main_arg0 : DevRef τ sig)) (V (main_v17 : DevRef τ sig)) (V (main_v35 : DevRef τ sig)) (V (main_v53 : DevRef τ sig)) (V (main_arg7 : DevRef τ sig)) := by
  after_results_simp
  rfl

end Stretches

variable (m : (ℓ : Loc nD τ sig) → Buf (Elt Ideal) ℓ) (ρ : Dev nD → PrngReg) (c : Dev nD)

/-! ## What reaches each boundary untouched -/

theorem at1_keeps (b : Ref sig .tc) (h0 : b ∉ hostOps0_W) : at1 m ρ c (Proc.devRef .tc b) = m ((c : Thread nD τ).loc b) :=
  StableHlo.after_of_writes_sub hostOps0 _ hostOps0_writes h0
theorem at2_keeps (b : Ref sig .tc) (h0 : b ∉ hostOps0_W) (k0 : b ≠ main_v17) : at2 m ρ c (Proc.devRef .tc b) = m ((c : Thread nD τ).loc b) :=
  (at2_same m ρ c b k0).trans (at1_keeps m ρ c b h0)
theorem at3_keeps (b : Ref sig .tc) (h0 : b ∉ hostOps0_W) (k0 : b ≠ main_v17) (h1 : b ∉ hostOps1_W) : at3 m ρ c (Proc.devRef .tc b) = m ((c : Thread nD τ).loc b) :=
  (StableHlo.after_of_writes_sub hostOps1 _ hostOps1_writes h1).trans (at2_keeps m ρ c b h0 k0)
theorem at4_keeps (b : Ref sig .tc) (h0 : b ∉ hostOps0_W) (k0 : b ≠ main_v17) (h1 : b ∉ hostOps1_W) (k1 : b ≠ main_v35) : at4 m ρ c (Proc.devRef .tc b) = m ((c : Thread nD τ).loc b) :=
  (at4_same m ρ c b k1).trans (at3_keeps m ρ c b h0 k0 h1)
theorem at5_keeps (b : Ref sig .tc) (h0 : b ∉ hostOps0_W) (k0 : b ≠ main_v17) (h1 : b ∉ hostOps1_W) (k1 : b ≠ main_v35) (h2 : b ∉ hostOps2_W) : at5 m ρ c (Proc.devRef .tc b) = m ((c : Thread nD τ).loc b) :=
  (StableHlo.after_of_writes_sub hostOps2 _ hostOps2_writes h2).trans (at4_keeps m ρ c b h0 k0 h1 k1)
theorem at6_keeps (b : Ref sig .tc) (h0 : b ∉ hostOps0_W) (k0 : b ≠ main_v17) (h1 : b ∉ hostOps1_W) (k1 : b ≠ main_v35) (h2 : b ∉ hostOps2_W) (k2 : b ≠ main_v53) : at6 m ρ c (Proc.devRef .tc b) = m ((c : Thread nD τ).loc b) :=
  (at6_same m ρ c b k2).trans (at5_keeps m ρ c b h0 k0 h1 k1 h2)

/-! ## The three embeddings -/

/-- After call 0 its output holds the first embedding. -/
theorem first : at2 m ρ c (Proc.devRef .tc main_v17) = emb1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((at2_arr m ρ c 4).trans (output0 (in1 m ρ) c)).trans ?_
  show layer (F := Ideal) (at1 m ρ c (Proc.devRef .tc main_arg0)) (after hostOps0 (at0 m ρ c) (main_v12 : DevRef τ sig))
    (after hostOps0 (at0 m ρ c) (main_v14 : DevRef τ sig)) (after hostOps0 (at0 m ρ c) (main_v16 : DevRef τ sig)) = _
  rw [at1_keeps m ρ c main_arg0 (by decide), sums0, left0, right0]
  rfl

/-- It is still there when call 1 is entered, and afterwards. -/
theorem first_at3 : at3 m ρ c (Proc.devRef .tc main_v17) = emb1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (StableHlo.after_of_writes_sub hostOps1 _ hostOps1_writes (by decide)).trans (first m ρ c)
theorem first_at6 : at6 m ρ c (Proc.devRef .tc main_v17) = emb1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (at6_same m ρ c main_v17 (by decide)).trans <| (StableHlo.after_of_writes_sub hostOps2 _ hostOps2_writes (by decide)).trans <|
    (at4_same m ρ c main_v17 (by decide)).trans (first_at3 m ρ c)

/-- After call 1 its output holds the second embedding. -/
theorem second : at4 m ρ c (Proc.devRef .tc main_v35) = emb2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((at4_arr m ρ c 4).trans (output1 (in3 m ρ) c)).trans ?_
  show layer (F := Ideal) (at3 m ρ c (Proc.devRef .tc main_v17)) (after hostOps1 (at2 m ρ c) (main_v30 : DevRef τ sig))
    (after hostOps1 (at2 m ρ c) (main_v32 : DevRef τ sig)) (after hostOps1 (at2 m ρ c) (main_v34 : DevRef τ sig)) = _
  rw [first_at3, sums1, left1, right1]
  show layer (F := Ideal) _ (spmm (F := Ideal) (at2 m ρ c (Proc.devRef .tc main_v17)) (at2 m ρ c (Proc.devRef .tc main_arg3)) (at2 m ρ c (Proc.devRef .tc main_arg4)) (at2 m ρ c (Proc.devRef .tc main_arg5)))
    (weight1 (F := Ideal) (at2 m ρ c (Proc.devRef .tc main_arg1))) (weight1 (F := Ideal) (at2 m ρ c (Proc.devRef .tc main_arg2))) = _
  rw [first, at2_keeps m ρ c main_arg1 (by decide) (by decide), at2_keeps m ρ c main_arg2 (by decide) (by decide), at2_keeps m ρ c main_arg3 (by decide) (by decide),
    at2_keeps m ρ c main_arg4 (by decide) (by decide), at2_keeps m ρ c main_arg5 (by decide) (by decide)]
  rfl

theorem second_at5 : at5 m ρ c (Proc.devRef .tc main_v35) = emb2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (StableHlo.after_of_writes_sub hostOps2 _ hostOps2_writes (by decide)).trans (second m ρ c)
theorem second_at6 : at6 m ρ c (Proc.devRef .tc main_v35) = emb2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (at6_same m ρ c main_v35 (by decide)).trans (second_at5 m ρ c)

/-- After call 2 its output holds the third embedding. -/
theorem third : at6 m ρ c (Proc.devRef .tc main_v53) = emb3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((at6_arr m ρ c 4).trans (output2 (in5 m ρ) c)).trans ?_
  show layer (F := Ideal) (at5 m ρ c (Proc.devRef .tc main_v35)) (after hostOps2 (at4 m ρ c) (main_v48 : DevRef τ sig))
    (after hostOps2 (at4 m ρ c) (main_v50 : DevRef τ sig)) (after hostOps2 (at4 m ρ c) (main_v52 : DevRef τ sig)) = _
  rw [second_at5, sums2, left2, right2]
  show layer (F := Ideal) _ (spmm (F := Ideal) (at4 m ρ c (Proc.devRef .tc main_v35)) (at4 m ρ c (Proc.devRef .tc main_arg3)) (at4 m ρ c (Proc.devRef .tc main_arg4)) (at4 m ρ c (Proc.devRef .tc main_arg5)))
    (weight2 (F := Ideal) (at4 m ρ c (Proc.devRef .tc main_arg1))) (weight2 (F := Ideal) (at4 m ρ c (Proc.devRef .tc main_arg2))) = _
  rw [second, at4_keeps m ρ c main_arg1 (by decide) (by decide) (by decide) (by decide), at4_keeps m ρ c main_arg2 (by decide) (by decide) (by decide) (by decide), at4_keeps m ρ c main_arg3 (by decide) (by decide) (by decide) (by decide),
    at4_keeps m ρ c main_arg4 (by decide) (by decide) (by decide) (by decide), at4_keeps m ρ c main_arg5 (by decide) (by decide) (by decide) (by decide)]
  rfl

/-! ## The two results -/

theorem result_users : at7 m ρ c (Proc.devRef .tc main_v63) = outUsers (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show after hostOps3 (at6 m ρ c) (main_v63 : DevRef τ sig) = _
  rw [lookupUsers]
  show users (F := Ideal) (at6 m ρ c (Proc.devRef .tc main_arg0)) (at6 m ρ c (Proc.devRef .tc main_v17)) (at6 m ρ c (Proc.devRef .tc main_v35)) (at6 m ρ c (Proc.devRef .tc main_v53)) (at6 m ρ c (Proc.devRef .tc main_arg6)) = _
  rw [first_at6, second_at6, third, at6_keeps m ρ c main_arg0 (by decide) (by decide) (by decide) (by decide) (by decide) (by decide), at6_keeps m ρ c main_arg6 (by decide) (by decide) (by decide) (by decide) (by decide) (by decide)]
  rfl

theorem result_items : at7 m ρ c (Proc.devRef .tc main_v70) = outItems (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  show after hostOps3 (at6 m ρ c) (main_v70 : DevRef τ sig) = _
  rw [lookupItems]
  show items (F := Ideal) (at6 m ρ c (Proc.devRef .tc main_arg0)) (at6 m ρ c (Proc.devRef .tc main_v17)) (at6 m ρ c (Proc.devRef .tc main_v35)) (at6 m ρ c (Proc.devRef .tc main_v53)) (at6 m ρ c (Proc.devRef .tc main_arg7)) = _
  rw [first_at6, second_at6, third, at6_keeps m ρ c main_arg0 (by decide) (by decide) (by decide) (by decide) (by decide) (by decide), at6_keeps m ρ c main_arg7 (by decide) (by decide) (by decide) (by decide) (by decide) (by decide)]
  rfl

end Cert.KernelIdeal.Combine

end
-- ==== Proof.lean ====
/-
  Three layers of neighbourhood message passing, computed two ways.

  Both programs start from the embeddings `E0` and, three times over, form the neighbourhood sums `S = A·E` of the
  current embeddings (gather the source rows, scale by the edge weights, add up per destination row), then the next
  embeddings `leaky((S + E)·W1 + (E ∘ S)·W2)`; they end by putting the four embeddings side by side and looking up a
  batch of user rows and a batch of item rows. The kernel program does the dense step in a tiled call, 5000 rows at a
  time, with the two matrix products on the matrix unit into a zero accumulator; the reference does it on the whole
  array with two host products. On the extended reals the two agree entry by entry: a product into a zero accumulator
  and a host product are the same sum over the 64 contracted coordinates, a change of float format is the identity, a
  row of a tile is a row of the array, and the only other difference — `z · slope` against `slope · z` — is the
  commutativity of multiplication. No algebraic law that needs finiteness is used, so the precondition is never opened.

  The frames: each program terminates without a fault and writes no argument — for the two kernel programs because a
  host stretch writes only its own results and a call only its output array; for the reference because it is a
  straight line of host operations. The idealization rewrote nothing, so the preservation claim is trivial.
-/
import proofs.«133226_j223338299967_1_alg».proof.Defs
import proofs.«133226_j223338299967_1_alg».proof.Proof.Gen.Kernel
import proofs.«133226_j223338299967_1_alg».proof.Proof.Gen.KernelIdeal
import proofs.«133226_j223338299967_1_alg».proof.Proof.Gen.ReferenceIdeal
import proofs.«133226_j223338299967_1_alg».proof.Proof.Gen.Pre_finite_inputs
import proofs.«133226_j223338299967_1_alg».proof.Proof.KRun
import proofs.«133226_j223338299967_1_alg».proof.Proof.KIRun
import proofs.«133226_j223338299967_1_alg».proof.Proof.KIValue
import proofs.«133226_j223338299967_1_alg».proof.Proof.RefValue
import Idealize.ShloMosaic.Adequacy
import Idealize.ShloMosaic.Init

noncomputable section

namespace Cert.Proof

open Idealize.ShloMosaic Idealize.SL.Sem
open Cert.ReferenceIdeal.Line (outUsers outItems)

theorem frame_kernel : Cert.frame_Kernel := fun m ρ _ => Cert.Kernel.Combine.frame m ρ
theorem frame_kernelIdeal : Cert.frame_KernelIdeal := fun m ρ _ => Cert.KernelIdeal.Combine.frame m ρ
theorem frame_referenceIdeal : Cert.frame_ReferenceIdeal := fun m ρ _ =>
  (θ_run Cert.ReferenceIdeal.defs _ _).mono (fun _ h c => (h c).2.2) (Cert.ReferenceIdeal.Line.run_value (F := Ideal) m ρ)

theorem preserves : Cert.preserves_Kernel_KernelIdeal := trivial

/-- Both runs end with the user rows and the item rows of the same four embeddings of the same arguments. -/
theorem algebraic : Cert.algebraic_KernelIdeal_ReferenceIdeal := by
  intro m ρ m' ρ' _ hagree
  refine ⟨fun c => outUsers (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => outItems (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)), ?_, ?_⟩
  · exact (θ_run Cert.KernelIdeal.defs _ _).mono (fun r h c => ⟨
      (h c _ (Cert.KernelIdeal.Combine.mem_uc Cert.KernelIdeal.main_v63 (by decide))).trans (Cert.KernelIdeal.Combine.result_users m ρ c),
      (h c _ (Cert.KernelIdeal.Combine.mem_uc Cert.KernelIdeal.main_v70 (by decide))).trans (Cert.KernelIdeal.Combine.result_items m ρ c),
      (h c _ (Cert.KernelIdeal.Combine.mem_uc Cert.KernelIdeal.main_arg0 (by decide))).trans (Cert.KernelIdeal.Combine.at7_untouched m ρ c Cert.KernelIdeal.main_arg0 (by decide) (by decide) (by decide) (by decide) (by decide) (by decide) (by decide)),
      (h c _ (Cert.KernelIdeal.Combine.mem_uc Cert.KernelIdeal.main_arg1 (by decide))).trans (Cert.KernelIdeal.Combine.at7_untouched m ρ c Cert.KernelIdeal.main_arg1 (by decide) (by decide) (by decide) (by decide) (by decide) (by decide) (by decide)),
      (h c _ (Cert.KernelIdeal.Combine.mem_uc Cert.KernelIdeal.main_arg2 (by decide))).trans (Cert.KernelIdeal.Combine.at7_untouched m ρ c Cert.KernelIdeal.main_arg2 (by decide) (by decide) (by decide) (by decide) (by decide) (by decide) (by decide)),
      (h c _ (Cert.KernelIdeal.Combine.mem_uc Cert.KernelIdeal.main_arg3 (by decide))).trans (Cert.KernelIdeal.Combine.at7_untouched m ρ c Cert.KernelIdeal.main_arg3 (by decide) (by decide) (by decide) (by decide) (by decide) (by decide) (by decide)),
      (h c _ (Cert.KernelIdeal.Combine.mem_uc Cert.KernelIdeal.main_arg4 (by decide))).trans (Cert.KernelIdeal.Combine.at7_untouched m ρ c Cert.KernelIdeal.main_arg4 (by decide) (by decide) (by decide) (by decide) (by decide) (by decide) (by decide)),
      (h c _ (Cert.KernelIdeal.Combine.mem_uc Cert.KernelIdeal.main_arg5 (by decide))).trans (Cert.KernelIdeal.Combine.at7_untouched m ρ c Cert.KernelIdeal.main_arg5 (by decide) (by decide) (by decide) (by decide) (by decide) (by decide) (by decide)),
      (h c _ (Cert.KernelIdeal.Combine.mem_uc Cert.KernelIdeal.main_arg6 (by decide))).trans (Cert.KernelIdeal.Combine.at7_untouched m ρ c Cert.KernelIdeal.main_arg6 (by decide) (by decide) (by decide) (by decide) (by decide) (by decide) (by decide)),
      (h c _ (Cert.KernelIdeal.Combine.mem_uc Cert.KernelIdeal.main_arg7 (by decide))).trans (Cert.KernelIdeal.Combine.at7_untouched m ρ c Cert.KernelIdeal.main_arg7 (by decide) (by decide) (by decide) (by decide) (by decide) (by decide) (by decide))⟩)
      (Cert.KernelIdeal.Combine.run m ρ)
  · refine (θ_run Cert.ReferenceIdeal.defs _ _).mono (fun r h c => ?_) (Cert.ReferenceIdeal.Line.run_value (F := Ideal) m' ρ')
    obtain ⟨hu, hi, hkept⟩ := h c
    obtain ⟨g0, g1, g2, g3, g4, g5, g6, g7⟩ := hagree c
    refine ⟨hu.trans ?_, hi.trans ?_, hkept⟩
    · rw [g0, g1, g2, g3, g4, g5, g6]
    · rw [g0, g1, g2, g3, g4, g5, g7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
